-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S16384 : Shape := ⟨1, ![16384]⟩
abbrev S50000x128 : Shape := ⟨2, ![50000, 128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S4096x16384 32) (main_arg1 : IVec S16384 32) (main_arg2 : IVec S4096x16384 32) (main_arg3 : IVec S16384 32) (main_arg4 : FVec F S50000x128 .f32) (main_arg5 : FVec F S50000x128 .f32) (main_arg6 : FVec F S1 .f32) : IVec S_ 1 :=
  let main_v0 : FVec F S50000x128 .f32 := Host.absf main_arg4
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg5
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S1 .f32 := Host.absf main_arg6
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S4096x16384 : Shape := ⟨2, ![4096, 16384]⟩
abbrev S16384 : Shape := ⟨1, ![16384]⟩
abbrev S50000x128 : Shape := ⟨2, ![50000, 128]⟩
abbrev S1 : Shape := ⟨1, ![1]⟩
abbrev S_ : Shape := ⟨0, ![]⟩
abbrev S16384x1 : Shape := ⟨2, ![16384, 1]⟩
abbrev S16384x128 : Shape := ⟨2, ![16384, 128]⟩
abbrev S4096x128 : Shape := ⟨2, ![4096, 128]⟩
abbrev S1024x2048 : Shape := ⟨2, ![1024, 2048]⟩
abbrev S2048x128 : Shape := ⟨2, ![2048, 128]⟩
abbrev S1024x128 : Shape := ⟨2, ![1024, 128]⟩
abbrev S1024x1 : Shape := ⟨2, ![1024, 1]⟩
abbrev S1024 : Shape := ⟨1, ![1024]⟩
abbrev S1x1 : Shape := ⟨2, ![1, 1]⟩

abbrev nBuf : Space → Nat
  | .hbm => 39
  | .vmem => 16
  | .smem => 0
  | _ => 0

abbrev bufTy : (tb : Table) → Fin (tcTables nBuf tb) → BufTy
  | .hbm, ⟨0, _⟩ => ⟨S4096x16384, .i32⟩
  | .hbm, ⟨1, _⟩ => ⟨S16384, .i32⟩
  | .hbm, ⟨2, _⟩ => ⟨S4096x16384, .i32⟩
  | .hbm, ⟨3, _⟩ => ⟨S16384, .i32⟩
  | .hbm, ⟨4, _⟩ => ⟨S50000x128, .f32⟩
  | .hbm, ⟨5, _⟩ => ⟨S50000x128, .f32⟩
  | .hbm, ⟨6, _⟩ => ⟨S1, .f32⟩
  | .hbm, ⟨7, _⟩ => ⟨S_, .i32⟩
  | .hbm, ⟨8, _⟩ => ⟨S16384, .i32⟩
  | .hbm, ⟨9, _⟩ => ⟨S16384, .i1⟩
  | .hbm, ⟨10, _⟩ => ⟨S_, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S16384x1, .i32⟩
  | .hbm, ⟨15, _⟩ => ⟨S16384x128, .f32⟩
  | .hbm, ⟨16, _⟩ => ⟨S16384x128, .bf16⟩
  | .hbm, ⟨17, _⟩ => ⟨S_, .i32⟩
  | .hbm, ⟨18, _⟩ => ⟨S16384, .i32⟩
  | .hbm, ⟨19, _⟩ => ⟨S16384, .i1⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384, .i32⟩
  | .hbm, ⟨24, _⟩ => ⟨S16384x1, .i32⟩
  | .hbm, ⟨25, _⟩ => ⟨S16384x128, .f32⟩
  | .hbm, ⟨26, _⟩ => ⟨S16384x128, .bf16⟩
  | .hbm, ⟨27, _⟩ => ⟨S4096x128, .f32⟩
  | .hbm, ⟨28, _⟩ => ⟨S4096x128, .f32⟩
  | .hbm, ⟨29, _⟩ => ⟨S1x1, .f32⟩
  | .hbm, ⟨30, _⟩ => ⟨S4096x128, .f32⟩
  | .hbm, ⟨31, _⟩ => ⟨S4096x128, .f32⟩
  | .hbm, ⟨32, _⟩ => ⟨S_, .f32⟩
  | .hbm, ⟨33, _⟩ => ⟨S1, .f32⟩
  | .hbm, ⟨34, _⟩ => ⟨S1, .f32⟩
  | .hbm, ⟨35, _⟩ => ⟨S1x1, .f32⟩
  | .hbm, ⟨36, _⟩ => ⟨S4096x128, .f32⟩
  | .hbm, ⟨37, _⟩ => ⟨S4096x128, .f32⟩
  | .hbm, ⟨38, _⟩ => ⟨S4096x128, .f32⟩
  | .local _ .vmem, ⟨0, _⟩ => ⟨S1024x2048, .i32⟩
  | .local _ .vmem, ⟨1, _⟩ => ⟨S1024x2048, .i32⟩
  | .local _ .vmem, ⟨2, _⟩ => ⟨S2048x128, .bf16⟩
  | .local _ .vmem, ⟨3, _⟩ => ⟨S2048x128, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x1, .f32⟩
  | .local _ .vmem, ⟨8, _⟩ => ⟨S1024x2048, .i32⟩
  | .local _ .vmem, ⟨9, _⟩ => ⟨S1024x2048, .i32⟩
  | .local _ .vmem, ⟨10, _⟩ => ⟨S2048x128, .bf16⟩
  | .local _ .vmem, ⟨11, _⟩ => ⟨S2048x128, .bf16⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x1, .f32⟩
  | _, _ => ⟨S4096x16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_13 : BitVec 32 := 0#32
  let v23 : BitVec 1 := Scalar.cmpi .ne v22 c0_i32_13
  v23

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  reduces_S1024x2048_S1024 : S1024x2048.Reduces [1] S1024
  shapeCasts_S1024_S1024x1 : S1024.ShapeCasts S1024x1
  broadcasts_S1024x1_S1024x128 : S1024x1.Broadcasts S1024x128
  bcast_S1_S1x1_1 : S1.BroadcastsInDim S1x1 (![1] : Fin 1 → Fin S1x1.rank)
  bcast_S1x1_S4096x128_0_1 : S1x1.BroadcastsInDim S4096x128 (![0, 1] : Fin 2 → Fin S4096x128.rank)
  bcast_S_S1 : S_.BroadcastsInDim S1 (![] : Fin 0 → Fin S1.rank)
  gather_S50000x128_S16384x1_S16384x128_1_0_n_n_0_1_1128_wf : GatherDims.WF S50000x128 S16384x1 S16384x128 [1] [0] [] [0] [] 1 ![1, 128]
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x16384.size a
  hwx0_0 : ∀ i : grid0.Coords, EltTy.bits .i32 = 32 ∨ (Rect.block (s := S4096x16384) S1024x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S16384x128.size a
  hwx0_1 : ∀ i : grid0.Coords, EltTy.bits .bf16 = 32 ∨ (Rect.block (s := S16384x128) S2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S4096x128.size a
  hwx0_2 : ∀ i : grid0.Coords, EltTy.bits .f32 = 32 ∨ (Rect.block (s := S4096x128) S1024x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S4096x16384.size a
  hwx1_0 : ∀ i : grid1.Coords, EltTy.bits .i32 = 32 ∨ (Rect.block (s := S4096x16384) S1024x2048.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S16384x128.size a
  hwx1_1 : ∀ i : grid1.Coords, EltTy.bits .bf16 = 32 ∨ (Rect.block (s := S16384x128) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S4096x128.size a
  hwx1_2 : ∀ i : grid1.Coords, EltTy.bits .f32 = 32 ∨ (Rect.block (s := S4096x128) S1024x128.size (cc1_transform_2 i) (hinb1_2 i)).WholeWords (EltTy.packing .f32)

variable [Facts₀]

def gather_S50000x128_S16384x1_S16384x128_1_0_n_n_0_1_1128 : GatherDims S50000x128 S16384x1 S16384x128 where
  offsetDims := [1]
  collapsedSliceDims := [0]
  operandBatchingDims := []
  startIndicesBatchingDims := []
  startIndexMap := [0]
  indexVectorDim := 1
  sliceSizes := ![1, 128]
  wf := gather_S50000x128_S16384x1_S16384x128_1_0_n_n_0_1_1128_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg2) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4096x16384 : Shape := ⟨2, ![4096, 16384]⟩
abbrev S16384 : Shape := ⟨1, ![16384]⟩
abbrev S50000x128 : Shape := ⟨2, ![50000, 128]⟩
abbrev S1 : Shape := ⟨1, ![1]⟩
abbrev S_ : Shape := ⟨0, ![]⟩
abbrev S4096 : Shape := ⟨1, ![4096]⟩
abbrev S4096x1 : Shape := ⟨2, ![4096, 1]⟩
abbrev S16384x1 : Shape := ⟨2, ![16384, 1]⟩
abbrev S16384x128 : Shape := ⟨2, ![16384, 128]⟩
abbrev S4096x128 : Shape := ⟨2, ![4096, 128]⟩
abbrev S1x1 : Shape := ⟨2, ![1, 1]⟩

abbrev nBuf : Space → Nat
  | .hbm => 63
  | .vmem => 0
  | .smem => 0
  | _ => 0

abbrev bufTy : (tb : Table) → Fin (tcTables nBuf tb) → BufTy
  | .hbm, ⟨0, _⟩ => ⟨S4096x16384, .i32⟩
  | .hbm, ⟨1, _⟩ => ⟨S16384, .i32⟩
  | .hbm, ⟨2, _⟩ => ⟨S4096x16384, .i32⟩
  | .hbm, ⟨3, _⟩ => ⟨S16384, .i32⟩
  | .hbm, ⟨4, _⟩ => ⟨S50000x128, .f32⟩
  | .hbm, ⟨5, _⟩ => ⟨S50000x128, .f32⟩
  | .hbm, ⟨6, _⟩ => ⟨S1, .f32⟩
  | .hbm, ⟨7, _⟩ => ⟨S4096x16384, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .i1⟩
  | .hbm, ⟨14, _⟩ => ⟨S4096x16384, .f32⟩
  | .hbm, ⟨15, _⟩ => ⟨S4096x16384, .f32⟩
  | .hbm, ⟨16, _⟩ => ⟨S_, .f32⟩
  | .hbm, ⟨17, _⟩ => ⟨S4096x16384, .f32⟩
  | .hbm, ⟨18, _⟩ => ⟨S4096x16384, .i1⟩
  | .hbm, ⟨19, _⟩ => ⟨S4096x16384, .f32⟩
  | .hbm, ⟨20, _⟩ => ⟨S_, .i32⟩
  | .hbm, ⟨21, _⟩ => ⟨S16384, .i32⟩
  | .hbm, ⟨22, _⟩ => ⟨S16384, .i1⟩
  | .hbm, ⟨23, _⟩ => ⟨S_, .i32⟩
  | .hbm, ⟨24, _⟩ => ⟨S16384, .i32⟩
  | .hbm, ⟨25, _⟩ => ⟨S16384, .i32⟩
  | .hbm, ⟨26, _⟩ => ⟨S16384, .i32⟩
  | .hbm, ⟨27, _⟩ => ⟨S16384x1, .i32⟩
  | .hbm, ⟨28, _⟩ => ⟨S16384x128, .f32⟩
  | .hbm, ⟨29, _⟩ => ⟨S4096x128, .f32⟩
  | .hbm, ⟨30, _⟩ => ⟨S4096x16384, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .i1⟩
  | .hbm, ⟨37, _⟩ => ⟨S4096x16384, .f32⟩
  | .hbm, ⟨38, _⟩ => ⟨S4096x16384, .f32⟩
  | .hbm, ⟨39, _⟩ => ⟨S_, .f32⟩
  | .hbm, ⟨40, _⟩ => ⟨S4096x16384, .f32⟩
  | .hbm, ⟨41, _⟩ => ⟨S4096x16384, .i1⟩
  | .hbm, ⟨42, _⟩ => ⟨S4096x16384, .f32⟩
  | .hbm, ⟨43, _⟩ => ⟨S_, .i32⟩
  | .hbm, ⟨44, _⟩ => ⟨S16384, .i32⟩
  | .hbm, ⟨45, _⟩ => ⟨S16384, .i1⟩
  | .hbm, ⟨46, _⟩ => ⟨S_, .i32⟩
  | .hbm, ⟨47, _⟩ => ⟨S16384, .i32⟩
  | .hbm, ⟨48, _⟩ => ⟨S16384, .i32⟩
  | .hbm, ⟨49, _⟩ => ⟨S16384, .i32⟩
  | .hbm, ⟨50, _⟩ => ⟨S16384x1, .i32⟩
  | .hbm, ⟨51, _⟩ => ⟨S16384x128, .f32⟩
  | .hbm, ⟨52, _⟩ => ⟨S4096x128, .f32⟩
  | .hbm, ⟨53, _⟩ => ⟨S1x1, .f32⟩
  | .hbm, ⟨54, _⟩ => ⟨S4096x128, .f32⟩
  | .hbm, ⟨55, _⟩ => ⟨S4096x128, .f32⟩
  | .hbm, ⟨56, _⟩ => ⟨S_, .f32⟩
  | .hbm, ⟨57, _⟩ => ⟨S1, .f32⟩
  | .hbm, ⟨58, _⟩ => ⟨S1, .f32⟩
  | .hbm, ⟨59, _⟩ => ⟨S1x1, .f32⟩
  | .hbm, ⟨60, _⟩ => ⟨S4096x128, .f32⟩
  | .hbm, ⟨61, _⟩ => ⟨S4096x128, .f32⟩
  | .hbm, ⟨62, _⟩ => ⟨S4096x128, .f32⟩
  | _, _ => ⟨S4096x16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_call0_v0 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_call1_v0 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_c_7 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]

class Facts₀ : Prop where
  reducesTo_S4096x16384_S4096_d1 : S4096x16384.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x16384_0_1 : S4096x1.BroadcastsInDim S4096x16384 (![0, 1] : Fin 2 → Fin S4096x16384.rank)
  bcast_S_S4096x16384 : S_.BroadcastsInDim S4096x16384 (![] : Fin 0 → Fin S4096x16384.rank)
  bcast_S_S16384 : S_.BroadcastsInDim S16384 (![] : Fin 0 → Fin S16384.rank)
  bcast_S16384_S16384x1_0 : S16384.BroadcastsInDim S16384x1 (![0] : Fin 1 → Fin S16384x1.rank)
  bcast_S1_S1x1_1 : S1.BroadcastsInDim S1x1 (![1] : Fin 1 → Fin S1x1.rank)
  bcast_S1x1_S4096x128_0_1 : S1x1.BroadcastsInDim S4096x128 (![0, 1] : Fin 2 → Fin S4096x128.rank)
  bcast_S_S1 : S_.BroadcastsInDim S1 (![] : Fin 0 → Fin S1.rank)
  gather_S50000x128_S16384x1_S16384x128_1_0_n_n_0_1_1128_wf : GatherDims.WF S50000x128 S16384x1 S16384x128 [1] [0] [] [0] [] 1 ![1, 128]
  dot_S4096x16384_S16384x128_S4096x128_1_0_0_1_n_n_wf : DotDims.WF S4096x16384 S16384x128 S4096x128 [1] [0] [0] [1] [] []

variable [Facts₀]

def gather_S50000x128_S16384x1_S16384x128_1_0_n_n_0_1_1128 : GatherDims S50000x128 S16384x1 S16384x128 where
  offsetDims := [1]
  collapsedSliceDims := [0]
  operandBatchingDims := []
  startIndicesBatchingDims := []
  startIndexMap := [0]
  indexVectorDim := 1
  sliceSizes := ![1, 128]
  wf := gather_S50000x128_S16384x1_S16384x128_1_0_n_n_0_1_1128_wf
def dot_S4096x16384_S16384x128_S4096x128_1_0_0_1_n_n : DotDims S4096x16384 S16384x128 S4096x128 where
  lhsContracting := [1]
  rhsContracting := [0]
  lhsNonContracting := [0]
  rhsNonContracting := [1]
  lhsBatch := []
  rhsBatch := []
  wf := dot_S4096x16384_S16384x128_S4096x128_1_0_0_1_n_n_wf

class Facts : Prop extends Facts₀ where

variable [Facts]
-- ==== Proof.KReg0Runs.lean ====
/-
  Region 0 of the program (the mean aggregation of relation 0): what the two runs of its body share — the body's two
  conditions decided over the grid, where its windows are idle, the memrefs it is called with — and the body's run in each of
  its three cases: a row block's first point (accumulators reset, then added to), its middle points (added to), its last point
  (added to, and the output block stored). Stated at any float instance.
-/
import proofs.«102029_j50019189129705_1_alg».proof.Proof.Gen.Kernel.Launch
import proofs.«102029_j50019189129705_1_alg».proof.Proof.Gen.Kernel.Skeleton
import proofs.«102029_j50019189129705_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, decided over the grid -/

/-- The first condition of the body (the column coordinate of the grid point is 0: a row block's first point). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second condition (the column coordinate is 7: a row block's last point). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S1024x128 .f32 := (Memref.whole cc0_stg2_0 : Memref sig .tc .vmem S1024x128 .f32).view
abbrev ms0_0 (t : Fin cfg0.N) : Memref sig .tc .vmem S1024x2048 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
/-- The two scratch accumulators: the weighted sum and the degree. -/
abbrev scM0_0 : Memref sig .tc .vmem S1024x128 .f32 := Memref.whole cc0_scratch0
abbrev scM0_1 : Memref sig .tc .vmem S1024x1 .f32 := Memref.whole cc0_scratch1
abbrev VS0_0 : View sig .tc .vmem S1024x128 .f32 := scM0_0.view
abbrev VS0_1 : View sig .tc .vmem S1024x1 .f32 := scM0_1.view

/-- The class invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r)) := by
  unfold Pipeline.ΦA; rw [scopedRest0_eq]; simp only [scM0_0, scM0_1, owns_whole]; try rfl

/-! ## The body's run, case by case -/

set_option maxHeartbeats 4000000 in
/-- A row block's FIRST point (condition 0 holds, condition 1 does not): both accumulators are reset, then added to; the output
    window is left untouched. The pieces each accumulator ends with are the witness the run finds. -/
noncomputable def kernelRun0_A (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : cond0_0 i) (hc1 : ¬cond0_1 i)
    (x0 : Vec F S1024x2048 .i32) (x1 : Vec F S2048x128 .bf16) :
    Σ' (L2 : List (View.Piece (Elt F) S1024x128 .f32)) (LS0 : List (View.Piece (Elt F) S1024x128 .f32)), { LS1 : List (View.Piece (Elt F) S1024x1 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__agg_kernel i arg2 harg2 arg3 harg3 arg4 harg4 arg5 harg5 arg6 harg6) K } := by
  refine ⟨[], ?_, ?_, fun xi2 E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

set_option maxHeartbeats 4000000 in
/-- A row block's MIDDLE points (neither condition holds): both accumulators, found at what the point before left, are added to;
    the output window is left untouched. -/
noncomputable def kernelRun0_B (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond0_0 i) (hc1 : ¬cond0_1 i)
    (x0 : Vec F S1024x2048 .i32) (x1 : Vec F S2048x128 .bf16) (xs0 : Vec F S1024x128 .f32) (xs1 : Vec F S1024x1 .f32) :
    Σ' (L2 : List (View.Piece (Elt F) S1024x128 .f32)) (LS0 : List (View.Piece (Elt F) S1024x128 .f32)), { LS1 : List (View.Piece (Elt F) S1024x1 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__agg_kernel i arg2 harg2 arg3 harg3 arg4 harg4 arg5 harg5 arg6 harg6) K } := by
  refine ⟨[], ?_, ?_, fun xi2 E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

set_option maxHeartbeats 4000000 in
/-- A row block's LAST point (condition 1 holds, condition 0 does not): both accumulators are added to, and the output window is
    stored whole with the scaled sum. -/
noncomputable def kernelRun0_C (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond0_0 i) (hc1 : cond0_1 i)
    (x0 : Vec F S1024x2048 .i32) (x1 : Vec F S2048x128 .bf16) (xs0 : Vec F S1024x128 .f32) (xs1 : Vec F S1024x1 .f32) :
    Σ' (L2 : List (View.Piece (Elt F) S1024x128 .f32)) (LS0 : List (View.Piece (Elt F) S1024x128 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__agg_kernel i arg2 harg2 arg3 harg3 arg4 harg4 arg5 harg5 arg6 harg6) K } := by
  refine ⟨?_, ?_, ?_, fun E K => ?run⟩
  case run =>
    simp only [cc0__agg_kernel_eq_skeleton]; unfold cc0__agg_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.Reg0

end
-- ==== Proof.KReg0Data.lean ====
/-
  Region 0 of the program: what its output block and its two accumulators hold after every grid point (a recursion on the
  point: reset at a row block's first point, added to at the others, the output stored at the last), the region's invariant
  carrying the accumulators from one point to the next, the pipeline's proof data and the body obligation. Stated at any
  float instance and at any contents `V` of the buffers when the region is entered.
-/
import proofs.«102029_j50019189129705_1_alg».proof.Proof.KReg0Runs
import proofs.«102029_j50019189129705_1_alg».proof.Proof.Gen.Kernel.Skeleton
import proofs.«102029_j50019189129705_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the output window and in the two accumulators -/

/-- Case A: the pieces the run leaves in the weighted-sum accumulator cover it. -/
theorem scover0_A_0 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : cond0_0 i) (hc1 : ¬cond0_1 i)
    (x0 : Vec F S1024x2048 .i32) (x1 : Vec F S2048x128 .bf16) (y : S1024x128.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S1024x128.size (by sl_kernel_rfl) y
/-- Case A: the pieces the run leaves in the degree accumulator cover it. -/
theorem scover0_A_1 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : cond0_0 i) (hc1 : ¬cond0_1 i)
    (x0 : Vec F S1024x2048 .i32) (x1 : Vec F S2048x128 .bf16) (y : S1024x1.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S1024x1.size (by sl_kernel_rfl) y
/-- Case A: what the output window's buffer holds after the body (its pieces read back; nothing is stored in cases A and B). -/
def out0_A_2 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : cond0_0 i) (hc1 : ¬cond0_1 i)
    (x0 : Vec F S1024x2048 .i32) (x1 : Vec F S2048x128 .bf16) : Vec F S1024x128 .f32 :=
  VO0_2.read (Elt F) (VO0_2.writes (Elt F) VO0_2.junk (kernelRun0_A c i arg2 harg2 arg3 harg3 arg4 harg4 arg5 harg5 arg6 harg6 hc0 hc1 x0 x1).1)
/-- Case A: what the weighted-sum accumulator holds after the body. -/
def sout0_A_0 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : cond0_0 i) (hc1 : ¬cond0_1 i)
    (x0 : Vec F S1024x2048 .i32) (x1 : Vec F S2048x128 .bf16) : Vec F S1024x128 .f32 :=
  VS0_0.read (Elt F) (VS0_0.writes (Elt F) VS0_0.junk (kernelRun0_A c i arg2 harg2 arg3 harg3 arg4 harg4 arg5 harg5 arg6 harg6 hc0 hc1 x0 x1).2.1)
/-- Case A: what the degree accumulator holds after the body. -/
def sout0_A_1 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : cond0_0 i) (hc1 : ¬cond0_1 i)
    (x0 : Vec F S1024x2048 .i32) (x1 : Vec F S2048x128 .bf16) : Vec F S1024x1 .f32 :=
  VS0_1.read (Elt F) (VS0_1.writes (Elt F) VS0_1.junk (kernelRun0_A c i arg2 harg2 arg3 harg3 arg4 harg4 arg5 harg5 arg6 harg6 hc0 hc1 x0 x1).2.2.1)

/-- Case B: the pieces the run leaves in the weighted-sum accumulator cover it. -/
theorem scover0_B_0 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond0_0 i) (hc1 : ¬cond0_1 i)
    (x0 : Vec F S1024x2048 .i32) (x1 : Vec F S2048x128 .bf16) (xs0 : Vec F S1024x128 .f32) (xs1 : Vec F S1024x1 .f32) (y : S1024x128.Idx) :
    ∃ pc ∈ (kernelRun0_B c i arg2 harg2 arg3 harg3 arg4 harg4 arg5 harg5 arg6 harg6 hc0 hc1 x0 x1 xs0 xs1).2.1, y ∈ pc.1.set :=
  View.cover_of_tiledL (kernelRun0_B c i arg2 harg2 arg3 harg3 arg4 harg4 arg5 harg5 arg6 harg6 hc0 hc1 x0 x1 xs0 xs1).2.1 S1024x128.size (by sl_kernel_rfl) y
/-- Case B: the pieces the run leaves in the degree accumulator cover it. -/
theorem scover0_B_1 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond0_0 i) (hc1 : ¬cond0_1 i)
    (x0 : Vec F S1024x2048 .i32) (x1 : Vec F S2048x128 .bf16) (xs0 : Vec F S1024x128 .f32) (xs1 : Vec F S1024x1 .f32) (y : S1024x1.Idx) :
    ∃ pc ∈ (kernelRun0_B c i arg2 harg2 arg3 harg3 arg4 harg4 arg5 harg5 arg6 harg6 hc0 hc1 x0 x1 xs0 xs1).2.2.1, y ∈ pc.1.set :=
  View.cover_of_tiledL (kernelRun0_B c i arg2 harg2 arg3 harg3 arg4 harg4 arg5 harg5 arg6 harg6 hc0 hc1 x0 x1 xs0 xs1).2.2.1 S1024x1.size (by sl_kernel_rfl) y
/-- Case B: what the output window's buffer holds after the body (its pieces read back; nothing is stored in cases A and B). -/
def out0_B_2 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond0_0 i) (hc1 : ¬cond0_1 i)
    (x0 : Vec F S1024x2048 .i32) (x1 : Vec F S2048x128 .bf16) (xs0 : Vec F S1024x128 .f32) (xs1 : Vec F S1024x1 .f32) : Vec F S1024x128 .f32 :=
  VO0_2.read (Elt F) (VO0_2.writes (Elt F) VO0_2.junk (kernelRun0_B c i arg2 harg2 arg3 harg3 arg4 harg4 arg5 harg5 arg6 harg6 hc0 hc1 x0 x1 xs0 xs1).1)
/-- Case B: what the weighted-sum accumulator holds after the body. -/
def sout0_B_0 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond0_0 i) (hc1 : ¬cond0_1 i)
    (x0 : Vec F S1024x2048 .i32) (x1 : Vec F S2048x128 .bf16) (xs0 : Vec F S1024x128 .f32) (xs1 : Vec F S1024x1 .f32) : Vec F S1024x128 .f32 :=
  VS0_0.read (Elt F) (VS0_0.writes (Elt F) VS0_0.junk (kernelRun0_B c i arg2 harg2 arg3 harg3 arg4 harg4 arg5 harg5 arg6 harg6 hc0 hc1 x0 x1 xs0 xs1).2.1)
/-- Case B: what the degree accumulator holds after the body. -/
def sout0_B_1 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond0_0 i) (hc1 : ¬cond0_1 i)
    (x0 : Vec F S1024x2048 .i32) (x1 : Vec F S2048x128 .bf16) (xs0 : Vec F S1024x128 .f32) (xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 hc0 hc1 x0 x1 xs0 xs1).2.2.1)

/-- Case C: the pieces the run leaves in the weighted-sum accumulator cover it. -/
theorem scover0_C_0 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond0_0 i) (hc1 : cond0_1 i)
    (x0 : Vec F S1024x2048 .i32) (x1 : Vec F S2048x128 .bf16) (xs0 : Vec F S1024x128 .f32) (xs1 : Vec F S1024x1 .f32) (y : S1024x128.Idx) :
    ∃ pc ∈ (kernelRun0_C c i arg2 harg2 arg3 harg3 arg4 harg4 arg5 harg5 arg6 harg6 hc0 hc1 x0 x1 xs0 xs1).2.1, y ∈ pc.1.set :=
  View.cover_of_tiledL (kernelRun0_C c i arg2 harg2 arg3 harg3 arg4 harg4 arg5 harg5 arg6 harg6 hc0 hc1 x0 x1 xs0 xs1).2.1 S1024x128.size (by sl_kernel_rfl) y
/-- Case C: the pieces the run leaves in the degree accumulator cover it. -/
theorem scover0_C_1 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond0_0 i) (hc1 : cond0_1 i)
    (x0 : Vec F S1024x2048 .i32) (x1 : Vec F S2048x128 .bf16) (xs0 : Vec F S1024x128 .f32) (xs1 : Vec F S1024x1 .f32) (y : S1024x1.Idx) :
    ∃ pc ∈ (kernelRun0_C c i arg2 harg2 arg3 harg3 arg4 harg4 arg5 harg5 arg6 harg6 hc0 hc1 x0 x1 xs0 xs1).2.2.1, y ∈ pc.1.set :=
  View.cover_of_tiledL (kernelRun0_C c i arg2 harg2 arg3 harg3 arg4 harg4 arg5 harg5 arg6 harg6 hc0 hc1 x0 x1 xs0 xs1).2.2.1 S1024x1.size (by sl_kernel_rfl) y
/-- Case C: what the output window's buffer holds after the body (its pieces read back; nothing is stored in cases A and B). -/
def out0_C_2 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond0_0 i) (hc1 : cond0_1 i)
    (x0 : Vec F S1024x2048 .i32) (x1 : Vec F S2048x128 .bf16) (xs0 : Vec F S1024x128 .f32) (xs1 : Vec F S1024x1 .f32) : Vec F S1024x128 .f32 :=
  VO0_2.read (Elt F) (VO0_2.writes (Elt F) VO0_2.junk (kernelRun0_C c i arg2 harg2 arg3 harg3 arg4 harg4 arg5 harg5 arg6 harg6 hc0 hc1 x0 x1 xs0 xs1).1)
/-- Case C: what the weighted-sum accumulator holds after the body. -/
def sout0_C_0 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond0_0 i) (hc1 : cond0_1 i)
    (x0 : Vec F S1024x2048 .i32) (x1 : Vec F S2048x128 .bf16) (xs0 : Vec F S1024x128 .f32) (xs1 : Vec F S1024x1 .f32) : Vec F S1024x128 .f32 :=
  VS0_0.read (Elt F) (VS0_0.writes (Elt F) VS0_0.junk (kernelRun0_C c i arg2 harg2 arg3 harg3 arg4 harg4 arg5 harg5 arg6 harg6 hc0 hc1 x0 x1 xs0 xs1).2.1)
/-- Case C: what the degree accumulator holds after the body. -/
def sout0_C_1 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond0_0 i) (hc1 : cond0_1 i)
    (x0 : Vec F S1024x2048 .i32) (x1 : Vec F S2048x128 .bf16) (xs0 : Vec F S1024x128 .f32) (xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 hc0 hc1 x0 x1 xs0 xs1).2.2.1)

/-- Case C's one store covers the output block. -/
theorem cover0_C_2 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond0_0 i) (hc1 : cond0_1 i)
    (x0 : Vec F S1024x2048 .i32) (x1 : Vec F S2048x128 .bf16) (xs0 : Vec F S1024x128 .f32) (xs1 : Vec F S1024x1 .f32) (y : S1024x128.Idx) :
    ∃ pc ∈ (kernelRun0_C c i arg2 harg2 arg3 harg3 arg4 harg4 arg5 harg5 arg6 harg6 hc0 hc1 x0 x1 xs0 xs1).1, y ∈ pc.1.set :=
  View.cover_of_tiledL (kernelRun0_C c i arg2 harg2 arg3 harg3 arg4 harg4 arg5 harg5 arg6 harg6 hc0 hc1 x0 x1 xs0 xs1).1 S1024x128.size (by sl_kernel_rfl) y

/-! ## The accumulation, point by point -/

/-- What the output window's buffer and the two accumulators hold after the body at position `n`: the case the position is in
    (first, middle or last point of its row block), run on the point's input blocks and, past a first point, on what the
    point before left in the accumulators. -/
def outsAt0 (c : Dev nD) : (n : ℕ) → n < cfg0.N → Vec F S1024x128 .f32 × Vec F S1024x128 .f32 × Vec F S1024x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2)

theorem outsAt0_A (c : Dev nD) (t : Fin cfg0.N) (h0 : t.val % 8 = 0) (h1 : ¬t.val % 8 = 7) :
    outsAt0 V c t.val t.isLt = (out0_A_2 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t), sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point every scoped buffer that is no staging buffer at anything;
    afterwards the two accumulators at what the point before left in them, the others at anything; the generator register at
    some state. -/
def PhiS0 (c : Dev nD) : (n : ℕ) → n ≤ cfg0.N → sProp 𝕄
  | 0, _ => Pipeline.ΦA spec0 c
  | n + 1, hn => iprop(iprop(owns (c : Thread nD τ) scM0_0 fullShare (outsAt0 V c n hn).2.1 ∗ owns (c : Thread nD τ) scM0_1 fullShare (outsAt0 V c n hn).2.2 ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare (outsAt0 V c n hn).2.1 ∗ owns (c : Thread nD τ) scM0_1 fullShare (outsAt0 V c n hn).2.2 ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r)) := rfl
theorem PhiS0_pos (c : Dev nD) (n : ℕ) (h : n ≤ cfg0.N) (hz : n ≠ 0) :
    PhiS0 V c n h = iprop(iprop(owns (c : Thread nD τ) scM0_0 fullShare (outsAt0 V c (n - 1) (by omega)).2.1 ∗ owns (c : Thread nD τ) scM0_1 fullShare (outsAt0 V c (n - 1) (by omega)).2.2 ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r)) := by
  cases n with
  | zero => exact absurd rfl hz
  | succ n => rfl

/-! ## The pipeline's proof data -/

/-- The proof data of the pipeline on core `c`: the arrays as the region finds them; after the body at point `t` each input's
    buffer at its block and the output's at `outsAt`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the closed forms of the two conditions say which case the point is in; the invariant hands the body
    the accumulators at what the point before left (at anything at a row block's first point, where they are reset before they
    are read) and takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0 sout0_A_1; (try dsimp only)
      by_cases hz : t.val = 0
      · rw [PhiS0_castSucc V c t, PhiS0_zero V c _ _ hz, PhiA0_eq]
        iintro ⟨⟨⟨HS0, HS1, R2, R3, R4, R5, R6, R7, R8, R9⟩, Hg⟩, Ho, ⟨%d0, H0⟩, ⟨%d1, H1⟩, ⟨%d2, H2⟩⟩
        iapply ((kernelRun0_A c (grid0.coords t) _ _ _ _ _ _ _ _ _ _ ((hcond0_0 t).mpr h0) (fun h => h1 ((hcond0_1 t).mp h)) (iblk0 V c 0 t) (iblk0 V c 1 t)).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 R2 R3 R4 R5 R6 R7 R8 R9 Hg]
        · isplitr [Hg]
          isplitl [HS0]
          · unfold owns; iexists _; isplitr
            swap; · iexact HS0
            ipureintro; exact View.read_writes_of_cover _ _ _ _ _ (scover0_A_0 c _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _)
          isplitl [R2]
          · iexact R2
          isplitl [R3]
          · iexact R3
          isplitl [R4]
          · iexact R4
          isplitl [R5]
          · iexact R5
          isplitl [R6]
          · iexact R6
          isplitl [R7]
          · iexact R7
          isplitl [R8]
          · iexact R8
          iexact R9
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, HS1, R2, R3, R4, R5, R6, R7, R8, R9⟩, Hg⟩, Ho, ⟨%d0, H0⟩, ⟨%d1, H1⟩, ⟨%d2, H2⟩⟩
        iapply ((kernelRun0_A c (grid0.coords t) _ _ _ _ _ _ _ _ _ _ ((hcond0_0 t).mpr h0) (fun h => h1 ((hcond0_1 t).mp h)) (iblk0 V c 0 t) (iblk0 V c 1 t)).2.2.2 _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 R2 R3 R4 R5 R6 R7 R8 R9 Hg]
        · isplitr [Hg]
          isplitl [HS0]
          · unfold owns; iexists _; isplitr
            swap; · iexact HS0
            ipureintro; exact View.read_writes_of_cover _ _ _ _ _ (scover0_A_0 c _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _)
          isplitl [R2]
          · iexact R2
          isplitl [R3]
          · iexact R3
          isplitl [R4]
          · iexact R4
          isplitl [R5]
          · iexact R5
          isplitl [R6]
          · iexact R6
          isplitl [R7]
          · iexact R7
          isplitl [R8]
          · iexact R8
          iexact R9
          iexact Hg
        isplitl [Ho]; · iexact Ho
        isplitl [H0]; · iexact H0
        isplitl [H1]; · iexact H1
        iexists _; iexact H2
  · by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0 sout0_C_1; (try dsimp only)
      have hz : t.val ≠ 0 := by omega
      rw [PhiS0_castSucc V c t, PhiS0_pos V c _ _ hz]
      iintro ⟨⟨⟨HS0, HS1, R2, R3, R4, R5, R6, R7, R8, R9⟩, Hg⟩, Ho, ⟨%d0, H0⟩, ⟨%d1, H1⟩, ⟨%d2, H2⟩⟩
      iapply ((kernelRun0_C c (grid0.coords t) _ _ _ _ _ _ _ _ _ _ (fun h => h0 ((hcond0_0 t).mp h)) ((hcond0_1 t).mpr h1) (iblk0 V c 0 t) (iblk0 V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 R2 R3 R4 R5 R6 R7 R8 R9 Hg]
      · isplitr [Hg]
        isplitl [HS0]
        · unfold owns; iexists _; isplitr
          swap; · iexact HS0
          ipureintro; exact View.read_writes_of_cover _ _ _ _ _ (scover0_C_0 c _ _ _ _ _ _ _ _ _ _ _ _ _ _ _ _ _)
        isplitl [HS1]
        · unfold owns; iexists _; isplitr
          swap; · iexact HS1
          ipureintro; exact View.read_writes_of_cover _ _ _ _ _ (scover0_C_1 c _ _ _ _ _ _ _ _ _ _ _ _ _ _ _ _ _)
        isplitl [R2]
        · iexact R2
        isplitl [R3]
        · iexact R3
        isplitl [R4]
        · iexact R4
        isplitl [R5]
        · iexact R5
        isplitl [R6]
        · iexact R6
        isplitl [R7]
        · iexact R7
        isplitl [R8]
        · iexact R8
        iexact R9
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0 sout0_B_1; (try dsimp only)
      have hz : t.val ≠ 0 := by omega
      rw [PhiS0_castSucc V c t, PhiS0_pos V c _ _ hz]
      iintro ⟨⟨⟨HS0, HS1, R2, R3, R4, R5, R6, R7, R8, R9⟩, Hg⟩, Ho, ⟨%d0, H0⟩, ⟨%d1, H1⟩, ⟨%d2, H2⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) _ _).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 R2 R3 R4 R5 R6 R7 R8 R9 Hg]
      · isplitr [Hg]
        isplitl [HS0]
        · unfold owns; iexists _; isplitr
          swap; · iexact HS0
          ipureintro; exact View.read_writes_of_cover _ _ _ _ _ (scover0_B_0 c _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _)
        isplitl [R2]
        · iexact R2
        isplitl [R3]
        · iexact R3
        isplitl [R4]
        · iexact R4
        isplitl [R5]
        · iexact R5
        isplitl [R6]
        · iexact R6
        isplitl [R7]
        · iexact R7
        isplitl [R8]
        · iexact R8
        iexact R9
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives the class invariant back: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, R2, R3, R4, R5, R6, R7, R8, R9⟩, Hg⟩
  isplitr [Hg]
  · isplitl [HS0]
    · iexists _; iexact HS0
    isplitl [HS1]
    · iexists _; iexact HS1
    isplitl [R2]
    · iexact R2
    isplitl [R3]
    · iexact R3
    isplitl [R4]
    · iexact R4
    isplitl [R5]
    · iexact R5
    isplitl [R6]
    · iexact R6
    isplitl [R7]
    · iexact R7
    isplitl [R8]
    · iexact R8
    iexact R9
  iexact Hg

theorem hout0 (c : Dev nD) : (dat0 V c).Φ (Fin.last cfg0.N) ⊢ Pipeline.ΦA spec0 c :=
  Phi_out0 V c _ (by rw [Fin.val_last]; have : cfg0.N = 32 := N_0; omega)

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

end Cert.Kernel.Reg0

end
-- ==== Proof.KReg1Runs.lean ====
/-
  Region 1 of the program (the mean aggregation of relation 1): what the two runs of its body share — the body's two
  conditions decided over the grid, where its windows are idle, the memrefs it is called with — and the body's run in each of
  its three cases: a row block's first point (accumulators reset, then added to), its middle points (added to), its last point
  (added to, and the output block stored). Stated at any float instance.
-/
import proofs.«102029_j50019189129705_1_alg».proof.Proof.Gen.Kernel.Launch
import proofs.«102029_j50019189129705_1_alg».proof.Proof.Gen.Kernel.Skeleton
import proofs.«102029_j50019189129705_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, decided over the grid -/

/-- The first condition of the body (the column coordinate of the grid point is 0: a row block's first point). -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second condition (the column coordinate is 7: a row block's last point). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated. -/
abbrev VO1_2 : View sig .tc .vmem S1024x128 .f32 := (Memref.whole cc1_stg2_0 : Memref sig .tc .vmem S1024x128 .f32).view
abbrev ms1_0 (t : Fin cfg1.N) : Memref sig .tc .vmem S1024x2048 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
/-- The two scratch accumulators: the weighted sum and the degree. -/
abbrev scM1_0 : Memref sig .tc .vmem S1024x128 .f32 := Memref.whole cc1_scratch0
abbrev scM1_1 : Memref sig .tc .vmem S1024x1 .f32 := Memref.whole cc1_scratch1
abbrev VS1_0 : View sig .tc .vmem S1024x128 .f32 := scM1_0.view
abbrev VS1_1 : View sig .tc .vmem S1024x1 .f32 := scM1_1.view

/-- The class invariant with the two accumulators as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-! ## The body's run, case by case -/

set_option maxHeartbeats 4000000 in
/-- A row block's FIRST point (condition 0 holds, condition 1 does not): both accumulators are reset, then added to; the output
    window is left untouched. The pieces each accumulator ends with are the witness the run finds. -/
noncomputable def kernelRun1_A (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : cond1_0 i) (hc1 : ¬cond1_1 i)
    (x0 : Vec F S1024x2048 .i32) (x1 : Vec F S2048x128 .bf16) :
    Σ' (L2 : List (View.Piece (Elt F) S1024x128 .f32)) (LS0 : List (View.Piece (Elt F) S1024x128 .f32)), { LS1 : List (View.Piece (Elt F) S1024x1 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__agg_kernel i arg2 harg2 arg3 harg3 arg4 harg4 arg5 harg5 arg6 harg6) K } := by
  refine ⟨[], ?_, ?_, fun xi2 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

set_option maxHeartbeats 4000000 in
/-- A row block's MIDDLE points (neither condition holds): both accumulators, found at what the point before left, are added to;
    the output window is left untouched. -/
noncomputable def kernelRun1_B (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond1_0 i) (hc1 : ¬cond1_1 i)
    (x0 : Vec F S1024x2048 .i32) (x1 : Vec F S2048x128 .bf16) (xs0 : Vec F S1024x128 .f32) (xs1 : Vec F S1024x1 .f32) :
    Σ' (L2 : List (View.Piece (Elt F) S1024x128 .f32)) (LS0 : List (View.Piece (Elt F) S1024x128 .f32)), { LS1 : List (View.Piece (Elt F) S1024x1 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__agg_kernel i arg2 harg2 arg3 harg3 arg4 harg4 arg5 harg5 arg6 harg6) K } := by
  refine ⟨[], ?_, ?_, fun xi2 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

set_option maxHeartbeats 4000000 in
/-- A row block's LAST point (condition 1 holds, condition 0 does not): both accumulators are added to, and the output window is
    stored whole with the scaled sum. -/
noncomputable def kernelRun1_C (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond1_0 i) (hc1 : cond1_1 i)
    (x0 : Vec F S1024x2048 .i32) (x1 : Vec F S2048x128 .bf16) (xs0 : Vec F S1024x128 .f32) (xs1 : Vec F S1024x1 .f32) :
    Σ' (L2 : List (View.Piece (Elt F) S1024x128 .f32)) (LS0 : List (View.Piece (Elt F) S1024x128 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__agg_kernel i arg2 harg2 arg3 harg3 arg4 harg4 arg5 harg5 arg6 harg6) K } := by
  refine ⟨?_, ?_, ?_, fun E K => ?run⟩
  case run =>
    simp only [cc1__agg_kernel_eq_skeleton]; unfold cc1__agg_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.Reg1

end
-- ==== Proof.KReg1Data.lean ====
/-
  Region 1 of the program: what its output block and its two accumulators hold after every grid point (a recursion on the
  point: reset at a row block's first point, added to at the others, the output stored at the last), the region's invariant
  carrying the accumulators from one point to the next, the pipeline's proof data and the body obligation. Stated at any
  float instance and at any contents `V` of the buffers when the region is entered.
-/
import proofs.«102029_j50019189129705_1_alg».proof.Proof.KReg1Runs
import proofs.«102029_j50019189129705_1_alg».proof.Proof.Gen.Kernel.Skeleton
import proofs.«102029_j50019189129705_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output window and in the two accumulators -/

/-- Case A: the pieces the run leaves in the weighted-sum accumulator cover it. -/
theorem scover1_A_0 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : cond1_0 i) (hc1 : ¬cond1_1 i)
    (x0 : Vec F S1024x2048 .i32) (x1 : Vec F S2048x128 .bf16) (y : S1024x128.Idx) :
    ∃ pc ∈ (kernelRun1_A c i arg2 harg2 arg3 harg3 arg4 harg4 arg5 harg5 arg6 harg6 hc0 hc1 x0 x1).2.1, y ∈ pc.1.set :=
  View.cover_of_tiledL (kernelRun1_A c i arg2 harg2 arg3 harg3 arg4 harg4 arg5 harg5 arg6 harg6 hc0 hc1 x0 x1).2.1 S1024x128.size (by sl_kernel_rfl) y
/-- Case A: the pieces the run leaves in the degree accumulator cover it. -/
theorem scover1_A_1 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : cond1_0 i) (hc1 : ¬cond1_1 i)
    (x0 : Vec F S1024x2048 .i32) (x1 : Vec F S2048x128 .bf16) (y : S1024x1.Idx) :
    ∃ pc ∈ (kernelRun1_A c i arg2 harg2 arg3 harg3 arg4 harg4 arg5 harg5 arg6 harg6 hc0 hc1 x0 x1).2.2.1, y ∈ pc.1.set :=
  View.cover_of_tiledL (kernelRun1_A c i arg2 harg2 arg3 harg3 arg4 harg4 arg5 harg5 arg6 harg6 hc0 hc1 x0 x1).2.2.1 S1024x1.size (by sl_kernel_rfl) y
/-- Case A: what the output window's buffer holds after the body (its pieces read back; nothing is stored in cases A and B). -/
def out1_A_2 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : cond1_0 i) (hc1 : ¬cond1_1 i)
    (x0 : Vec F S1024x2048 .i32) (x1 : Vec F S2048x128 .bf16) : Vec F S1024x128 .f32 :=
  VO1_2.read (Elt F) (VO1_2.writes (Elt F) VO1_2.junk (kernelRun1_A c i arg2 harg2 arg3 harg3 arg4 harg4 arg5 harg5 arg6 harg6 hc0 hc1 x0 x1).1)
/-- Case A: what the weighted-sum accumulator holds after the body. -/
def sout1_A_0 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : cond1_0 i) (hc1 : ¬cond1_1 i)
    (x0 : Vec F S1024x2048 .i32) (x1 : Vec F S2048x128 .bf16) : Vec F S1024x128 .f32 :=
  VS1_0.read (Elt F) (VS1_0.writes (Elt F) VS1_0.junk (kernelRun1_A c i arg2 harg2 arg3 harg3 arg4 harg4 arg5 harg5 arg6 harg6 hc0 hc1 x0 x1).2.1)
/-- Case A: what the degree accumulator holds after the body. -/
def sout1_A_1 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : cond1_0 i) (hc1 : ¬cond1_1 i)
    (x0 : Vec F S1024x2048 .i32) (x1 : Vec F S2048x128 .bf16) : Vec F S1024x1 .f32 :=
  VS1_1.read (Elt F) (VS1_1.writes (Elt F) VS1_1.junk (kernelRun1_A c i arg2 harg2 arg3 harg3 arg4 harg4 arg5 harg5 arg6 harg6 hc0 hc1 x0 x1).2.2.1)

/-- Case B: the pieces the run leaves in the weighted-sum accumulator cover it. -/
theorem scover1_B_0 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond1_0 i) (hc1 : ¬cond1_1 i)
    (x0 : Vec F S1024x2048 .i32) (x1 : Vec F S2048x128 .bf16) (xs0 : Vec F S1024x128 .f32) (xs1 : Vec F S1024x1 .f32) (y : S1024x128.Idx) :
    ∃ pc ∈ (kernelRun1_B c i arg2 harg2 arg3 harg3 arg4 harg4 arg5 harg5 arg6 harg6 hc0 hc1 x0 x1 xs0 xs1).2.1, y ∈ pc.1.set :=
  View.cover_of_tiledL (kernelRun1_B c i arg2 harg2 arg3 harg3 arg4 harg4 arg5 harg5 arg6 harg6 hc0 hc1 x0 x1 xs0 xs1).2.1 S1024x128.size (by sl_kernel_rfl) y
/-- Case B: the pieces the run leaves in the degree accumulator cover it. -/
theorem scover1_B_1 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond1_0 i) (hc1 : ¬cond1_1 i)
    (x0 : Vec F S1024x2048 .i32) (x1 : Vec F S2048x128 .bf16) (xs0 : Vec F S1024x128 .f32) (xs1 : Vec F S1024x1 .f32) (y : S1024x1.Idx) :
    ∃ pc ∈ (kernelRun1_B c i arg2 harg2 arg3 harg3 arg4 harg4 arg5 harg5 arg6 harg6 hc0 hc1 x0 x1 xs0 xs1).2.2.1, y ∈ pc.1.set :=
  View.cover_of_tiledL (kernelRun1_B c i arg2 harg2 arg3 harg3 arg4 harg4 arg5 harg5 arg6 harg6 hc0 hc1 x0 x1 xs0 xs1).2.2.1 S1024x1.size (by sl_kernel_rfl) y
/-- Case B: what the output window's buffer holds after the body (its pieces read back; nothing is stored in cases A and B). -/
def out1_B_2 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond1_0 i) (hc1 : ¬cond1_1 i)
    (x0 : Vec F S1024x2048 .i32) (x1 : Vec F S2048x128 .bf16) (xs0 : Vec F S1024x128 .f32) (xs1 : Vec F S1024x1 .f32) : Vec F S1024x128 .f32 :=
  VO1_2.read (Elt F) (VO1_2.writes (Elt F) VO1_2.junk (kernelRun1_B c i arg2 harg2 arg3 harg3 arg4 harg4 arg5 harg5 arg6 harg6 hc0 hc1 x0 x1 xs0 xs1).1)
/-- Case B: what the weighted-sum accumulator holds after the body. -/
def sout1_B_0 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond1_0 i) (hc1 : ¬cond1_1 i)
    (x0 : Vec F S1024x2048 .i32) (x1 : Vec F S2048x128 .bf16) (xs0 : Vec F S1024x128 .f32) (xs1 : Vec F S1024x1 .f32) : Vec F S1024x128 .f32 :=
  VS1_0.read (Elt F) (VS1_0.writes (Elt F) VS1_0.junk (kernelRun1_B c i arg2 harg2 arg3 harg3 arg4 harg4 arg5 harg5 arg6 harg6 hc0 hc1 x0 x1 xs0 xs1).2.1)
/-- Case B: what the degree accumulator holds after the body. -/
def sout1_B_1 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond1_0 i) (hc1 : ¬cond1_1 i)
    (x0 : Vec F S1024x2048 .i32) (x1 : Vec F S2048x128 .bf16) (xs0 : Vec F S1024x128 .f32) (xs1 : Vec F S1024x1 .f32) : Vec F S1024x1 .f32 :=
  VS1_1.read (Elt F) (VS1_1.writes (Elt F) VS1_1.junk (kernelRun1_B c i arg2 harg2 arg3 harg3 arg4 harg4 arg5 harg5 arg6 harg6 hc0 hc1 x0 x1 xs0 xs1).2.2.1)

/-- Case C: the pieces the run leaves in the weighted-sum accumulator cover it. -/
theorem scover1_C_0 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond1_0 i) (hc1 : cond1_1 i)
    (x0 : Vec F S1024x2048 .i32) (x1 : Vec F S2048x128 .bf16) (xs0 : Vec F S1024x128 .f32) (xs1 : Vec F S1024x1 .f32) (y : S1024x128.Idx) :
    ∃ pc ∈ (kernelRun1_C c i arg2 harg2 arg3 harg3 arg4 harg4 arg5 harg5 arg6 harg6 hc0 hc1 x0 x1 xs0 xs1).2.1, y ∈ pc.1.set :=
  View.cover_of_tiledL (kernelRun1_C c i arg2 harg2 arg3 harg3 arg4 harg4 arg5 harg5 arg6 harg6 hc0 hc1 x0 x1 xs0 xs1).2.1 S1024x128.size (by sl_kernel_rfl) y
/-- Case C: the pieces the run leaves in the degree accumulator cover it. -/
theorem scover1_C_1 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond1_0 i) (hc1 : cond1_1 i)
    (x0 : Vec F S1024x2048 .i32) (x1 : Vec F S2048x128 .bf16) (xs0 : Vec F S1024x128 .f32) (xs1 : Vec F S1024x1 .f32) (y : S1024x1.Idx) :
    ∃ pc ∈ (kernelRun1_C c i arg2 harg2 arg3 harg3 arg4 harg4 arg5 harg5 arg6 harg6 hc0 hc1 x0 x1 xs0 xs1).2.2.1, y ∈ pc.1.set :=
  View.cover_of_tiledL (kernelRun1_C c i arg2 harg2 arg3 harg3 arg4 harg4 arg5 harg5 arg6 harg6 hc0 hc1 x0 x1 xs0 xs1).2.2.1 S1024x1.size (by sl_kernel_rfl) y
/-- Case C: what the output window's buffer holds after the body (its pieces read back; nothing is stored in cases A and B). -/
def out1_C_2 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond1_0 i) (hc1 : cond1_1 i)
    (x0 : Vec F S1024x2048 .i32) (x1 : Vec F S2048x128 .bf16) (xs0 : Vec F S1024x128 .f32) (xs1 : Vec F S1024x1 .f32) : Vec F S1024x128 .f32 :=
  VO1_2.read (Elt F) (VO1_2.writes (Elt F) VO1_2.junk (kernelRun1_C c i arg2 harg2 arg3 harg3 arg4 harg4 arg5 harg5 arg6 harg6 hc0 hc1 x0 x1 xs0 xs1).1)
/-- Case C: what the weighted-sum accumulator holds after the body. -/
def sout1_C_0 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond1_0 i) (hc1 : cond1_1 i)
    (x0 : Vec F S1024x2048 .i32) (x1 : Vec F S2048x128 .bf16) (xs0 : Vec F S1024x128 .f32) (xs1 : Vec F S1024x1 .f32) : Vec F S1024x128 .f32 :=
  VS1_0.read (Elt F) (VS1_0.writes (Elt F) VS1_0.junk (kernelRun1_C c i arg2 harg2 arg3 harg3 arg4 harg4 arg5 harg5 arg6 harg6 hc0 hc1 x0 x1 xs0 xs1).2.1)
/-- Case C: what the degree accumulator holds after the body. -/
def sout1_C_1 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond1_0 i) (hc1 : cond1_1 i)
    (x0 : Vec F S1024x2048 .i32) (x1 : Vec F S2048x128 .bf16) (xs0 : Vec F S1024x128 .f32) (xs1 : Vec F S1024x1 .f32) : Vec F S1024x1 .f32 :=
  VS1_1.read (Elt F) (VS1_1.writes (Elt F) VS1_1.junk (kernelRun1_C c i arg2 harg2 arg3 harg3 arg4 harg4 arg5 harg5 arg6 harg6 hc0 hc1 x0 x1 xs0 xs1).2.2.1)

/-- Case C's one store covers the output block. -/
theorem cover1_C_2 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond1_0 i) (hc1 : cond1_1 i)
    (x0 : Vec F S1024x2048 .i32) (x1 : Vec F S2048x128 .bf16) (xs0 : Vec F S1024x128 .f32) (xs1 : Vec F S1024x1 .f32) (y : S1024x128.Idx) :
    ∃ pc ∈ (kernelRun1_C c i arg2 harg2 arg3 harg3 arg4 harg4 arg5 harg5 arg6 harg6 hc0 hc1 x0 x1 xs0 xs1).1, y ∈ pc.1.set :=
  View.cover_of_tiledL (kernelRun1_C c i arg2 harg2 arg3 harg3 arg4 harg4 arg5 harg5 arg6 harg6 hc0 hc1 x0 x1 xs0 xs1).1 S1024x128.size (by sl_kernel_rfl) y

/-! ## The accumulation, point by point -/

/-- What the output window's buffer and the two accumulators hold after the body at position `n`: the case the position is in
    (first, middle or last point of its row block), run on the point's input blocks and, past a first point, on what the
    point before left in the accumulators. -/
def outsAt1 (c : Dev nD) : (n : ℕ) → n < cfg1.N → Vec F S1024x128 .f32 × Vec F S1024x128 .f32 × Vec F S1024x1 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2)

theorem outsAt1_A (c : Dev nD) (t : Fin cfg1.N) (h0 : t.val % 8 = 0) (h1 : ¬t.val % 8 = 7) :
    outsAt1 V c t.val t.isLt = (out1_A_2 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t), sout1_A_1 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point every scoped buffer that is no staging buffer at anything;
    afterwards the two accumulators at what the point before left in them, the others at anything; the generator register at
    some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare (outsAt1 V c n hn).2.1 ∗ owns (c : Thread nD τ) scM1_1 fullShare (outsAt1 V c n hn).2.2) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare (outsAt1 V c n hn).2.1 ∗ owns (c : Thread nD τ) scM1_1 fullShare (outsAt1 V c n hn).2.2) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare (outsAt1 V c (n - 1) (by omega)).2.1 ∗ owns (c : Thread nD τ) scM1_1 fullShare (outsAt1 V c (n - 1) (by omega)).2.2) ∗ (∃ r, prngReg c r)) := by
  cases n with
  | zero => exact absurd rfl hz
  | succ n => rfl

/-! ## The pipeline's proof data -/

/-- The proof data of the pipeline on core `c`: the arrays as the region finds them; after the body at point `t` each input's
    buffer at its block and the output's at `outsAt`'s first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the closed forms of the two conditions say which case the point is in; the invariant hands the body
    the accumulators at what the point before left (at anything at a row block's first point, where they are reset before they
    are read) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0 sout1_A_1; (try dsimp only)
      by_cases hz : t.val = 0
      · rw [PhiS1_castSucc V c t, PhiS1_zero V c _ _ hz, PhiA1_eq]
        iintro ⟨⟨⟨R0, R1, R2, R3, R4, R5, R6, R7, HS0, HS1⟩, Hg⟩, Ho, ⟨%d0, H0⟩, ⟨%d1, H1⟩, ⟨%d2, H2⟩⟩
        iapply ((kernelRun1_A c (grid1.coords t) _ _ _ _ _ _ _ _ _ _ ((hcond1_0 t).mpr h0) (fun h => h1 ((hcond1_1 t).mp h)) (iblk1 V c 0 t) (iblk1 V c 1 t)).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [R0 R1 R2 R3 R4 R5 R6 R7 HS0 HS1 Hg]
        · isplitr [Hg]
          isplitl [R0]
          · iexact R0
          isplitl [R1]
          · iexact R1
          isplitl [R2]
          · iexact R2
          isplitl [R3]
          · iexact R3
          isplitl [R4]
          · iexact R4
          isplitl [R5]
          · iexact R5
          isplitl [R6]
          · iexact R6
          isplitl [R7]
          · iexact R7
          isplitl [HS0]
          · unfold owns; iexists _; isplitr
            swap; · iexact HS0
            ipureintro; exact View.read_writes_of_cover _ _ _ _ _ (scover1_A_0 c _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _)
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨R0, R1, R2, R3, R4, R5, R6, R7, HS0, HS1⟩, Hg⟩, Ho, ⟨%d0, H0⟩, ⟨%d1, H1⟩, ⟨%d2, H2⟩⟩
        iapply ((kernelRun1_A c (grid1.coords t) _ _ _ _ _ _ _ _ _ _ ((hcond1_0 t).mpr h0) (fun h => h1 ((hcond1_1 t).mp h)) (iblk1 V c 0 t) (iblk1 V c 1 t)).2.2.2 _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [R0 R1 R2 R3 R4 R5 R6 R7 HS0 HS1 Hg]
        · isplitr [Hg]
          isplitl [R0]
          · iexact R0
          isplitl [R1]
          · iexact R1
          isplitl [R2]
          · iexact R2
          isplitl [R3]
          · iexact R3
          isplitl [R4]
          · iexact R4
          isplitl [R5]
          · iexact R5
          isplitl [R6]
          · iexact R6
          isplitl [R7]
          · iexact R7
          isplitl [HS0]
          · unfold owns; iexists _; isplitr
            swap; · iexact HS0
            ipureintro; exact View.read_writes_of_cover _ _ _ _ _ (scover1_A_0 c _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _)
          iexact Hg
        isplitl [Ho]; · iexact Ho
        isplitl [H0]; · iexact H0
        isplitl [H1]; · iexact H1
        iexists _; iexact H2
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0 sout1_C_1; (try dsimp only)
      have hz : t.val ≠ 0 := by omega
      rw [PhiS1_castSucc V c t, PhiS1_pos V c _ _ hz]
      iintro ⟨⟨⟨R0, R1, R2, R3, R4, R5, R6, R7, HS0, HS1⟩, Hg⟩, Ho, ⟨%d0, H0⟩, ⟨%d1, H1⟩, ⟨%d2, H2⟩⟩
      iapply ((kernelRun1_C c (grid1.coords t) _ _ _ _ _ _ _ _ _ _ (fun h => h0 ((hcond1_0 t).mp h)) ((hcond1_1 t).mpr h1) (iblk1 V c 0 t) (iblk1 V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [R0 R1 R2 R3 R4 R5 R6 R7 HS0 HS1 Hg]
      · isplitr [Hg]
        isplitl [R0]
        · iexact R0
        isplitl [R1]
        · iexact R1
        isplitl [R2]
        · iexact R2
        isplitl [R3]
        · iexact R3
        isplitl [R4]
        · iexact R4
        isplitl [R5]
        · iexact R5
        isplitl [R6]
        · iexact R6
        isplitl [R7]
        · iexact R7
        isplitl [HS0]
        · unfold owns; iexists _; isplitr
          swap; · iexact HS0
          ipureintro; exact View.read_writes_of_cover _ _ _ _ _ (scover1_C_0 c _ _ _ _ _ _ _ _ _ _ _ _ _ _ _ _ _)
        unfold owns; iexists _; isplitr
        swap; · iexact HS1
        ipureintro; exact View.read_writes_of_cover _ _ _ _ _ (scover1_C_1 c _ _ _ _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0 sout1_B_1; (try dsimp only)
      have hz : t.val ≠ 0 := by omega
      rw [PhiS1_castSucc V c t, PhiS1_pos V c _ _ hz]
      iintro ⟨⟨⟨R0, R1, R2, R3, R4, R5, R6, R7, HS0, HS1⟩, Hg⟩, Ho, ⟨%d0, H0⟩, ⟨%d1, H1⟩, ⟨%d2, H2⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) _ _).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [R0 R1 R2 R3 R4 R5 R6 R7 HS0 HS1 Hg]
      · isplitr [Hg]
        isplitl [R0]
        · iexact R0
        isplitl [R1]
        · iexact R1
        isplitl [R2]
        · iexact R2
        isplitl [R3]
        · iexact R3
        isplitl [R4]
        · iexact R4
        isplitl [R5]
        · iexact R5
        isplitl [R6]
        · iexact R6
        isplitl [R7]
        · iexact R7
        isplitl [HS0]
        · unfold owns; iexists _; isplitr
          swap; · iexact HS0
          ipureintro; exact View.read_writes_of_cover _ _ _ _ _ (scover1_B_0 c _ _ _ _ _ _ _ _ _ _ _ _ _ _ _ _ _)
        unfold owns; iexists _; isplitr
        swap; · iexact HS1
        ipureintro; exact View.read_writes_of_cover _ _ _ _ _ (scover1_B_1 c _ _ _ _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives the class invariant back: the accumulators' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨R0, R1, R2, R3, R4, R5, R6, R7, HS0, HS1⟩, Hg⟩
  isplitr [Hg]
  · isplitl [R0]
    · iexact R0
    isplitl [R1]
    · iexact R1
    isplitl [R2]
    · iexact R2
    isplitl [R3]
    · iexact R3
    isplitl [R4]
    · iexact R4
    isplitl [R5]
    · iexact R5
    isplitl [R6]
    · iexact R6
    isplitl [R7]
    · iexact R7
    isplitl [HS0]
    · iexists _; iexact HS0
    iexists _; iexact HS1
  iexact Hg

theorem hout1 (c : Dev nD) : (dat1 V c).Φ (Fin.last cfg1.N) ⊢ Pipeline.ΦA spec1 c :=
  Phi_out1 V c _ (by rw [Fin.val_last]; have : cfg1.N = 32 := N_1; omega)

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

end Cert.Kernel.Reg1

end
-- ==== Proof.KRun.lean ====
/-
  The run of the whole program: host operations, the two regions one after the other, host operations. The contents of the
  unscoped buffers are followed from the launch through every segment (`W0` … `W4`): a host stretch applies its operations,
  a region replaces its output array by what its write-backs leave and keeps every other buffer. Every weakly fair execution
  terminates, and every final memory holds each unscoped buffer at `W4`; the argument arrays are never written, so they end
  as launched. Stated at any float instance.
-/
import proofs.«102029_j50019189129705_1_alg».proof.Proof.KReg0Data
import proofs.«102029_j50019189129705_1_alg».proof.Proof.KReg1Data
import proofs.«102029_j50019189129705_1_alg».proof.Proof.Gen.Kernel.Regions

set_option maxRecDepth 16384

noncomputable section

namespace Cert.Kernel.Run

open Cert.Kernel Cert.Kernel.Gen Cert.Kernel.Reg0 Cert.Kernel.Reg1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit (it is entered from region 0's exit contents). -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the last host stretch: the final contents. -/
abbrev W4 : Dev nD → Valuation τ sig (Elt F) := fun c => StableHlo.after hostOps2 (W3 m c)

/-! ## The arguments end as launched: no host operation writes one, and each region only reads them -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide : main_arg0 ∉ hostOps2_W)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide : main_arg0 ∉ hostOps0_W)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide : main_arg1 ∉ hostOps2_W)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (by decide : main_arg1 ∉ hostOps0_W)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide : main_arg2 ∉ hostOps2_W)
    _ = W2 m c (Proc.devRef .tc main_arg2) := (W3_arr m c 0).trans (((dat1 (V2 m) c).arrAt_in 0 rfl _).trans (A_eq1 (V2 m) c 0))
    _ = W1 m c (Proc.devRef .tc main_arg2) := W2_of_ne m c main_arg2 (by decide)
    _ = W0 m c (Proc.devRef .tc main_arg2) := StableHlo.after_of_writes_sub hostOps0 _ hostOps0_writes (by decide : main_arg2 ∉ hostOps0_W)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (by decide : main_arg3 ∉ hostOps2_W)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_writes_sub hostOps0 _ hostOps0_writes (by decide : main_arg3 ∉ hostOps0_W)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_writes_sub hostOps2 _ hostOps2_writes (by decide : main_arg4 ∉ hostOps2_W)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_writes_sub hostOps0 _ hostOps0_writes (by decide : main_arg4 ∉ hostOps0_W)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := StableHlo.after_of_writes_sub hostOps2 _ hostOps2_writes (by decide : main_arg5 ∉ hostOps2_W)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_writes_sub hostOps0 _ hostOps0_writes (by decide : main_arg5 ∉ hostOps0_W)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := StableHlo.after_of_writes_sub hostOps2 _ hostOps2_writes (by decide : main_arg6 ∉ hostOps2_W)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := StableHlo.after_of_writes_sub hostOps0 _ hostOps0_writes (by decide : main_arg6 ∉ hostOps0_W)
    _ = m ((c : Thread nD τ).loc main_arg6) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W1`, left at `W2`. Its arrays are split out of
    the unscoped buffers and put back at what the pipeline leaves; the generator register goes into the region's invariant and
    comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm (F := F) 0).1
        ∗ Pipeline.scopedRest (Pipeline.pin (pcfgs (F := F)) adm 0).spec c) ⊢ (Pipeline.ΦA spec0 c : sProp 𝕄) := by
      unfold Pipeline.ΦA
      iintro ⟨Hp, -, Hr⟩
      isplitl [Hr]; · iexact Hr
      iexact Hp
    exact h.trans (hin0 (V1 m) c)
  hout c := by
    rw [Pipeline.ownSems0_none]
    have h : (Pipeline.ΦA spec0 c : sProp 𝕄) ⊢ iprop((∃ r, prngReg c r) ∗ BI.emp ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (hout0 (V1 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are split out of
    the unscoped buffers and put back at what the pipeline leaves; the generator register goes into the region's invariant and
    comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
        ∗ Pipeline.scopedRest (Pipeline.pin (pcfgs (F := F)) adm 1).spec c) ⊢ (Pipeline.ΦA spec1 c : sProp 𝕄) := by
      unfold Pipeline.ΦA
      iintro ⟨Hp, -, Hr⟩
      isplitl [Hr]; · iexact Hr
      iexact Hp
    exact h.trans (hin1 (V2 m) c)
  hout c := by
    rw [Pipeline.ownSems0_none]
    have h : (Pipeline.ΦA spec1 c : sProp 𝕄) ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (V2 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and every
    final memory holds each unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c)⟩) (run_main m ρ)

end Cert.Kernel.Run

end
-- ==== Proof.KIReg0Runs.lean ====
/-
  Region 0 of the program (the mean aggregation of relation 0): what the two runs of its body share — the body's two
  conditions decided over the grid, where its windows are idle, the memrefs it is called with — and the body's run in each of
  its three cases: a row block's first point (accumulators reset, then added to), its middle points (added to), its last point
  (added to, and the output block stored). Stated at any float instance.
-/
import proofs.«102029_j50019189129705_1_alg».proof.Proof.Gen.KernelIdeal.Launch
import proofs.«102029_j50019189129705_1_alg».proof.Proof.Gen.KernelIdeal.Skeleton
import proofs.«102029_j50019189129705_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, decided over the grid -/

/-- The first condition of the body (the column coordinate of the grid point is 0: a row block's first point). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second condition (the column coordinate is 7: a row block's last point). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S1024x128 .f32 := (Memref.whole cc0_stg2_0 : Memref sig .tc .vmem S1024x128 .f32).view
abbrev ms0_0 (t : Fin cfg0.N) : Memref sig .tc .vmem S1024x2048 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
/-- The two scratch accumulators: the weighted sum and the degree. -/
abbrev scM0_0 : Memref sig .tc .vmem S1024x128 .f32 := Memref.whole cc0_scratch0
abbrev scM0_1 : Memref sig .tc .vmem S1024x1 .f32 := Memref.whole cc0_scratch1
abbrev VS0_0 : View sig .tc .vmem S1024x128 .f32 := scM0_0.view
abbrev VS0_1 : View sig .tc .vmem S1024x1 .f32 := scM0_1.view

/-- The class invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r)) := by
  unfold Pipeline.ΦA; rw [scopedRest0_eq]; simp only [scM0_0, scM0_1, owns_whole]; try rfl

/-! ## The body's run, case by case -/

set_option maxHeartbeats 4000000 in
/-- A row block's FIRST point (condition 0 holds, condition 1 does not): both accumulators are reset, then added to; the output
    window is left untouched. The pieces each accumulator ends with are the witness the run finds. -/
noncomputable def kernelRun0_A (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : cond0_0 i) (hc1 : ¬cond0_1 i)
    (x0 : Vec F S1024x2048 .i32) (x1 : Vec F S2048x128 .bf16) :
    Σ' (L2 : List (View.Piece (Elt F) S1024x128 .f32)) (LS0 : List (View.Piece (Elt F) S1024x128 .f32)), { LS1 : List (View.Piece (Elt F) S1024x1 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__agg_kernel i arg2 harg2 arg3 harg3 arg4 harg4 arg5 harg5 arg6 harg6) K } := by
  refine ⟨[], ?_, ?_, fun xi2 E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

set_option maxHeartbeats 4000000 in
/-- A row block's MIDDLE points (neither condition holds): both accumulators, found at what the point before left, are added to;
    the output window is left untouched. -/
noncomputable def kernelRun0_B (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond0_0 i) (hc1 : ¬cond0_1 i)
    (x0 : Vec F S1024x2048 .i32) (x1 : Vec F S2048x128 .bf16) (xs0 : Vec F S1024x128 .f32) (xs1 : Vec F S1024x1 .f32) :
    Σ' (L2 : List (View.Piece (Elt F) S1024x128 .f32)) (LS0 : List (View.Piece (Elt F) S1024x128 .f32)), { LS1 : List (View.Piece (Elt F) S1024x1 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__agg_kernel i arg2 harg2 arg3 harg3 arg4 harg4 arg5 harg5 arg6 harg6) K } := by
  refine ⟨[], ?_, ?_, fun xi2 E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

set_option maxHeartbeats 4000000 in
/-- A row block's LAST point (condition 1 holds, condition 0 does not): both accumulators are added to, and the output window is
    stored whole with the scaled sum. -/
noncomputable def kernelRun0_C (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond0_0 i) (hc1 : cond0_1 i)
    (x0 : Vec F S1024x2048 .i32) (x1 : Vec F S2048x128 .bf16) (xs0 : Vec F S1024x128 .f32) (xs1 : Vec F S1024x1 .f32) :
    Σ' (L2 : List (View.Piece (Elt F) S1024x128 .f32)) (LS0 : List (View.Piece (Elt F) S1024x128 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__agg_kernel i arg2 harg2 arg3 harg3 arg4 harg4 arg5 harg5 arg6 harg6) K } := by
  refine ⟨?_, ?_, ?_, fun E K => ?run⟩
  case run =>
    simp only [cc0__agg_kernel_eq_skeleton]; unfold cc0__agg_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.Reg0

end
-- ==== Proof.KIReg0Data.lean ====
/-
  Region 0 of the program: what its output block and its two accumulators hold after every grid point (a recursion on the
  point: reset at a row block's first point, added to at the others, the output stored at the last), the region's invariant
  carrying the accumulators from one point to the next, the pipeline's proof data and the body obligation. Stated at any
  float instance and at any contents `V` of the buffers when the region is entered.
-/
import proofs.«102029_j50019189129705_1_alg».proof.Proof.KIReg0Runs
import proofs.«102029_j50019189129705_1_alg».proof.Proof.Gen.KernelIdeal.Skeleton
import proofs.«102029_j50019189129705_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the output window and in the two accumulators -/

/-- Case A: the pieces the run leaves in the weighted-sum accumulator cover it. -/
theorem scover0_A_0 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : cond0_0 i) (hc1 : ¬cond0_1 i)
    (x0 : Vec F S1024x2048 .i32) (x1 : Vec F S2048x128 .bf16) (y : S1024x128.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S1024x128.size (by sl_kernel_rfl) y
/-- Case A: the pieces the run leaves in the degree accumulator cover it. -/
theorem scover0_A_1 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : cond0_0 i) (hc1 : ¬cond0_1 i)
    (x0 : Vec F S1024x2048 .i32) (x1 : Vec F S2048x128 .bf16) (y : S1024x1.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S1024x1.size (by sl_kernel_rfl) y
/-- Case A: what the output window's buffer holds after the body (its pieces read back; nothing is stored in cases A and B). -/
def out0_A_2 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : cond0_0 i) (hc1 : ¬cond0_1 i)
    (x0 : Vec F S1024x2048 .i32) (x1 : Vec F S2048x128 .bf16) : Vec F S1024x128 .f32 :=
  VO0_2.read (Elt F) (VO0_2.writes (Elt F) VO0_2.junk (kernelRun0_A c i arg2 harg2 arg3 harg3 arg4 harg4 arg5 harg5 arg6 harg6 hc0 hc1 x0 x1).1)
/-- Case A: what the weighted-sum accumulator holds after the body. -/
def sout0_A_0 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : cond0_0 i) (hc1 : ¬cond0_1 i)
    (x0 : Vec F S1024x2048 .i32) (x1 : Vec F S2048x128 .bf16) : Vec F S1024x128 .f32 :=
  VS0_0.read (Elt F) (VS0_0.writes (Elt F) VS0_0.junk (kernelRun0_A c i arg2 harg2 arg3 harg3 arg4 harg4 arg5 harg5 arg6 harg6 hc0 hc1 x0 x1).2.1)
/-- Case A: what the degree accumulator holds after the body. -/
def sout0_A_1 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : cond0_0 i) (hc1 : ¬cond0_1 i)
    (x0 : Vec F S1024x2048 .i32) (x1 : Vec F S2048x128 .bf16) : Vec F S1024x1 .f32 :=
  VS0_1.read (Elt F) (VS0_1.writes (Elt F) VS0_1.junk (kernelRun0_A c i arg2 harg2 arg3 harg3 arg4 harg4 arg5 harg5 arg6 harg6 hc0 hc1 x0 x1).2.2.1)

/-- Case B: the pieces the run leaves in the weighted-sum accumulator cover it. -/
theorem scover0_B_0 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond0_0 i) (hc1 : ¬cond0_1 i)
    (x0 : Vec F S1024x2048 .i32) (x1 : Vec F S2048x128 .bf16) (xs0 : Vec F S1024x128 .f32) (xs1 : Vec F S1024x1 .f32) (y : S1024x128.Idx) :
    ∃ pc ∈ (kernelRun0_B c i arg2 harg2 arg3 harg3 arg4 harg4 arg5 harg5 arg6 harg6 hc0 hc1 x0 x1 xs0 xs1).2.1, y ∈ pc.1.set :=
  View.cover_of_tiledL (kernelRun0_B c i arg2 harg2 arg3 harg3 arg4 harg4 arg5 harg5 arg6 harg6 hc0 hc1 x0 x1 xs0 xs1).2.1 S1024x128.size (by sl_kernel_rfl) y
/-- Case B: the pieces the run leaves in the degree accumulator cover it. -/
theorem scover0_B_1 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond0_0 i) (hc1 : ¬cond0_1 i)
    (x0 : Vec F S1024x2048 .i32) (x1 : Vec F S2048x128 .bf16) (xs0 : Vec F S1024x128 .f32) (xs1 : Vec F S1024x1 .f32) (y : S1024x1.Idx) :
    ∃ pc ∈ (kernelRun0_B c i arg2 harg2 arg3 harg3 arg4 harg4 arg5 harg5 arg6 harg6 hc0 hc1 x0 x1 xs0 xs1).2.2.1, y ∈ pc.1.set :=
  View.cover_of_tiledL (kernelRun0_B c i arg2 harg2 arg3 harg3 arg4 harg4 arg5 harg5 arg6 harg6 hc0 hc1 x0 x1 xs0 xs1).2.2.1 S1024x1.size (by sl_kernel_rfl) y
/-- Case B: what the output window's buffer holds after the body (its pieces read back; nothing is stored in cases A and B). -/
def out0_B_2 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond0_0 i) (hc1 : ¬cond0_1 i)
    (x0 : Vec F S1024x2048 .i32) (x1 : Vec F S2048x128 .bf16) (xs0 : Vec F S1024x128 .f32) (xs1 : Vec F S1024x1 .f32) : Vec F S1024x128 .f32 :=
  VO0_2.read (Elt F) (VO0_2.writes (Elt F) VO0_2.junk (kernelRun0_B c i arg2 harg2 arg3 harg3 arg4 harg4 arg5 harg5 arg6 harg6 hc0 hc1 x0 x1 xs0 xs1).1)
/-- Case B: what the weighted-sum accumulator holds after the body. -/
def sout0_B_0 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond0_0 i) (hc1 : ¬cond0_1 i)
    (x0 : Vec F S1024x2048 .i32) (x1 : Vec F S2048x128 .bf16) (xs0 : Vec F S1024x128 .f32) (xs1 : Vec F S1024x1 .f32) : Vec F S1024x128 .f32 :=
  VS0_0.read (Elt F) (VS0_0.writes (Elt F) VS0_0.junk (kernelRun0_B c i arg2 harg2 arg3 harg3 arg4 harg4 arg5 harg5 arg6 harg6 hc0 hc1 x0 x1 xs0 xs1).2.1)
/-- Case B: what the degree accumulator holds after the body. -/
def sout0_B_1 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond0_0 i) (hc1 : ¬cond0_1 i)
    (x0 : Vec F S1024x2048 .i32) (x1 : Vec F S2048x128 .bf16) (xs0 : Vec F S1024x128 .f32) (xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 hc0 hc1 x0 x1 xs0 xs1).2.2.1)

/-- Case C: the pieces the run leaves in the weighted-sum accumulator cover it. -/
theorem scover0_C_0 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond0_0 i) (hc1 : cond0_1 i)
    (x0 : Vec F S1024x2048 .i32) (x1 : Vec F S2048x128 .bf16) (xs0 : Vec F S1024x128 .f32) (xs1 : Vec F S1024x1 .f32) (y : S1024x128.Idx) :
    ∃ pc ∈ (kernelRun0_C c i arg2 harg2 arg3 harg3 arg4 harg4 arg5 harg5 arg6 harg6 hc0 hc1 x0 x1 xs0 xs1).2.1, y ∈ pc.1.set :=
  View.cover_of_tiledL (kernelRun0_C c i arg2 harg2 arg3 harg3 arg4 harg4 arg5 harg5 arg6 harg6 hc0 hc1 x0 x1 xs0 xs1).2.1 S1024x128.size (by sl_kernel_rfl) y
/-- Case C: the pieces the run leaves in the degree accumulator cover it. -/
theorem scover0_C_1 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond0_0 i) (hc1 : cond0_1 i)
    (x0 : Vec F S1024x2048 .i32) (x1 : Vec F S2048x128 .bf16) (xs0 : Vec F S1024x128 .f32) (xs1 : Vec F S1024x1 .f32) (y : S1024x1.Idx) :
    ∃ pc ∈ (kernelRun0_C c i arg2 harg2 arg3 harg3 arg4 harg4 arg5 harg5 arg6 harg6 hc0 hc1 x0 x1 xs0 xs1).2.2.1, y ∈ pc.1.set :=
  View.cover_of_tiledL (kernelRun0_C c i arg2 harg2 arg3 harg3 arg4 harg4 arg5 harg5 arg6 harg6 hc0 hc1 x0 x1 xs0 xs1).2.2.1 S1024x1.size (by sl_kernel_rfl) y
/-- Case C: what the output window's buffer holds after the body (its pieces read back; nothing is stored in cases A and B). -/
def out0_C_2 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond0_0 i) (hc1 : cond0_1 i)
    (x0 : Vec F S1024x2048 .i32) (x1 : Vec F S2048x128 .bf16) (xs0 : Vec F S1024x128 .f32) (xs1 : Vec F S1024x1 .f32) : Vec F S1024x128 .f32 :=
  VO0_2.read (Elt F) (VO0_2.writes (Elt F) VO0_2.junk (kernelRun0_C c i arg2 harg2 arg3 harg3 arg4 harg4 arg5 harg5 arg6 harg6 hc0 hc1 x0 x1 xs0 xs1).1)
/-- Case C: what the weighted-sum accumulator holds after the body. -/
def sout0_C_0 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond0_0 i) (hc1 : cond0_1 i)
    (x0 : Vec F S1024x2048 .i32) (x1 : Vec F S2048x128 .bf16) (xs0 : Vec F S1024x128 .f32) (xs1 : Vec F S1024x1 .f32) : Vec F S1024x128 .f32 :=
  VS0_0.read (Elt F) (VS0_0.writes (Elt F) VS0_0.junk (kernelRun0_C c i arg2 harg2 arg3 harg3 arg4 harg4 arg5 harg5 arg6 harg6 hc0 hc1 x0 x1 xs0 xs1).2.1)
/-- Case C: what the degree accumulator holds after the body. -/
def sout0_C_1 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond0_0 i) (hc1 : cond0_1 i)
    (x0 : Vec F S1024x2048 .i32) (x1 : Vec F S2048x128 .bf16) (xs0 : Vec F S1024x128 .f32) (xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 hc0 hc1 x0 x1 xs0 xs1).2.2.1)

/-- Case C's one store covers the output block. -/
theorem cover0_C_2 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond0_0 i) (hc1 : cond0_1 i)
    (x0 : Vec F S1024x2048 .i32) (x1 : Vec F S2048x128 .bf16) (xs0 : Vec F S1024x128 .f32) (xs1 : Vec F S1024x1 .f32) (y : S1024x128.Idx) :
    ∃ pc ∈ (kernelRun0_C c i arg2 harg2 arg3 harg3 arg4 harg4 arg5 harg5 arg6 harg6 hc0 hc1 x0 x1 xs0 xs1).1, y ∈ pc.1.set :=
  View.cover_of_tiledL (kernelRun0_C c i arg2 harg2 arg3 harg3 arg4 harg4 arg5 harg5 arg6 harg6 hc0 hc1 x0 x1 xs0 xs1).1 S1024x128.size (by sl_kernel_rfl) y

/-! ## The accumulation, point by point -/

/-- What the output window's buffer and the two accumulators hold after the body at position `n`: the case the position is in
    (first, middle or last point of its row block), run on the point's input blocks and, past a first point, on what the
    point before left in the accumulators. -/
def outsAt0 (c : Dev nD) : (n : ℕ) → n < cfg0.N → Vec F S1024x128 .f32 × Vec F S1024x128 .f32 × Vec F S1024x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2)

theorem outsAt0_A (c : Dev nD) (t : Fin cfg0.N) (h0 : t.val % 8 = 0) (h1 : ¬t.val % 8 = 7) :
    outsAt0 V c t.val t.isLt = (out0_A_2 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t), sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point every scoped buffer that is no staging buffer at anything;
    afterwards the two accumulators at what the point before left in them, the others at anything; the generator register at
    some state. -/
def PhiS0 (c : Dev nD) : (n : ℕ) → n ≤ cfg0.N → sProp 𝕄
  | 0, _ => Pipeline.ΦA spec0 c
  | n + 1, hn => iprop(iprop(owns (c : Thread nD τ) scM0_0 fullShare (outsAt0 V c n hn).2.1 ∗ owns (c : Thread nD τ) scM0_1 fullShare (outsAt0 V c n hn).2.2 ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare (outsAt0 V c n hn).2.1 ∗ owns (c : Thread nD τ) scM0_1 fullShare (outsAt0 V c n hn).2.2 ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r)) := rfl
theorem PhiS0_pos (c : Dev nD) (n : ℕ) (h : n ≤ cfg0.N) (hz : n ≠ 0) :
    PhiS0 V c n h = iprop(iprop(owns (c : Thread nD τ) scM0_0 fullShare (outsAt0 V c (n - 1) (by omega)).2.1 ∗ owns (c : Thread nD τ) scM0_1 fullShare (outsAt0 V c (n - 1) (by omega)).2.2 ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r)) := by
  cases n with
  | zero => exact absurd rfl hz
  | succ n => rfl

/-! ## The pipeline's proof data -/

/-- The proof data of the pipeline on core `c`: the arrays as the region finds them; after the body at point `t` each input's
    buffer at its block and the output's at `outsAt`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the closed forms of the two conditions say which case the point is in; the invariant hands the body
    the accumulators at what the point before left (at anything at a row block's first point, where they are reset before they
    are read) and takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0 sout0_A_1; (try dsimp only)
      by_cases hz : t.val = 0
      · rw [PhiS0_castSucc V c t, PhiS0_zero V c _ _ hz, PhiA0_eq]
        iintro ⟨⟨⟨HS0, HS1, R2, R3, R4, R5, R6, R7, R8, R9⟩, Hg⟩, Ho, ⟨%d0, H0⟩, ⟨%d1, H1⟩, ⟨%d2, H2⟩⟩
        iapply ((kernelRun0_A c (grid0.coords t) _ _ _ _ _ _ _ _ _ _ ((hcond0_0 t).mpr h0) (fun h => h1 ((hcond0_1 t).mp h)) (iblk0 V c 0 t) (iblk0 V c 1 t)).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 R2 R3 R4 R5 R6 R7 R8 R9 Hg]
        · isplitr [Hg]
          isplitl [HS0]
          · unfold owns; iexists _; isplitr
            swap; · iexact HS0
            ipureintro; exact View.read_writes_of_cover _ _ _ _ _ (scover0_A_0 c _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _)
          isplitl [R2]
          · iexact R2
          isplitl [R3]
          · iexact R3
          isplitl [R4]
          · iexact R4
          isplitl [R5]
          · iexact R5
          isplitl [R6]
          · iexact R6
          isplitl [R7]
          · iexact R7
          isplitl [R8]
          · iexact R8
          iexact R9
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, HS1, R2, R3, R4, R5, R6, R7, R8, R9⟩, Hg⟩, Ho, ⟨%d0, H0⟩, ⟨%d1, H1⟩, ⟨%d2, H2⟩⟩
        iapply ((kernelRun0_A c (grid0.coords t) _ _ _ _ _ _ _ _ _ _ ((hcond0_0 t).mpr h0) (fun h => h1 ((hcond0_1 t).mp h)) (iblk0 V c 0 t) (iblk0 V c 1 t)).2.2.2 _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 R2 R3 R4 R5 R6 R7 R8 R9 Hg]
        · isplitr [Hg]
          isplitl [HS0]
          · unfold owns; iexists _; isplitr
            swap; · iexact HS0
            ipureintro; exact View.read_writes_of_cover _ _ _ _ _ (scover0_A_0 c _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _)
          isplitl [R2]
          · iexact R2
          isplitl [R3]
          · iexact R3
          isplitl [R4]
          · iexact R4
          isplitl [R5]
          · iexact R5
          isplitl [R6]
          · iexact R6
          isplitl [R7]
          · iexact R7
          isplitl [R8]
          · iexact R8
          iexact R9
          iexact Hg
        isplitl [Ho]; · iexact Ho
        isplitl [H0]; · iexact H0
        isplitl [H1]; · iexact H1
        iexists _; iexact H2
  · by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0 sout0_C_1; (try dsimp only)
      have hz : t.val ≠ 0 := by omega
      rw [PhiS0_castSucc V c t, PhiS0_pos V c _ _ hz]
      iintro ⟨⟨⟨HS0, HS1, R2, R3, R4, R5, R6, R7, R8, R9⟩, Hg⟩, Ho, ⟨%d0, H0⟩, ⟨%d1, H1⟩, ⟨%d2, H2⟩⟩
      iapply ((kernelRun0_C c (grid0.coords t) _ _ _ _ _ _ _ _ _ _ (fun h => h0 ((hcond0_0 t).mp h)) ((hcond0_1 t).mpr h1) (iblk0 V c 0 t) (iblk0 V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 R2 R3 R4 R5 R6 R7 R8 R9 Hg]
      · isplitr [Hg]
        isplitl [HS0]
        · unfold owns; iexists _; isplitr
          swap; · iexact HS0
          ipureintro; exact View.read_writes_of_cover _ _ _ _ _ (scover0_C_0 c _ _ _ _ _ _ _ _ _ _ _ _ _ _ _ _ _)
        isplitl [HS1]
        · unfold owns; iexists _; isplitr
          swap; · iexact HS1
          ipureintro; exact View.read_writes_of_cover _ _ _ _ _ (scover0_C_1 c _ _ _ _ _ _ _ _ _ _ _ _ _ _ _ _ _)
        isplitl [R2]
        · iexact R2
        isplitl [R3]
        · iexact R3
        isplitl [R4]
        · iexact R4
        isplitl [R5]
        · iexact R5
        isplitl [R6]
        · iexact R6
        isplitl [R7]
        · iexact R7
        isplitl [R8]
        · iexact R8
        iexact R9
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0 sout0_B_1; (try dsimp only)
      have hz : t.val ≠ 0 := by omega
      rw [PhiS0_castSucc V c t, PhiS0_pos V c _ _ hz]
      iintro ⟨⟨⟨HS0, HS1, R2, R3, R4, R5, R6, R7, R8, R9⟩, Hg⟩, Ho, ⟨%d0, H0⟩, ⟨%d1, H1⟩, ⟨%d2, H2⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) _ _).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 R2 R3 R4 R5 R6 R7 R8 R9 Hg]
      · isplitr [Hg]
        isplitl [HS0]
        · unfold owns; iexists _; isplitr
          swap; · iexact HS0
          ipureintro; exact View.read_writes_of_cover _ _ _ _ _ (scover0_B_0 c _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _)
        isplitl [R2]
        · iexact R2
        isplitl [R3]
        · iexact R3
        isplitl [R4]
        · iexact R4
        isplitl [R5]
        · iexact R5
        isplitl [R6]
        · iexact R6
        isplitl [R7]
        · iexact R7
        isplitl [R8]
        · iexact R8
        iexact R9
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives the class invariant back: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, R2, R3, R4, R5, R6, R7, R8, R9⟩, Hg⟩
  isplitr [Hg]
  · isplitl [HS0]
    · iexists _; iexact HS0
    isplitl [HS1]
    · iexists _; iexact HS1
    isplitl [R2]
    · iexact R2
    isplitl [R3]
    · iexact R3
    isplitl [R4]
    · iexact R4
    isplitl [R5]
    · iexact R5
    isplitl [R6]
    · iexact R6
    isplitl [R7]
    · iexact R7
    isplitl [R8]
    · iexact R8
    iexact R9
  iexact Hg

theorem hout0 (c : Dev nD) : (dat0 V c).Φ (Fin.last cfg0.N) ⊢ Pipeline.ΦA spec0 c :=
  Phi_out0 V c _ (by rw [Fin.val_last]; have : cfg0.N = 32 := N_0; omega)

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

end Cert.KernelIdeal.Reg0

end
-- ==== Proof.KIReg1Runs.lean ====
/-
  Region 1 of the program (the mean aggregation of relation 1): what the two runs of its body share — the body's two
  conditions decided over the grid, where its windows are idle, the memrefs it is called with — and the body's run in each of
  its three cases: a row block's first point (accumulators reset, then added to), its middle points (added to), its last point
  (added to, and the output block stored). Stated at any float instance.
-/
import proofs.«102029_j50019189129705_1_alg».proof.Proof.Gen.KernelIdeal.Launch
import proofs.«102029_j50019189129705_1_alg».proof.Proof.Gen.KernelIdeal.Skeleton
import proofs.«102029_j50019189129705_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, decided over the grid -/

/-- The first condition of the body (the column coordinate of the grid point is 0: a row block's first point). -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second condition (the column coordinate is 7: a row block's last point). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated. -/
abbrev VO1_2 : View sig .tc .vmem S1024x128 .f32 := (Memref.whole cc1_stg2_0 : Memref sig .tc .vmem S1024x128 .f32).view
abbrev ms1_0 (t : Fin cfg1.N) : Memref sig .tc .vmem S1024x2048 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
/-- The two scratch accumulators: the weighted sum and the degree. -/
abbrev scM1_0 : Memref sig .tc .vmem S1024x128 .f32 := Memref.whole cc1_scratch0
abbrev scM1_1 : Memref sig .tc .vmem S1024x1 .f32 := Memref.whole cc1_scratch1
abbrev VS1_0 : View sig .tc .vmem S1024x128 .f32 := scM1_0.view
abbrev VS1_1 : View sig .tc .vmem S1024x1 .f32 := scM1_1.view

/-- The class invariant with the two accumulators as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-! ## The body's run, case by case -/

set_option maxHeartbeats 4000000 in
/-- A row block's FIRST point (condition 0 holds, condition 1 does not): both accumulators are reset, then added to; the output
    window is left untouched. The pieces each accumulator ends with are the witness the run finds. -/
noncomputable def kernelRun1_A (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : cond1_0 i) (hc1 : ¬cond1_1 i)
    (x0 : Vec F S1024x2048 .i32) (x1 : Vec F S2048x128 .bf16) :
    Σ' (L2 : List (View.Piece (Elt F) S1024x128 .f32)) (LS0 : List (View.Piece (Elt F) S1024x128 .f32)), { LS1 : List (View.Piece (Elt F) S1024x1 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__agg_kernel i arg2 harg2 arg3 harg3 arg4 harg4 arg5 harg5 arg6 harg6) K } := by
  refine ⟨[], ?_, ?_, fun xi2 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

set_option maxHeartbeats 4000000 in
/-- A row block's MIDDLE points (neither condition holds): both accumulators, found at what the point before left, are added to;
    the output window is left untouched. -/
noncomputable def kernelRun1_B (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond1_0 i) (hc1 : ¬cond1_1 i)
    (x0 : Vec F S1024x2048 .i32) (x1 : Vec F S2048x128 .bf16) (xs0 : Vec F S1024x128 .f32) (xs1 : Vec F S1024x1 .f32) :
    Σ' (L2 : List (View.Piece (Elt F) S1024x128 .f32)) (LS0 : List (View.Piece (Elt F) S1024x128 .f32)), { LS1 : List (View.Piece (Elt F) S1024x1 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__agg_kernel i arg2 harg2 arg3 harg3 arg4 harg4 arg5 harg5 arg6 harg6) K } := by
  refine ⟨[], ?_, ?_, fun xi2 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

set_option maxHeartbeats 4000000 in
/-- A row block's LAST point (condition 1 holds, condition 0 does not): both accumulators are added to, and the output window is
    stored whole with the scaled sum. -/
noncomputable def kernelRun1_C (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond1_0 i) (hc1 : cond1_1 i)
    (x0 : Vec F S1024x2048 .i32) (x1 : Vec F S2048x128 .bf16) (xs0 : Vec F S1024x128 .f32) (xs1 : Vec F S1024x1 .f32) :
    Σ' (L2 : List (View.Piece (Elt F) S1024x128 .f32)) (LS0 : List (View.Piece (Elt F) S1024x128 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__agg_kernel i arg2 harg2 arg3 harg3 arg4 harg4 arg5 harg5 arg6 harg6) K } := by
  refine ⟨?_, ?_, ?_, fun E K => ?run⟩
  case run =>
    simp only [cc1__agg_kernel_eq_skeleton]; unfold cc1__agg_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.Reg1

end
-- ==== Proof.KIReg1Data.lean ====
/-
  Region 1 of the program: what its output block and its two accumulators hold after every grid point (a recursion on the
  point: reset at a row block's first point, added to at the others, the output stored at the last), the region's invariant
  carrying the accumulators from one point to the next, the pipeline's proof data and the body obligation. Stated at any
  float instance and at any contents `V` of the buffers when the region is entered.
-/
import proofs.«102029_j50019189129705_1_alg».proof.Proof.KIReg1Runs
import proofs.«102029_j50019189129705_1_alg».proof.Proof.Gen.KernelIdeal.Skeleton
import proofs.«102029_j50019189129705_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output window and in the two accumulators -/

/-- Case A: the pieces the run leaves in the weighted-sum accumulator cover it. -/
theorem scover1_A_0 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : cond1_0 i) (hc1 : ¬cond1_1 i)
    (x0 : Vec F S1024x2048 .i32) (x1 : Vec F S2048x128 .bf16) (y : S1024x128.Idx) :
    ∃ pc ∈ (kernelRun1_A c i arg2 harg2 arg3 harg3 arg4 harg4 arg5 harg5 arg6 harg6 hc0 hc1 x0 x1).2.1, y ∈ pc.1.set :=
  View.cover_of_tiledL (kernelRun1_A c i arg2 harg2 arg3 harg3 arg4 harg4 arg5 harg5 arg6 harg6 hc0 hc1 x0 x1).2.1 S1024x128.size (by sl_kernel_rfl) y
/-- Case A: the pieces the run leaves in the degree accumulator cover it. -/
theorem scover1_A_1 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : cond1_0 i) (hc1 : ¬cond1_1 i)
    (x0 : Vec F S1024x2048 .i32) (x1 : Vec F S2048x128 .bf16) (y : S1024x1.Idx) :
    ∃ pc ∈ (kernelRun1_A c i arg2 harg2 arg3 harg3 arg4 harg4 arg5 harg5 arg6 harg6 hc0 hc1 x0 x1).2.2.1, y ∈ pc.1.set :=
  View.cover_of_tiledL (kernelRun1_A c i arg2 harg2 arg3 harg3 arg4 harg4 arg5 harg5 arg6 harg6 hc0 hc1 x0 x1).2.2.1 S1024x1.size (by sl_kernel_rfl) y
/-- Case A: what the output window's buffer holds after the body (its pieces read back; nothing is stored in cases A and B). -/
def out1_A_2 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : cond1_0 i) (hc1 : ¬cond1_1 i)
    (x0 : Vec F S1024x2048 .i32) (x1 : Vec F S2048x128 .bf16) : Vec F S1024x128 .f32 :=
  VO1_2.read (Elt F) (VO1_2.writes (Elt F) VO1_2.junk (kernelRun1_A c i arg2 harg2 arg3 harg3 arg4 harg4 arg5 harg5 arg6 harg6 hc0 hc1 x0 x1).1)
/-- Case A: what the weighted-sum accumulator holds after the body. -/
def sout1_A_0 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : cond1_0 i) (hc1 : ¬cond1_1 i)
    (x0 : Vec F S1024x2048 .i32) (x1 : Vec F S2048x128 .bf16) : Vec F S1024x128 .f32 :=
  VS1_0.read (Elt F) (VS1_0.writes (Elt F) VS1_0.junk (kernelRun1_A c i arg2 harg2 arg3 harg3 arg4 harg4 arg5 harg5 arg6 harg6 hc0 hc1 x0 x1).2.1)
/-- Case A: what the degree accumulator holds after the body. -/
def sout1_A_1 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : cond1_0 i) (hc1 : ¬cond1_1 i)
    (x0 : Vec F S1024x2048 .i32) (x1 : Vec F S2048x128 .bf16) : Vec F S1024x1 .f32 :=
  VS1_1.read (Elt F) (VS1_1.writes (Elt F) VS1_1.junk (kernelRun1_A c i arg2 harg2 arg3 harg3 arg4 harg4 arg5 harg5 arg6 harg6 hc0 hc1 x0 x1).2.2.1)

/-- Case B: the pieces the run leaves in the weighted-sum accumulator cover it. -/
theorem scover1_B_0 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond1_0 i) (hc1 : ¬cond1_1 i)
    (x0 : Vec F S1024x2048 .i32) (x1 : Vec F S2048x128 .bf16) (xs0 : Vec F S1024x128 .f32) (xs1 : Vec F S1024x1 .f32) (y : S1024x128.Idx) :
    ∃ pc ∈ (kernelRun1_B c i arg2 harg2 arg3 harg3 arg4 harg4 arg5 harg5 arg6 harg6 hc0 hc1 x0 x1 xs0 xs1).2.1, y ∈ pc.1.set :=
  View.cover_of_tiledL (kernelRun1_B c i arg2 harg2 arg3 harg3 arg4 harg4 arg5 harg5 arg6 harg6 hc0 hc1 x0 x1 xs0 xs1).2.1 S1024x128.size (by sl_kernel_rfl) y
/-- Case B: the pieces the run leaves in the degree accumulator cover it. -/
theorem scover1_B_1 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond1_0 i) (hc1 : ¬cond1_1 i)
    (x0 : Vec F S1024x2048 .i32) (x1 : Vec F S2048x128 .bf16) (xs0 : Vec F S1024x128 .f32) (xs1 : Vec F S1024x1 .f32) (y : S1024x1.Idx) :
    ∃ pc ∈ (kernelRun1_B c i arg2 harg2 arg3 harg3 arg4 harg4 arg5 harg5 arg6 harg6 hc0 hc1 x0 x1 xs0 xs1).2.2.1, y ∈ pc.1.set :=
  View.cover_of_tiledL (kernelRun1_B c i arg2 harg2 arg3 harg3 arg4 harg4 arg5 harg5 arg6 harg6 hc0 hc1 x0 x1 xs0 xs1).2.2.1 S1024x1.size (by sl_kernel_rfl) y
/-- Case B: what the output window's buffer holds after the body (its pieces read back; nothing is stored in cases A and B). -/
def out1_B_2 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond1_0 i) (hc1 : ¬cond1_1 i)
    (x0 : Vec F S1024x2048 .i32) (x1 : Vec F S2048x128 .bf16) (xs0 : Vec F S1024x128 .f32) (xs1 : Vec F S1024x1 .f32) : Vec F S1024x128 .f32 :=
  VO1_2.read (Elt F) (VO1_2.writes (Elt F) VO1_2.junk (kernelRun1_B c i arg2 harg2 arg3 harg3 arg4 harg4 arg5 harg5 arg6 harg6 hc0 hc1 x0 x1 xs0 xs1).1)
/-- Case B: what the weighted-sum accumulator holds after the body. -/
def sout1_B_0 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond1_0 i) (hc1 : ¬cond1_1 i)
    (x0 : Vec F S1024x2048 .i32) (x1 : Vec F S2048x128 .bf16) (xs0 : Vec F S1024x128 .f32) (xs1 : Vec F S1024x1 .f32) : Vec F S1024x128 .f32 :=
  VS1_0.read (Elt F) (VS1_0.writes (Elt F) VS1_0.junk (kernelRun1_B c i arg2 harg2 arg3 harg3 arg4 harg4 arg5 harg5 arg6 harg6 hc0 hc1 x0 x1 xs0 xs1).2.1)
/-- Case B: what the degree accumulator holds after the body. -/
def sout1_B_1 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond1_0 i) (hc1 : ¬cond1_1 i)
    (x0 : Vec F S1024x2048 .i32) (x1 : Vec F S2048x128 .bf16) (xs0 : Vec F S1024x128 .f32) (xs1 : Vec F S1024x1 .f32) : Vec F S1024x1 .f32 :=
  VS1_1.read (Elt F) (VS1_1.writes (Elt F) VS1_1.junk (kernelRun1_B c i arg2 harg2 arg3 harg3 arg4 harg4 arg5 harg5 arg6 harg6 hc0 hc1 x0 x1 xs0 xs1).2.2.1)

/-- Case C: the pieces the run leaves in the weighted-sum accumulator cover it. -/
theorem scover1_C_0 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond1_0 i) (hc1 : cond1_1 i)
    (x0 : Vec F S1024x2048 .i32) (x1 : Vec F S2048x128 .bf16) (xs0 : Vec F S1024x128 .f32) (xs1 : Vec F S1024x1 .f32) (y : S1024x128.Idx) :
    ∃ pc ∈ (kernelRun1_C c i arg2 harg2 arg3 harg3 arg4 harg4 arg5 harg5 arg6 harg6 hc0 hc1 x0 x1 xs0 xs1).2.1, y ∈ pc.1.set :=
  View.cover_of_tiledL (kernelRun1_C c i arg2 harg2 arg3 harg3 arg4 harg4 arg5 harg5 arg6 harg6 hc0 hc1 x0 x1 xs0 xs1).2.1 S1024x128.size (by sl_kernel_rfl) y
/-- Case C: the pieces the run leaves in the degree accumulator cover it. -/
theorem scover1_C_1 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond1_0 i) (hc1 : cond1_1 i)
    (x0 : Vec F S1024x2048 .i32) (x1 : Vec F S2048x128 .bf16) (xs0 : Vec F S1024x128 .f32) (xs1 : Vec F S1024x1 .f32) (y : S1024x1.Idx) :
    ∃ pc ∈ (kernelRun1_C c i arg2 harg2 arg3 harg3 arg4 harg4 arg5 harg5 arg6 harg6 hc0 hc1 x0 x1 xs0 xs1).2.2.1, y ∈ pc.1.set :=
  View.cover_of_tiledL (kernelRun1_C c i arg2 harg2 arg3 harg3 arg4 harg4 arg5 harg5 arg6 harg6 hc0 hc1 x0 x1 xs0 xs1).2.2.1 S1024x1.size (by sl_kernel_rfl) y
/-- Case C: what the output window's buffer holds after the body (its pieces read back; nothing is stored in cases A and B). -/
def out1_C_2 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond1_0 i) (hc1 : cond1_1 i)
    (x0 : Vec F S1024x2048 .i32) (x1 : Vec F S2048x128 .bf16) (xs0 : Vec F S1024x128 .f32) (xs1 : Vec F S1024x1 .f32) : Vec F S1024x128 .f32 :=
  VO1_2.read (Elt F) (VO1_2.writes (Elt F) VO1_2.junk (kernelRun1_C c i arg2 harg2 arg3 harg3 arg4 harg4 arg5 harg5 arg6 harg6 hc0 hc1 x0 x1 xs0 xs1).1)
/-- Case C: what the weighted-sum accumulator holds after the body. -/
def sout1_C_0 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond1_0 i) (hc1 : cond1_1 i)
    (x0 : Vec F S1024x2048 .i32) (x1 : Vec F S2048x128 .bf16) (xs0 : Vec F S1024x128 .f32) (xs1 : Vec F S1024x1 .f32) : Vec F S1024x128 .f32 :=
  VS1_0.read (Elt F) (VS1_0.writes (Elt F) VS1_0.junk (kernelRun1_C c i arg2 harg2 arg3 harg3 arg4 harg4 arg5 harg5 arg6 harg6 hc0 hc1 x0 x1 xs0 xs1).2.1)
/-- Case C: what the degree accumulator holds after the body. -/
def sout1_C_1 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond1_0 i) (hc1 : cond1_1 i)
    (x0 : Vec F S1024x2048 .i32) (x1 : Vec F S2048x128 .bf16) (xs0 : Vec F S1024x128 .f32) (xs1 : Vec F S1024x1 .f32) : Vec F S1024x1 .f32 :=
  VS1_1.read (Elt F) (VS1_1.writes (Elt F) VS1_1.junk (kernelRun1_C c i arg2 harg2 arg3 harg3 arg4 harg4 arg5 harg5 arg6 harg6 hc0 hc1 x0 x1 xs0 xs1).2.2.1)

/-- Case C's one store covers the output block. -/
theorem cover1_C_2 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond1_0 i) (hc1 : cond1_1 i)
    (x0 : Vec F S1024x2048 .i32) (x1 : Vec F S2048x128 .bf16) (xs0 : Vec F S1024x128 .f32) (xs1 : Vec F S1024x1 .f32) (y : S1024x128.Idx) :
    ∃ pc ∈ (kernelRun1_C c i arg2 harg2 arg3 harg3 arg4 harg4 arg5 harg5 arg6 harg6 hc0 hc1 x0 x1 xs0 xs1).1, y ∈ pc.1.set :=
  View.cover_of_tiledL (kernelRun1_C c i arg2 harg2 arg3 harg3 arg4 harg4 arg5 harg5 arg6 harg6 hc0 hc1 x0 x1 xs0 xs1).1 S1024x128.size (by sl_kernel_rfl) y

/-! ## The accumulation, point by point -/

/-- What the output window's buffer and the two accumulators hold after the body at position `n`: the case the position is in
    (first, middle or last point of its row block), run on the point's input blocks and, past a first point, on what the
    point before left in the accumulators. -/
def outsAt1 (c : Dev nD) : (n : ℕ) → n < cfg1.N → Vec F S1024x128 .f32 × Vec F S1024x128 .f32 × Vec F S1024x1 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2)

theorem outsAt1_A (c : Dev nD) (t : Fin cfg1.N) (h0 : t.val % 8 = 0) (h1 : ¬t.val % 8 = 7) :
    outsAt1 V c t.val t.isLt = (out1_A_2 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t), sout1_A_1 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point every scoped buffer that is no staging buffer at anything;
    afterwards the two accumulators at what the point before left in them, the others at anything; the generator register at
    some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare (outsAt1 V c n hn).2.1 ∗ owns (c : Thread nD τ) scM1_1 fullShare (outsAt1 V c n hn).2.2) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare (outsAt1 V c n hn).2.1 ∗ owns (c : Thread nD τ) scM1_1 fullShare (outsAt1 V c n hn).2.2) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare (outsAt1 V c (n - 1) (by omega)).2.1 ∗ owns (c : Thread nD τ) scM1_1 fullShare (outsAt1 V c (n - 1) (by omega)).2.2) ∗ (∃ r, prngReg c r)) := by
  cases n with
  | zero => exact absurd rfl hz
  | succ n => rfl

/-! ## The pipeline's proof data -/

/-- The proof data of the pipeline on core `c`: the arrays as the region finds them; after the body at point `t` each input's
    buffer at its block and the output's at `outsAt`'s first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the closed forms of the two conditions say which case the point is in; the invariant hands the body
    the accumulators at what the point before left (at anything at a row block's first point, where they are reset before they
    are read) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0 sout1_A_1; (try dsimp only)
      by_cases hz : t.val = 0
      · rw [PhiS1_castSucc V c t, PhiS1_zero V c _ _ hz, PhiA1_eq]
        iintro ⟨⟨⟨R0, R1, R2, R3, R4, R5, R6, R7, HS0, HS1⟩, Hg⟩, Ho, ⟨%d0, H0⟩, ⟨%d1, H1⟩, ⟨%d2, H2⟩⟩
        iapply ((kernelRun1_A c (grid1.coords t) _ _ _ _ _ _ _ _ _ _ ((hcond1_0 t).mpr h0) (fun h => h1 ((hcond1_1 t).mp h)) (iblk1 V c 0 t) (iblk1 V c 1 t)).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [R0 R1 R2 R3 R4 R5 R6 R7 HS0 HS1 Hg]
        · isplitr [Hg]
          isplitl [R0]
          · iexact R0
          isplitl [R1]
          · iexact R1
          isplitl [R2]
          · iexact R2
          isplitl [R3]
          · iexact R3
          isplitl [R4]
          · iexact R4
          isplitl [R5]
          · iexact R5
          isplitl [R6]
          · iexact R6
          isplitl [R7]
          · iexact R7
          isplitl [HS0]
          · unfold owns; iexists _; isplitr
            swap; · iexact HS0
            ipureintro; exact View.read_writes_of_cover _ _ _ _ _ (scover1_A_0 c _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _)
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨R0, R1, R2, R3, R4, R5, R6, R7, HS0, HS1⟩, Hg⟩, Ho, ⟨%d0, H0⟩, ⟨%d1, H1⟩, ⟨%d2, H2⟩⟩
        iapply ((kernelRun1_A c (grid1.coords t) _ _ _ _ _ _ _ _ _ _ ((hcond1_0 t).mpr h0) (fun h => h1 ((hcond1_1 t).mp h)) (iblk1 V c 0 t) (iblk1 V c 1 t)).2.2.2 _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [R0 R1 R2 R3 R4 R5 R6 R7 HS0 HS1 Hg]
        · isplitr [Hg]
          isplitl [R0]
          · iexact R0
          isplitl [R1]
          · iexact R1
          isplitl [R2]
          · iexact R2
          isplitl [R3]
          · iexact R3
          isplitl [R4]
          · iexact R4
          isplitl [R5]
          · iexact R5
          isplitl [R6]
          · iexact R6
          isplitl [R7]
          · iexact R7
          isplitl [HS0]
          · unfold owns; iexists _; isplitr
            swap; · iexact HS0
            ipureintro; exact View.read_writes_of_cover _ _ _ _ _ (scover1_A_0 c _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _)
          iexact Hg
        isplitl [Ho]; · iexact Ho
        isplitl [H0]; · iexact H0
        isplitl [H1]; · iexact H1
        iexists _; iexact H2
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0 sout1_C_1; (try dsimp only)
      have hz : t.val ≠ 0 := by omega
      rw [PhiS1_castSucc V c t, PhiS1_pos V c _ _ hz]
      iintro ⟨⟨⟨R0, R1, R2, R3, R4, R5, R6, R7, HS0, HS1⟩, Hg⟩, Ho, ⟨%d0, H0⟩, ⟨%d1, H1⟩, ⟨%d2, H2⟩⟩
      iapply ((kernelRun1_C c (grid1.coords t) _ _ _ _ _ _ _ _ _ _ (fun h => h0 ((hcond1_0 t).mp h)) ((hcond1_1 t).mpr h1) (iblk1 V c 0 t) (iblk1 V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [R0 R1 R2 R3 R4 R5 R6 R7 HS0 HS1 Hg]
      · isplitr [Hg]
        isplitl [R0]
        · iexact R0
        isplitl [R1]
        · iexact R1
        isplitl [R2]
        · iexact R2
        isplitl [R3]
        · iexact R3
        isplitl [R4]
        · iexact R4
        isplitl [R5]
        · iexact R5
        isplitl [R6]
        · iexact R6
        isplitl [R7]
        · iexact R7
        isplitl [HS0]
        · unfold owns; iexists _; isplitr
          swap; · iexact HS0
          ipureintro; exact View.read_writes_of_cover _ _ _ _ _ (scover1_C_0 c _ _ _ _ _ _ _ _ _ _ _ _ _ _ _ _ _)
        unfold owns; iexists _; isplitr
        swap; · iexact HS1
        ipureintro; exact View.read_writes_of_cover _ _ _ _ _ (scover1_C_1 c _ _ _ _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0 sout1_B_1; (try dsimp only)
      have hz : t.val ≠ 0 := by omega
      rw [PhiS1_castSucc V c t, PhiS1_pos V c _ _ hz]
      iintro ⟨⟨⟨R0, R1, R2, R3, R4, R5, R6, R7, HS0, HS1⟩, Hg⟩, Ho, ⟨%d0, H0⟩, ⟨%d1, H1⟩, ⟨%d2, H2⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) _ _).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [R0 R1 R2 R3 R4 R5 R6 R7 HS0 HS1 Hg]
      · isplitr [Hg]
        isplitl [R0]
        · iexact R0
        isplitl [R1]
        · iexact R1
        isplitl [R2]
        · iexact R2
        isplitl [R3]
        · iexact R3
        isplitl [R4]
        · iexact R4
        isplitl [R5]
        · iexact R5
        isplitl [R6]
        · iexact R6
        isplitl [R7]
        · iexact R7
        isplitl [HS0]
        · unfold owns; iexists _; isplitr
          swap; · iexact HS0
          ipureintro; exact View.read_writes_of_cover _ _ _ _ _ (scover1_B_0 c _ _ _ _ _ _ _ _ _ _ _ _ _ _ _ _ _)
        unfold owns; iexists _; isplitr
        swap; · iexact HS1
        ipureintro; exact View.read_writes_of_cover _ _ _ _ _ (scover1_B_1 c _ _ _ _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives the class invariant back: the accumulators' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨R0, R1, R2, R3, R4, R5, R6, R7, HS0, HS1⟩, Hg⟩
  isplitr [Hg]
  · isplitl [R0]
    · iexact R0
    isplitl [R1]
    · iexact R1
    isplitl [R2]
    · iexact R2
    isplitl [R3]
    · iexact R3
    isplitl [R4]
    · iexact R4
    isplitl [R5]
    · iexact R5
    isplitl [R6]
    · iexact R6
    isplitl [R7]
    · iexact R7
    isplitl [HS0]
    · iexists _; iexact HS0
    iexists _; iexact HS1
  iexact Hg

theorem hout1 (c : Dev nD) : (dat1 V c).Φ (Fin.last cfg1.N) ⊢ Pipeline.ΦA spec1 c :=
  Phi_out1 V c _ (by rw [Fin.val_last]; have : cfg1.N = 32 := N_1; omega)

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

end Cert.KernelIdeal.Reg1

end
-- ==== Proof.KIRun.lean ====
/-
  The run of the whole program: host operations, the two regions one after the other, host operations. The contents of the
  unscoped buffers are followed from the launch through every segment (`W0` … `W4`): a host stretch applies its operations,
  a region replaces its output array by what its write-backs leave and keeps every other buffer. Every weakly fair execution
  terminates, and every final memory holds each unscoped buffer at `W4`; the argument arrays are never written, so they end
  as launched. Stated at any float instance.
-/
import proofs.«102029_j50019189129705_1_alg».proof.Proof.KIReg0Data
import proofs.«102029_j50019189129705_1_alg».proof.Proof.KIReg1Data
import proofs.«102029_j50019189129705_1_alg».proof.Proof.Gen.KernelIdeal.Regions

set_option maxRecDepth 16384

noncomputable section

namespace Cert.KernelIdeal.Run

open Cert.KernelIdeal Cert.KernelIdeal.Gen Cert.KernelIdeal.Reg0 Cert.KernelIdeal.Reg1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit (it is entered from region 0's exit contents). -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the last host stretch: the final contents. -/
abbrev W4 : Dev nD → Valuation τ sig (Elt F) := fun c => StableHlo.after hostOps2 (W3 m c)

/-! ## The arguments end as launched: no host operation writes one, and each region only reads them -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide : main_arg0 ∉ hostOps2_W)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide : main_arg0 ∉ hostOps0_W)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide : main_arg1 ∉ hostOps2_W)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (by decide : main_arg1 ∉ hostOps0_W)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide : main_arg2 ∉ hostOps2_W)
    _ = W2 m c (Proc.devRef .tc main_arg2) := (W3_arr m c 0).trans (((dat1 (V2 m) c).arrAt_in 0 rfl _).trans (A_eq1 (V2 m) c 0))
    _ = W1 m c (Proc.devRef .tc main_arg2) := W2_of_ne m c main_arg2 (by decide)
    _ = W0 m c (Proc.devRef .tc main_arg2) := StableHlo.after_of_writes_sub hostOps0 _ hostOps0_writes (by decide : main_arg2 ∉ hostOps0_W)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (by decide : main_arg3 ∉ hostOps2_W)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_writes_sub hostOps0 _ hostOps0_writes (by decide : main_arg3 ∉ hostOps0_W)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_writes_sub hostOps2 _ hostOps2_writes (by decide : main_arg4 ∉ hostOps2_W)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_writes_sub hostOps0 _ hostOps0_writes (by decide : main_arg4 ∉ hostOps0_W)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := StableHlo.after_of_writes_sub hostOps2 _ hostOps2_writes (by decide : main_arg5 ∉ hostOps2_W)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_writes_sub hostOps0 _ hostOps0_writes (by decide : main_arg5 ∉ hostOps0_W)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := StableHlo.after_of_writes_sub hostOps2 _ hostOps2_writes (by decide : main_arg6 ∉ hostOps2_W)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := StableHlo.after_of_writes_sub hostOps0 _ hostOps0_writes (by decide : main_arg6 ∉ hostOps0_W)
    _ = m ((c : Thread nD τ).loc main_arg6) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W1`, left at `W2`. Its arrays are split out of
    the unscoped buffers and put back at what the pipeline leaves; the generator register goes into the region's invariant and
    comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm (F := F) 0).1
        ∗ Pipeline.scopedRest (Pipeline.pin (pcfgs (F := F)) adm 0).spec c) ⊢ (Pipeline.ΦA spec0 c : sProp 𝕄) := by
      unfold Pipeline.ΦA
      iintro ⟨Hp, -, Hr⟩
      isplitl [Hr]; · iexact Hr
      iexact Hp
    exact h.trans (hin0 (V1 m) c)
  hout c := by
    rw [Pipeline.ownSems0_none]
    have h : (Pipeline.ΦA spec0 c : sProp 𝕄) ⊢ iprop((∃ r, prngReg c r) ∗ BI.emp ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (hout0 (V1 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are split out of
    the unscoped buffers and put back at what the pipeline leaves; the generator register goes into the region's invariant and
    comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
        ∗ Pipeline.scopedRest (Pipeline.pin (pcfgs (F := F)) adm 1).spec c) ⊢ (Pipeline.ΦA spec1 c : sProp 𝕄) := by
      unfold Pipeline.ΦA
      iintro ⟨Hp, -, Hr⟩
      isplitl [Hr]; · iexact Hr
      iexact Hp
    exact h.trans (hin1 (V2 m) c)
  hout c := by
    rw [Pipeline.ownSems0_none]
    have h : (Pipeline.ΦA spec1 c : sProp 𝕄) ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (V2 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and every
    final memory holds each unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c)⟩) (run_main m ρ)

end Cert.KernelIdeal.Run

end
-- ==== Proof.KIReg0Eqs.lean ====
/-
  Region 0: what each case of the body leaves, as the body's arithmetic of what it loaded. At a row block's first point the
  weighted-sum accumulator ends at `0-filled + mask · embeddings` and the degree accumulator at `0-filled + row sums`; at the
  other points each ends at what the point before left plus this point's contribution; at the last point the output block is
  the accumulated sum scaled by the reciprocal of the accumulated degree where that is positive. Stated at any float instance.
-/
import proofs.«102029_j50019189129705_1_alg».proof.Proof.KIReg0Data
import Idealize.ShloMosaic.Lib.Pipeline.Value

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

theorem hz0 : (![0, 0] : Fin 2 → Nat) = fun _ => 0 := funext fun a => by fin_cases a <;> rfl

/-! ## The pieces each case leaves, read back -/

theorem sA0_0 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : cond0_0 i) (hc1 : ¬cond0_1 i)
    (x0 : Vec F S1024x2048 .i32) (x1 : Vec F S2048x128 .bf16) :
    sout0_A_0 c i arg2 harg2 arg3 harg3 arg4 harg4 arg5 harg5 arg6 harg6 hc0 hc1 x0 x1 = k0_pay4 x0 (k0_pay1 (F := F)) x1 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero hz0]
  simp only [View.readAt_eq_ld, Memref.IsWhole.read_unread, View.ld_unit_zero (S := S1024x2048) hz0, View.ld_unit_zero (S := S2048x128) hz0, View.ld_unit_zero (S := S1024x128) hz0, View.ld_unit_zero (S := S1024x1) hz0,
    View.readCov_unit_zero (S := S1024x128) _ hz0, View.readCov_unit_zero (S := S1024x1) _ hz0]

theorem sA0_1 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : cond0_0 i) (hc1 : ¬cond0_1 i)
    (x0 : Vec F S1024x2048 .i32) (x1 : Vec F S2048x128 .bf16) :
    sout0_A_1 c i arg2 harg2 arg3 harg3 arg4 harg4 arg5 harg5 arg6 harg6 hc0 hc1 x0 x1 = k0_pay5 x0 (k0_pay2 (F := F)) := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero hz0]
  simp only [View.readAt_eq_ld, Memref.IsWhole.read_unread, View.ld_unit_zero (S := S1024x2048) hz0, View.ld_unit_zero (S := S2048x128) hz0, View.ld_unit_zero (S := S1024x128) hz0, View.ld_unit_zero (S := S1024x1) hz0,
    View.readCov_unit_zero (S := S1024x128) _ hz0, View.readCov_unit_zero (S := S1024x1) _ hz0]

theorem sB0_0 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond0_0 i) (hc1 : ¬cond0_1 i)
    (x0 : Vec F S1024x2048 .i32) (x1 : Vec F S2048x128 .bf16) (xs0 : Vec F S1024x128 .f32) (xs1 : Vec F S1024x1 .f32) :
    sout0_B_0 c i arg2 harg2 arg3 harg3 arg4 harg4 arg5 harg5 arg6 harg6 hc0 hc1 x0 x1 xs0 xs1 = k0_pay4 x0 xs0 x1 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  rw [View.canon_cons_unit_zero hz0]
  simp only [View.readAt_eq_ld, Memref.IsWhole.read_unread, View.ld_unit_zero (S := S1024x2048) hz0, View.ld_unit_zero (S := S2048x128) hz0, View.ld_unit_zero (S := S1024x128) hz0, View.ld_unit_zero (S := S1024x1) hz0,
    View.readCov_unit_zero (S := S1024x128) _ hz0, View.readCov_unit_zero (S := S1024x1) _ hz0]

theorem sB0_1 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond0_0 i) (hc1 : ¬cond0_1 i)
    (x0 : Vec F S1024x2048 .i32) (x1 : Vec F S2048x128 .bf16) (xs0 : Vec F S1024x128 .f32) (xs1 : Vec F S1024x1 .f32) :
    sout0_B_1 c i arg2 harg2 arg3 harg3 arg4 harg4 arg5 harg5 arg6 harg6 hc0 hc1 x0 x1 xs0 xs1 = k0_pay5 x0 xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  sl_unfold_words
  rw [View.canon_cons_unit_zero hz0]
  simp only [View.readAt_eq_ld, Memref.IsWhole.read_unread, View.ld_unit_zero (S := S1024x2048) hz0, View.ld_unit_zero (S := S2048x128) hz0, View.ld_unit_zero (S := S1024x128) hz0, View.ld_unit_zero (S := S1024x1) hz0,
    View.readCov_unit_zero (S := S1024x128) _ hz0, View.readCov_unit_zero (S := S1024x1) _ hz0]

theorem sC0_0 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond0_0 i) (hc1 : cond0_1 i)
    (x0 : Vec F S1024x2048 .i32) (x1 : Vec F S2048x128 .bf16) (xs0 : Vec F S1024x128 .f32) (xs1 : Vec F S1024x1 .f32) :
    sout0_C_0 c i arg2 harg2 arg3 harg3 arg4 harg4 arg5 harg5 arg6 harg6 hc0 hc1 x0 x1 xs0 xs1 = k0_pay4 x0 xs0 x1 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_cons_unit_zero hz0]
  simp only [View.readAt_eq_ld, Memref.IsWhole.read_unread, View.ld_unit_zero (S := S1024x2048) hz0, View.ld_unit_zero (S := S2048x128) hz0, View.ld_unit_zero (S := S1024x128) hz0, View.ld_unit_zero (S := S1024x1) hz0,
    View.readCov_unit_zero (S := S1024x128) _ hz0, View.readCov_unit_zero (S := S1024x1) _ hz0]

theorem sC0_1 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond0_0 i) (hc1 : cond0_1 i)
    (x0 : Vec F S1024x2048 .i32) (x1 : Vec F S2048x128 .bf16) (xs0 : Vec F S1024x128 .f32) (xs1 : Vec F S1024x1 .f32) :
    sout0_C_1 c i arg2 harg2 arg3 harg3 arg4 harg4 arg5 harg5 arg6 harg6 hc0 hc1 x0 x1 xs0 xs1 = k0_pay5 x0 xs1 := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  rw [View.canon_cons_unit_zero hz0]
  simp only [View.readAt_eq_ld, Memref.IsWhole.read_unread, View.ld_unit_zero (S := S1024x2048) hz0, View.ld_unit_zero (S := S2048x128) hz0, View.ld_unit_zero (S := S1024x128) hz0, View.ld_unit_zero (S := S1024x1) hz0,
    View.readCov_unit_zero (S := S1024x128) _ hz0, View.readCov_unit_zero (S := S1024x1) _ hz0]

theorem oC0_2 (c : Dev nD) (i : grid0.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond0_0 i) (hc1 : cond0_1 i)
    (x0 : Vec F S1024x2048 .i32) (x1 : Vec F S2048x128 .bf16) (xs0 : Vec F S1024x128 .f32) (xs1 : Vec F S1024x1 .f32) :
    out0_C_2 c i arg2 harg2 arg3 harg3 arg4 harg4 arg5 harg5 arg6 harg6 hc0 hc1 x0 x1 xs0 xs1 = k0_pay6 (k0_pay5 x0 xs1) (k0_pay4 x0 xs0 x1) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_cons_unit_zero hz0]
  simp only [View.readAt_eq_ld, Memref.IsWhole.read_unread, View.ld_unit_zero (S := S1024x2048) hz0, View.ld_unit_zero (S := S2048x128) hz0, View.ld_unit_zero (S := S1024x128) hz0, View.ld_unit_zero (S := S1024x1) hz0,
    View.readCov_unit_zero (S := S1024x128) _ hz0, View.readCov_unit_zero (S := S1024x1) _ hz0]

variable (V : (c : Dev nD) → (b : Ref sig .tc) → Buf (Elt F) ((c : Thread nD τ).loc b))

/-! ## The accumulation, as equations between consecutive points -/

/-- At a row block's first point the accumulators restart from the 0-filled arrays. -/
theorem outs_first0 (c : Dev nD) (t : Fin cfg0.N) (h0 : t.val % 8 = 0) :
    (outsAt0 V c t.val t.isLt).2.1 = k0_pay4 (iblk0 V c 0 t) (k0_pay1 (F := F)) (iblk0 V c 1 t)
    ∧ (outsAt0 V c t.val t.isLt).2.2 = k0_pay5 (iblk0 V c 0 t) (k0_pay2 (F := F)) := by
  have h1 : ¬t.val % 8 = 7 := by omega
  rw [outsAt0_A V c t h0 h1]
  dsimp only
  exact ⟨sA0_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t), sA0_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t)⟩

/-- At every other point each accumulator is what the point before left plus this point's contribution. -/
theorem outs_next0 (c : Dev nD) (t : Fin cfg0.N) (h0 : ¬t.val % 8 = 0) :
    (outsAt0 V c t.val t.isLt).2.1 = k0_pay4 (iblk0 V c 0 t) (outsAt0 V c (t.val - 1) (Nat.lt_of_le_of_lt (Nat.sub_le _ _) t.isLt)).2.1 (iblk0 V c 1 t)
    ∧ (outsAt0 V c t.val t.isLt).2.2 = k0_pay5 (iblk0 V c 0 t) (outsAt0 V c (t.val - 1) (Nat.lt_of_le_of_lt (Nat.sub_le _ _) t.isLt)).2.2 := by
  by_cases h1 : t.val % 8 = 7
  · rw [outsAt0_C V c t h0 h1]
    dsimp only
    exact ⟨sC0_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sC0_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2⟩
  · rw [outsAt0_B V c t h0 h1]
    dsimp only
    exact ⟨sB0_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sB0_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2⟩

/-- At a row block's last point the output block is the scaled accumulated sum. -/
theorem outs_last0 (c : Dev nD) (t : Fin cfg0.N) (h1 : t.val % 8 = 7) :
    (outsAt0 V c t.val t.isLt).1 = k0_pay6 (outsAt0 V c t.val t.isLt).2.2 (outsAt0 V c t.val t.isLt).2.1 := by
  have h0 : ¬t.val % 8 = 0 := by omega
  rw [outsAt0_C V c t h0 h1]
  dsimp only
  rw [oC0_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sC0_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sC0_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2]

end Cert.KernelIdeal.Reg0

end
-- ==== Proof.Spec.lean ====
/-
  The function both programs compute, on extended reals, index by index.

  A mask M (integers, read exactly) weights the rows of a matrix E of embeddings: node b gets the weighted sum
  `∑ u, M(b,u) · E(u,d)` scaled by the reciprocal of the row's degree `deg b = ∑ u, M(b,u)` when that degree is
  positive, and by 0 otherwise (mean aggregation over the selected neighbours). The result mixes two such
  aggregates with weights γ and 1 - γ.
-/
import Idealize.ShloMosaic.PureOps.Ideal
import Idealize.ShloMosaic.Lib.ValueIdx

noncomputable section

open scoped BigOperators

namespace Cert.Spec

open Idealize.ShloMosaic Idealize.ShloMosaic.ValueIdx

abbrev SM : Shape := ⟨2, ![4096, 16384]⟩
abbrev SE : Shape := ⟨2, ![16384, 128]⟩
abbrev SO : Shape := ⟨2, ![4096, 128]⟩
abbrev SG : Shape := ⟨1, ![1]⟩

/-- A mask entry as an extended real: the integer, exactly. -/
def mval (M : SM.Idx → BitVec 32) (b : Fin 4096) (u : Fin 16384) : EReal := (((M (ix2 b u)).toInt : ℝ) : EReal)

/-- The degree of row b: the sum of its mask entries. -/
def deg (M : SM.Idx → BitVec 32) (b : Fin 4096) : EReal := ∑ u : Fin 16384, mval M b u

/-- The mask-weighted sum of the embedding rows, at (b, d). -/
def wsum (M : SM.Idx → BitVec 32) (E : SE.Idx → EReal) (b : Fin 4096) (d : Fin 128) : EReal :=
  ∑ u : Fin 16384, mval M b u * E (ix2 u d)

/-- The scale of a row of degree x: 1/x when x is positive, else 0. -/
def scale (x : EReal) : EReal := if 0 < x then x⁻¹ else 0

/-- The mean aggregate at (b, d). -/
def agg (M : SM.Idx → BitVec 32) (E : SE.Idx → EReal) (b : Fin 4096) (d : Fin 128) : EReal :=
  wsum M E b d * scale (deg M b)

/-- The mixed result: `agg₀ · γ + agg₁ · (1 - γ)`, the number 1 spelt as its f32 word. -/
def G (M0 : SM.Idx → BitVec 32) (E0 : SE.Idx → EReal) (M1 : SM.Idx → BitVec 32) (E1 : SE.Idx → EReal)
    (γ : SG.Idx → EReal) : SO.Idx → EReal := fun i =>
  agg M0 E0 (i 0) (i 1) * γ (ix1 0) + agg M1 E1 (i 0) (i 1) * (Ideal.ofBits .f32 0x3F800000#32 - γ (ix1 0))

theorem G_apply (M0 : SM.Idx → BitVec 32) (E0 : SE.Idx → EReal) (M1 : SM.Idx → BitVec 32) (E1 : SE.Idx → EReal)
    (γ : SG.Idx → EReal) (b : Fin 4096) (d : Fin 128) :
    G M0 E0 M1 E1 γ (ix2 b d) =
      agg M0 E0 b d * γ (ix1 0) + agg M1 E1 b d * (Ideal.ofBits .f32 0x3F800000#32 - γ (ix1 0)) := rfl

/-- The scale is never negative and never +inf. -/
theorem scale_nonneg (x : EReal) : 0 ≤ scale x := by
  unfold scale
  split
  · rename_i h; exact EReal.inv_nonneg_of_nonneg h.le
  · exact le_rfl

theorem scale_ne_top (x : EReal) : scale x ≠ ⊤ := by
  unfold scale
  split
  · rename_i h
    induction x using EReal.rec with
    | bot => simp
    | coe r => rw [← EReal.coe_inv]; exact EReal.coe_ne_top _
    | top => simp
  · exact EReal.zero_ne_top

/-- A product with a non-negative finite number distributes over a finite sum of extended reals. -/
theorem sum_mul_of_nonneg {ι : Type*} (s : Finset ι) (x : ι → EReal) (c : EReal) (hc : 0 ≤ c) (hct : c ≠ ⊤) :
    (∑ i ∈ s, x i) * c = ∑ i ∈ s, x i * c := by
  classical
  induction s using Finset.induction_on with
  | empty => simp
  | insert a s ha ih =>
    rw [Finset.sum_insert ha, Finset.sum_insert ha, EReal.right_distrib_of_nonneg_of_ne_top hc hct, ih]

/-- Scaling the weighted sum is the weighted sum of the scaled weights: the reference's form of the aggregate. -/
theorem agg_eq_sum (M : SM.Idx → BitVec 32) (E : SE.Idx → EReal) (b : Fin 4096) (d : Fin 128) :
    agg M E b d = ∑ u : Fin 16384, (mval M b u * scale (deg M b)) * E (ix2 u d) := by
  unfold agg wsum
  rw [sum_mul_of_nonneg _ _ _ (scale_nonneg _) (scale_ne_top _)]
  refine Finset.sum_congr rfl fun u _ => ?_
  rw [mul_assoc, mul_comm (E _), ← mul_assoc]

end Cert.Spec

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.KIPay.lean ====
/-
  The kernel's stored values, read at an index on the extended reals.

  One grid step of the kernel handles a block of 1024 rows and 2048 neighbours. It keeps two accumulators per block
  of rows: the weighted sum of embedding rows acc(r, q) and the degree deg(r). The stored values are
    * the two accumulators' initial value 0;
    * acc(r, q) + ∑ k, m(r, k) · e(k, q), the mask block times the embedding block added to the accumulator, where
      m(r, k) is the integer mask entry read exactly (narrowing it to a shorter format is the identity here);
    * deg(r) + ∑ k, m(r, k), the row sums of the mask block added to the degree;
    * acc(r, q) · scale (deg r), where scale x is 1/x for a positive x and 0 otherwise: the kernel selects, on
      "deg r > 0", between the quotient 1 / deg r and 0; a positive degree is not zero, so that quotient is the
      inverse.
  The second kernel function is the first's text over the same shapes; its values are the same terms.
-/
import proofs.«102029_j50019189129705_1_alg».proof.Proof.Gen.KernelIdeal.Skeleton
import proofs.«102029_j50019189129705_1_alg».proof.Proof.Spec
import proofs.«102029_j50019189129705_1_alg».proof.Proof.LibMatmulRows
import proofs.«102029_j50019189129705_1_alg».proof.Proof.LibLayout
import Idealize.ShloMosaic.Lib.ValueIdx
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## Words and scalars -/

/-- The f32 word 0x3F800000 is the number 1. -/
theorem one_word : Ideal.ofBits .f32 0x3F800000#32 = 1 := by
  simp [Ideal.ofBits, Ideal.ieee, -EReal.coe_mul]; norm_num

/-- The select on "x is positive" between the quotient 1 / x and 0 is the scale of x. -/
theorem scale_scalar (D : EReal) :
    Scalar.select (Ideal.cmp .ogt D 0) (Ideal.div 1 D) 0 = Cert.Spec.scale D := by
  unfold Cert.Spec.scale
  by_cases h : 0 < D
  · have hne : D ≠ 0 := ne_of_gt h
    simp [Ideal.cmp, Ideal.div, Scalar.select, h, hne]
  · simp [Ideal.cmp, Scalar.select, h]

/-! ## The product's operand indices: rows of the left operand, columns of the right, one contracted axis -/

theorem lhs0 (i : S1024x128.Idx) (s : dot_S1024x2048_S2048x128_S1024x128_1_0_0_1_n_n.contr.Idx) :
    (dot_S1024x2048_S2048x128_S1024x128_1_0_0_1_n_n.lhsIdx i s 0).val = (i 0).val := by
  unfold DotDims.lhsIdx
  rw [dif_neg (show ¬(0 : Fin S1024x2048.rank) ∈ dot_S1024x2048_S2048x128_S1024x128_1_0_0_1_n_n.lhsBatch by decide),
    dif_pos (show (0 : Fin S1024x2048.rank) ∈ dot_S1024x2048_S2048x128_S1024x128_1_0_0_1_n_n.lhsNonContracting by decide)]
  rfl

theorem lhs1 (i : S1024x128.Idx) (s : dot_S1024x2048_S2048x128_S1024x128_1_0_0_1_n_n.contr.Idx) :
    (dot_S1024x2048_S2048x128_S1024x128_1_0_0_1_n_n.lhsIdx i s 1).val = (s ⟨0, by decide⟩).val :=
  dot_S1024x2048_S2048x128_S1024x128_1_0_0_1_n_n.lhsIdx_val_of_single rfl i s

theorem rhs0 (i : S1024x128.Idx) (s : dot_S1024x2048_S2048x128_S1024x128_1_0_0_1_n_n.contr.Idx) :
    (dot_S1024x2048_S2048x128_S1024x128_1_0_0_1_n_n.rhsIdx i s 0).val = (s ⟨0, by decide⟩).val :=
  dot_S1024x2048_S2048x128_S1024x128_1_0_0_1_n_n.rhsIdx_val_of_single rfl i s

theorem rhs1 (i : S1024x128.Idx) (s : dot_S1024x2048_S2048x128_S1024x128_1_0_0_1_n_n.contr.Idx) :
    (dot_S1024x2048_S2048x128_S1024x128_1_0_0_1_n_n.rhsIdx i s 1).val = (i 1).val := by
  unfold DotDims.rhsIdx
  rw [dif_neg (show ¬(1 : Fin S2048x128.rank) ∈ dot_S1024x2048_S2048x128_S1024x128_1_0_0_1_n_n.rhsBatch by decide),
    dif_pos (show (1 : Fin S2048x128.rank) ∈ dot_S1024x2048_S2048x128_S1024x128_1_0_0_1_n_n.rhsNonContracting by decide)]
  rfl

/-! ## The first kernel function's stored values -/

/-- The accumulator's initial value. -/
theorem pay1 (r : Fin 1024) (q : Fin 128) : k0_pay1 (F := Ideal) (ix2 r q) = 0 := by
  unfold k0_pay1
  rw [shapeCast_self]
  exact Ideal.ofBits_zero_f32

/-- The degree's initial value. -/
theorem pay2 (r : Fin 1024) (z : Fin 1) : k0_pay2 (F := Ideal) (ix2 r z) = 0 := by
  unfold k0_pay2
  rw [shapeCast_self]
  exact Ideal.ofBits_zero_f32

/-- The accumulator after a step: the mask block times the embedding block, added. -/
theorem pay4 (v3 : Vec Ideal S1024x2048 .i32) (v6 : Vec Ideal S1024x128 .f32) (v7 : Vec Ideal S2048x128 .bf16) (r : Fin 1024) (q : Fin 128) :
    k0_pay4 (F := Ideal) v3 v6 v7 (ix2 r q) = v6 (ix2 r q) + ∑ k : Fin 2048, (((v3 (ix2 r k)).toInt : ℝ) : EReal) * v7 (ix2 k q) := by
  unfold k0_pay4 k0_pay3
  dsimp only
  rw [shapeCast_self, shapeCast_self]
  refine congrArg (v6 (ix2 r q) + ·) ?_
  refine (Cert.LibMatmulRows.matmul_rows (φ₁ := .bf16) (φ₂ := .bf16) dot_S1024x2048_S2048x128_S1024x128_1_0_0_1_n_n rfl rfl lhs0 lhs1 rhs0 rhs1 _ v7 r q).trans ?_
  rfl

/-- The degree after a step: the mask block's row sums, added. -/
theorem pay5 (v3 : Vec Ideal S1024x2048 .i32) (v14 : Vec Ideal S1024x1 .f32) (r : Fin 1024) (z : Fin 1) :
    k0_pay5 (F := Ideal) v3 v14 (ix2 r z) = v14 (ix2 r z) + ∑ k : Fin 2048, (((v3 (ix2 r k)).toInt : ℝ) : EReal) := by
  unfold k0_pay5 k0_pay3
  dsimp only
  rw [shapeCast_self]
  refine congrArg (v14 (ix2 r z) + ·) ?_
  refine (Cert.LibLayout.shapeCast_a_a1_apply _ _ r z).trans ?_
  refine (Cert.LibLayout.laneSum_apply _ _ _ _ r).trans ?_
  rfl

/-- The result: the accumulator times the scale of the degree. -/
theorem pay6 (v24 : Vec Ideal S1024x1 .f32) (v31 : Vec Ideal S1024x128 .f32) (r : Fin 1024) (q : Fin 128) :
    k0_pay6 (F := Ideal) v24 v31 (ix2 r q) = v31 (ix2 r q) * Cert.Spec.scale (v24 (ix2 r (0 : Fin 1))) := by
  unfold k0_pay6
  refine congrArg (v31 (ix2 r q) * ·) ?_
  refine (Cert.LibLayout.broadcastTo_a1_ab_apply _ _ r q).trans ?_
  show Scalar.select (Ideal.cmp .ogt (v24 (ix2 r (0 : Fin 1))) (Ideal.ofBits .f32 0x00000000#32))
      (Ideal.div (Ideal.ofBits .f32 0x3F800000#32) (v24 (ix2 r (0 : Fin 1)))) (Ideal.ofBits .f32 0x00000000#32) = _
  rw [Ideal.ofBits_zero_f32, one_word]
  exact scale_scalar _

/-! ## The second kernel function's stored values: the same terms -/

theorem pay1' (r : Fin 1024) (q : Fin 128) : k1_pay1 (F := Ideal) (ix2 r q) = 0 := pay1 r q

theorem pay2' (r : Fin 1024) (z : Fin 1) : k1_pay2 (F := Ideal) (ix2 r z) = 0 := pay2 r z

theorem pay4' (v3 : Vec Ideal S1024x2048 .i32) (v6 : Vec Ideal S1024x128 .f32) (v7 : Vec Ideal S2048x128 .bf16) (r : Fin 1024) (q : Fin 128) :
    k1_pay4 (F := Ideal) v3 v6 v7 (ix2 r q) = v6 (ix2 r q) + ∑ k : Fin 2048, (((v3 (ix2 r k)).toInt : ℝ) : EReal) * v7 (ix2 k q) :=
  pay4 v3 v6 v7 r q

theorem pay5' (v3 : Vec Ideal S1024x2048 .i32) (v14 : Vec Ideal S1024x1 .f32) (r : Fin 1024) (z : Fin 1) :
    k1_pay5 (F := Ideal) v3 v14 (ix2 r z) = v14 (ix2 r z) + ∑ k : Fin 2048, (((v3 (ix2 r k)).toInt : ℝ) : EReal) :=
  pay5 v3 v14 r z

theorem pay6' (v24 : Vec Ideal S1024x1 .f32) (v31 : Vec Ideal S1024x128 .f32) (r : Fin 1024) (q : Fin 128) :
    k1_pay6 (F := Ideal) v24 v31 (ix2 r q) = v31 (ix2 r q) * Cert.Spec.scale (v24 (ix2 r (0 : Fin 1))) :=
  pay6 v24 v31 r q

end Cert.KernelIdeal.Pay

end
-- ==== Proof.LibTotals.lean ====
/-
  GENERAL lemmas on totals (extended reals, or any additive commutative monoid: no finiteness anywhere).

  * A float add-reduction over any set of axes keeps the total: the sum of the reduced array's entries is the sum of
    the source's entries. A shape cast keeps the total. An array whose axes all have extent one holds its total at
    its one index.
  * A sum over the index set of a rank-3 array is the triple sum over its coordinates.
  * A sum over Q blocks of P consecutive naturals is the sum over the first Q * P naturals.
  * An accumulator that is reset every P steps: if it starts a run of P steps at 0 + p and adds p at every other step,
    then r steps into run q it holds the sum of p over the run so far.
-/
import Idealize.ShloMosaic.PureOps.Ideal.Laws
import Idealize.ShloMosaic.Lib.ValueIdx
import Mathlib.Algebra.BigOperators.Fin
import Mathlib.Logic.Equiv.Fin.Basic

noncomputable section

open scoped BigOperators

namespace Cert.LibTotals

open Idealize.ShloMosaic Idealize.ShloMosaic.ValueIdx

/-- The entries of a float add-reduction sum to the total of the source. -/
theorem sum_multiReduction_add {s t : Shape} {φ : FTy} {axes : List (Fin s.rank)} (src : FVec Ideal s φ)
    (acc : BitVec φ.bits) (h : s.Reduces axes t) (hφ : FKind.Formats φ) (hacc : acc = FKind.add.neutral φ hφ) :
    ∑ j : t.Idx, multiReduction .add axes t src acc h hφ hacc j = ∑ i : s.Idx, src i := by
  show ∑ j : t.Idx, Ideal.reduceAdd h src j = _
  unfold Ideal.reduceAdd
  exact Finset.sum_fiberwise Finset.univ (fun i => h.drop i) src

/-- The entries of a shape cast sum to the total of the source. -/
theorem sum_shapeCast {s t : Shape} {M : Type} [AddCommMonoid M] (x : s.Idx → M) (h : s.ShapeCasts t) :
    ∑ j : t.Idx, shapeCast t x h j = ∑ i : s.Idx, x i :=
  Equiv.sum_comp (Shape.reshapeEquiv h) x

/-- An array whose axes all have extent one: the total is its one entry. -/
theorem sum_of_unit {s : Shape} {M : Type*} [AddCommMonoid M] (hs : ∀ a, s.size a = 1) (x : s.Idx → M) (i0 : s.Idx) :
    ∑ i : s.Idx, x i = x i0 :=
  Fintype.sum_eq_single i0 fun i hi => absurd (funext fun a => Fin.ext (by
    have h1 := (i a).isLt; have h2 := (i0 a).isLt; have := hs a; omega)) hi

/-- A rank-3 index set is the product of its coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Q blocks of P consecutive naturals are the first Q * P naturals. -/
theorem sum_blocks_nat {M : Type*} [AddCommMonoid M] (Q P : ℕ) (f : ℕ → M) :
    ∑ q : Fin Q, ∑ k : Fin P, f (k.val + P * q.val) = ∑ j : Fin (Q * P), f j.val := by
  rw [← (finProdFinEquiv (m := Q) (n := P)).sum_comp (fun j => f j.val), Fintype.sum_prod_type]
  rfl

/-- The accumulator that restarts every P steps (steps below N only): r steps into run q it is the sum of that run's
    first r + 1 terms. -/
theorem restart_acc {M : Type*} [AddCommMonoid M] (P N : ℕ) (p acc : ℕ → M)
    (h0 : 0 < N → acc 0 = 0 + p 0)
    (hr : ∀ n, n + 1 < N → (n + 1) % P = 0 → acc (n + 1) = 0 + p (n + 1))
    (hs : ∀ n, n + 1 < N → (n + 1) % P ≠ 0 → acc (n + 1) = acc n + p (n + 1)) :
    ∀ q r, r < P → P * q + r < N → acc (P * q + r) = ∑ k ∈ Finset.range (r + 1), p (P * q + k) := by
  intro q r
  induction r with
  | zero =>
    intro hP hN
    rw [Finset.sum_range_one, Nat.add_zero]
    cases q with
    | zero => rw [Nat.mul_zero, h0 hN, zero_add]
    | succ q =>
      obtain ⟨n, hn⟩ : ∃ n, P * (q + 1) = n + 1 := ⟨P * (q + 1) - 1, by
        have : 0 < P * (q + 1) := Nat.mul_pos hP (Nat.succ_pos q); omega⟩
      rw [hn] at hN ⊢
      rw [hr n hN (by rw [← hn]; exact Nat.mul_mod_right P (q + 1)), zero_add]
  | succ r ih =>
    intro hP hN
    have hmod : (P * q + r + 1) % P ≠ 0 := by
      rw [Nat.add_assoc, Nat.mul_add_mod, Nat.mod_eq_of_lt hP]; exact Nat.succ_ne_zero r
    rw [← Nat.add_assoc] at hN ⊢
    rw [hs _ hN hmod, ih (by omega) (by omega), Finset.sum_range_succ _ (r + 1), Nat.add_assoc]

end Cert.LibTotals

end
-- ==== Proof.KISums.lean ====
/-
  Sums over blocks. A row of 16384 mask entries is read in 8 consecutive blocks of 2048 entries, and the 4096 rows come
  in 4 blocks of 1024. Grid point n handles row block n / 8 and column block n % 8; its contribution to a row's
  weighted sum (or degree) is the sum over the 2048 entries of its column block. Adding the contributions of the 8 grid
  points of one row block gives the whole row's weighted sum (or degree): 8 blocks of 2048 consecutive naturals are the
  first 16384 naturals. Entries are indexed by natural numbers with a guard, so that no bound proof sits inside a sum.
-/
import proofs.«102029_j50019189129705_1_alg».proof.Proof.Spec
import proofs.«102029_j50019189129705_1_alg».proof.Proof.LibTotals

noncomputable section

open scoped BigOperators

namespace Cert.Sums

open Cert.Spec Idealize.ShloMosaic Idealize.ShloMosaic.ValueIdx

/-- The mask entry (x, y) as a number, 0 outside the array. -/
def Mn (M : SM.Idx → BitVec 32) (x y : ℕ) : EReal := if h : x < 4096 ∧ y < 16384 then mval M ⟨x, h.1⟩ ⟨y, h.2⟩ else 0

/-- The embedding entry (x, y), 0 outside the array. -/
def En (E : SE.Idx → EReal) (x y : ℕ) : EReal := if h : x < 16384 ∧ y < 128 then E (ix2 ⟨x, h.1⟩ ⟨y, h.2⟩) else 0

/-- The contribution of grid point n (row block n / 8, column block n % 8) to entry (r, q) of its row block's weighted sum. -/
def pW (M : SM.Idx → BitVec 32) (E : SE.Idx → EReal) (r q n : ℕ) : EReal := ∑ k : Fin 2048, Mn M (1024 * (n / 8) + r) (2048 * (n % 8) + k.val) * En E (2048 * (n % 8) + k.val) q

/-- The contribution of grid point n to row r's degree. -/
def pD (M : SM.Idx → BitVec 32) (r n : ℕ) : EReal := ∑ k : Fin 2048, Mn M (1024 * (n / 8) + r) (2048 * (n % 8) + k.val)

/-- Eight blocks of 2048 consecutive naturals are the first 16384 naturals. -/
theorem sum_row_blocks {A : Type*} [AddCommMonoid A] (f : ℕ → A) :
    ∑ k ∈ Finset.range 8, ∑ j : Fin 2048, f (2048 * k + j.val) = ∑ u : Fin 16384, f u.val := by
  rw [Finset.sum_range]
  refine Eq.trans (Finset.sum_congr rfl fun q _ => Finset.sum_congr rfl fun k _ => ?_) (Cert.LibTotals.sum_blocks_nat 8 2048 f)
  rw [Nat.add_comm]

/-- The eight grid points of row block a add up to the row's weighted sum. -/
theorem wsum_of_blocks (M : SM.Idx → BitVec 32) (E : SE.Idx → EReal) (a r q : ℕ) (ha : a < 4) (hr : r < 1024) (hq : q < 128) :
    ∑ k ∈ Finset.range 8, pW M E r q (8 * a + k) = wsum M E ⟨1024 * a + r, by omega⟩ ⟨q, hq⟩ := by
  have h1 : ∀ k ∈ Finset.range 8, pW M E r q (8 * a + k)
      = ∑ j : Fin 2048, Mn M (1024 * a + r) (2048 * k + j.val) * En E (2048 * k + j.val) q := by
    intro k hk
    have hk' := Finset.mem_range.1 hk
    unfold pW
    rw [show (8 * a + k) / 8 = a by omega, show (8 * a + k) % 8 = k by omega]
  refine ((Finset.sum_congr rfl h1).trans (sum_row_blocks fun u => Mn M (1024 * a + r) u * En E u q)).trans ?_
  unfold wsum
  refine Finset.sum_congr rfl fun u _ => ?_
  have hu := u.isLt
  show Mn M (1024 * a + r) u.val * En E u.val q = _
  unfold Mn En
  rw [dif_pos ⟨by omega, hu⟩, dif_pos ⟨hu, hq⟩]

/-- The eight grid points of row block a add up to the row's degree. -/
theorem deg_of_blocks (M : SM.Idx → BitVec 32) (a r : ℕ) (ha : a < 4) (hr : r < 1024) :
    ∑ k ∈ Finset.range 8, pD M r (8 * a + k) = deg M ⟨1024 * a + r, by omega⟩ := by
  have h1 : ∀ k ∈ Finset.range 8, pD M r (8 * a + k) = ∑ j : Fin 2048, Mn M (1024 * a + r) (2048 * k + j.val) := by
    intro k hk
    have hk' := Finset.mem_range.1 hk
    unfold pD
    rw [show (8 * a + k) / 8 = a by omega, show (8 * a + k) % 8 = k by omega]
  refine ((Finset.sum_congr rfl h1).trans (sum_row_blocks fun u => Mn M (1024 * a + r) u)).trans ?_
  unfold deg
  refine Finset.sum_congr rfl fun u _ => ?_
  have hu := u.isLt
  show Mn M (1024 * a + r) u.val = _
  unfold Mn
  rw [dif_pos ⟨by omega, hu⟩]

end Cert.Sums

end
-- ==== Proof.KIReg0Value.lean ====
/-
  Region 0 at the exact instance: what its output array holds after the region. Block (a, j) of the mask is rows
  1024·a … 1024·a + 1023 and columns 2048·j … 2048·j + 2047; grid point t = 8·a + j adds that block's contribution to the row
  block's accumulators, which restart at j = 0; after j = 7 entry (r, q) of the weighted-sum accumulator is the whole row's
  weighted sum and the degree accumulator the whole row's degree, and the output block is their scaled product: the mean
  aggregate of the specification. The four output blocks tile the array.
-/
import proofs.«102029_j50019189129705_1_alg».proof.Proof.KIReg0Eqs
import proofs.«102029_j50019189129705_1_alg».proof.Proof.KIPay
import proofs.«102029_j50019189129705_1_alg».proof.Proof.KISums
import proofs.«102029_j50019189129705_1_alg».proof.Proof.LibTotals
import Idealize.ShloMosaic.Lib.Pipeline.Value

set_option maxRecDepth 16384

noncomputable section

open scoped BigOperators

namespace Cert.KernelIdeal.Reg0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b)) (c : Dev nD)

/-- The mask array and the embedding matrix as the region finds them. -/
abbrev Mk0 : Cert.Spec.SM.Idx → BitVec 32 := V c main_arg0
abbrev Ek0 : Cert.Spec.SE.Idx → EReal := V c main_v7

/-! ## The windows' index maps, decided over the grid -/

theorem idx_facts0 : ∀ t : Fin cfg0.N, win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-! ## The input blocks are the arrays read at the block's offset -/

theorem blk0_0_read (t : Fin cfg0.N) (r : Fin 1024) (k : Fin 2048) (hx : 1024 * (t.val / 8) + r.val < 4096) (hy : 2048 * (t.val % 8) + k.val < 16384) :
    iblk0 V c 0 t (ix2 r k) = Mk0 V c (ix2 ⟨1024 * (t.val / 8) + r.val, hx⟩ ⟨2048 * (t.val % 8) + k.val, hy⟩) := by
  obtain ⟨e0, e1, -⟩ := idx_facts0 t
  show V c main_arg0 (((cfg0.win 0).blk t).view.emb (ix2 r k)) = _
  refine congrArg (V c main_arg0) (funext fun a => Fin.ext ?_)
  match a with
  | ⟨0, _⟩ => show win0_0.index t (0 : Fin 2) * 1024 + 1 * r.val = 1024 * (t.val / 8) + r.val; omega
  | ⟨1, _⟩ => show win0_0.index t (1 : Fin 2) * 2048 + 1 * k.val = 2048 * (t.val % 8) + k.val; omega

theorem blk0_1_read (t : Fin cfg0.N) (k : Fin 2048) (q : Fin 128) (hx : 2048 * (t.val % 8) + k.val < 16384) :
    iblk0 V c 1 t (ix2 k q) = Ek0 V c (ix2 ⟨2048 * (t.val % 8) + k.val, hx⟩ q) := by
  obtain ⟨-, -, e2, e3, -⟩ := idx_facts0 t
  show V c main_v7 (((cfg0.win 1).blk t).view.emb (ix2 k q)) = _
  refine congrArg (V c main_v7) (funext fun a => Fin.ext ?_)
  match a with
  | ⟨0, _⟩ => show win0_1.index t (0 : Fin 2) * 2048 + 1 * k.val = 2048 * (t.val % 8) + k.val; omega
  | ⟨1, _⟩ => show win0_1.index t (1 : Fin 2) * 128 + 1 * q.val = q.val; omega

/-- Point t's contribution to entry (r, q) of its row block's weighted sum. -/
theorem contribW0 (t : Fin cfg0.N) (r : Fin 1024) (q : Fin 128) :
    ∑ k : Fin 2048, (((iblk0 V c 0 t (ix2 r k)).toInt : ℝ) : EReal) * iblk0 V c 1 t (ix2 k q)
      = Cert.Sums.pW (Mk0 V c) (Ek0 V c) r.val q.val t.val := by
  have hN : t.val < 32 := lt_of_lt_of_eq t.isLt (show cfg0.N = 32 from N_0)
  unfold Cert.Sums.pW
  refine Finset.sum_congr rfl fun k _ => ?_
  have hx : 1024 * (t.val / 8) + r.val < 4096 := by have := r.isLt; omega
  have hy : 2048 * (t.val % 8) + k.val < 16384 := by have := k.isLt; omega
  rw [blk0_0_read V c t r k hx hy, blk0_1_read V c t k q hy]
  unfold Cert.Sums.Mn Cert.Sums.En
  rw [dif_pos ⟨hx, hy⟩, dif_pos ⟨hy, q.isLt⟩]
  rfl

/-- Point t's contribution to row r's degree. -/
theorem contribD0 (t : Fin cfg0.N) (r : Fin 1024) :
    ∑ k : Fin 2048, (((iblk0 V c 0 t (ix2 r k)).toInt : ℝ) : EReal) = Cert.Sums.pD (Mk0 V c) r.val t.val := by
  have hN : t.val < 32 := lt_of_lt_of_eq t.isLt (show cfg0.N = 32 from N_0)
  unfold Cert.Sums.pD
  refine Finset.sum_congr rfl fun k _ => ?_
  have hx : 1024 * (t.val / 8) + r.val < 4096 := by have := r.isLt; omega
  have hy : 2048 * (t.val % 8) + k.val < 16384 := by have := k.isLt; omega
  rw [blk0_0_read V c t r k hx hy]
  unfold Cert.Sums.Mn
  rw [dif_pos ⟨hx, hy⟩]
  rfl

/-! ## The accumulators, entry by entry, point by point -/

/-- Entry (r, q) of the weighted-sum accumulator after point n (0 past the grid). -/
def accW0 (r : Fin 1024) (q : Fin 128) (n : ℕ) : EReal := if h : n < cfg0.N then (outsAt0 V c n h).2.1 (ix2 r q) else 0
/-- Row r of the degree accumulator after point n. -/
def accD0 (r : Fin 1024) (n : ℕ) : EReal := if h : n < cfg0.N then (outsAt0 V c n h).2.2 (ix2 r (0 : Fin 1)) else 0

theorem accW0_restart (r : Fin 1024) (q : Fin 128) (n : ℕ) (hn : n < 32) (h0 : n % 8 = 0) :
    accW0 V c r q n = 0 + Cert.Sums.pW (Mk0 V c) (Ek0 V c) r.val q.val n := by
  have hn' : n < cfg0.N := lt_of_lt_of_eq hn (show cfg0.N = 32 from N_0).symm
  unfold accW0; rw [dif_pos hn']
  have e : (outsAt0 V c n hn').2.1 = k0_pay4 (iblk0 V c 0 ⟨n, hn'⟩) (k0_pay1 (F := Ideal)) (iblk0 V c 1 ⟨n, hn'⟩) := (outs_first0 V c ⟨n, hn'⟩ h0).1
  rw [e, Cert.KernelIdeal.Pay.pay4, Cert.KernelIdeal.Pay.pay1]
  exact congrArg (0 + ·) (contribW0 V c ⟨n, hn'⟩ r q)

theorem accD0_restart (r : Fin 1024) (n : ℕ) (hn : n < 32) (h0 : n % 8 = 0) :
    accD0 V c r n = 0 + Cert.Sums.pD (Mk0 V c) r.val n := by
  have hn' : n < cfg0.N := lt_of_lt_of_eq hn (show cfg0.N = 32 from N_0).symm
  unfold accD0; rw [dif_pos hn']
  have e : (outsAt0 V c n hn').2.2 = k0_pay5 (iblk0 V c 0 ⟨n, hn'⟩) (k0_pay2 (F := Ideal)) := (outs_first0 V c ⟨n, hn'⟩ h0).2
  rw [e, Cert.KernelIdeal.Pay.pay5, Cert.KernelIdeal.Pay.pay2]
  exact congrArg (0 + ·) (contribD0 V c ⟨n, hn'⟩ r)

theorem accW0_step (r : Fin 1024) (q : Fin 128) (n : ℕ) (hn : n + 1 < 32) (h0 : (n + 1) % 8 ≠ 0) :
    accW0 V c r q (n + 1) = accW0 V c r q n + Cert.Sums.pW (Mk0 V c) (Ek0 V c) r.val q.val (n + 1) := by
  have hn' : n + 1 < cfg0.N := lt_of_lt_of_eq hn (show cfg0.N = 32 from N_0).symm
  have hn'' : n < cfg0.N := Nat.lt_of_succ_lt hn'
  unfold accW0; rw [dif_pos hn', dif_pos hn'']
  have e : (outsAt0 V c (n + 1) hn').2.1 = k0_pay4 (iblk0 V c 0 ⟨n + 1, hn'⟩) (outsAt0 V c n hn'').2.1 (iblk0 V c 1 ⟨n + 1, hn'⟩) := (outs_next0 V c ⟨n + 1, hn'⟩ h0).1
  rw [e, Cert.KernelIdeal.Pay.pay4]
  exact congrArg (_ + ·) (contribW0 V c ⟨n + 1, hn'⟩ r q)

theorem accD0_step (r : Fin 1024) (n : ℕ) (hn : n + 1 < 32) (h0 : (n + 1) % 8 ≠ 0) :
    accD0 V c r (n + 1) = accD0 V c r n + Cert.Sums.pD (Mk0 V c) r.val (n + 1) := by
  have hn' : n + 1 < cfg0.N := lt_of_lt_of_eq hn (show cfg0.N = 32 from N_0).symm
  have hn'' : n < cfg0.N := Nat.lt_of_succ_lt hn'
  unfold accD0; rw [dif_pos hn', dif_pos hn'']
  have e : (outsAt0 V c (n + 1) hn').2.2 = k0_pay5 (iblk0 V c 0 ⟨n + 1, hn'⟩) (outsAt0 V c n hn'').2.2 := (outs_next0 V c ⟨n + 1, hn'⟩ h0).2
  rw [e, Cert.KernelIdeal.Pay.pay5]
  exact congrArg (_ + ·) (contribD0 V c ⟨n + 1, hn'⟩ r)

/-- After the last point of row block a the accumulators hold the whole row's weighted sum and degree. -/
theorem accW0_last (a : ℕ) (ha : a < 4) (r : Fin 1024) (q : Fin 128) :
    accW0 V c r q (8 * a + 7) = Cert.Spec.wsum (Mk0 V c) (Ek0 V c) ⟨1024 * a + r.val, by have := r.isLt; omega⟩ q := by
  rw [Cert.LibTotals.restart_acc 8 32 (Cert.Sums.pW (Mk0 V c) (Ek0 V c) r.val q.val) (accW0 V c r q)
    (fun h => accW0_restart V c r q 0 h rfl)
    (fun n hn h0 => accW0_restart V c r q (n + 1) hn h0)
    (fun n hn h0 => accW0_step V c r q n hn h0) a 7 (by omega) (by omega)]
  exact Cert.Sums.wsum_of_blocks (Mk0 V c) (Ek0 V c) a r.val q.val ha r.isLt q.isLt

theorem accD0_last (a : ℕ) (ha : a < 4) (r : Fin 1024) :
    accD0 V c r (8 * a + 7) = Cert.Spec.deg (Mk0 V c) ⟨1024 * a + r.val, by have := r.isLt; omega⟩ := by
  rw [Cert.LibTotals.restart_acc 8 32 (Cert.Sums.pD (Mk0 V c) r.val) (accD0 V c r)
    (fun h => accD0_restart V c r 0 h rfl)
    (fun n hn h0 => accD0_restart V c r (n + 1) hn h0)
    (fun n hn h0 => accD0_step V c r n hn h0) a 7 (by omega) (by omega)]
  exact Cert.Sums.deg_of_blocks (Mk0 V c) a r.val ha r.isLt

/-! ## The output array -/

/-- The mean aggregate as one array (natural-number coordinates, guarded). -/
def Gout0 : S4096x128.Idx → EReal := fun i =>
  if h : (i 0).val < 4096 ∧ (i 1).val < 128 then Cert.Spec.agg (Mk0 V c) (Ek0 V c) ⟨(i 0).val, h.1⟩ ⟨(i 1).val, h.2⟩ else 0

theorem Gout0_apply (b : Fin 4096) (d : Fin 128) : Gout0 V c (ix2 b d) = Cert.Spec.agg (Mk0 V c) (Ek0 V c) b d := by
  unfold Gout0
  rw [dif_pos ⟨b.isLt, d.isLt⟩]

/-- What a row block's last point writes back is that block of the mean aggregate. -/
theorem flushed0_eq (t : Fin cfg0.N) (hf : (cfg0.win 2).flush t = true) :
    (dat0 V c).flushed 2 t = ((cfg0.win 2).blk t).view.read (Elt Ideal) (Gout0 V c) := by
  have h7 : t.val % 8 = 7 := (flush0_2 t).mp hf
  have hN : t.val < 32 := lt_of_lt_of_eq t.isLt (show cfg0.N = 32 from N_0)
  obtain ⟨-, -, -, -, e4, e5⟩ := idx_facts0 t
  show (cfg0.win 2).cut (grid0.coords t) ((dat0 V c).after 2 t) = _
  rw [after0_2]
  funext j
  obtain ⟨r, q, rfl⟩ : ∃ (r : Fin 1024) (q : Fin 128), j = ix2 r q := ⟨j 0, j 1, eq_ix2 j⟩
  show (outsAt0 V c t.val t.isLt).1 (ix2 r q) = Gout0 V c (((cfg0.win 2).blk t).view.emb (ix2 r q))
  have hemb : ((cfg0.win 2).blk t).view.emb (ix2 r q) = ix2 (⟨1024 * (t.val / 8) + r.val, by have := r.isLt; omega⟩ : Fin 4096) q := by
    funext a; apply Fin.ext
    match a with
    | ⟨0, _⟩ => show win0_2.index t (0 : Fin 2) * 1024 + 1 * r.val = 1024 * (t.val / 8) + r.val; omega
    | ⟨1, _⟩ => show win0_2.index t (1 : Fin 2) * 128 + 1 * q.val = q.val; omega
  rw [hemb, Gout0_apply, outs_last0 V c t h7, Cert.KernelIdeal.Pay.pay6]
  have ht : t.val = 8 * (t.val / 8) + 7 := by omega
  have hW := accW0_last V c (t.val / 8) (by omega) r q
  have hD := accD0_last V c (t.val / 8) (by omega) r
  unfold accW0 at hW; unfold accD0 at hD
  rw [← ht, dif_pos t.isLt] at hW hD
  unfold Cert.Spec.agg
  rw [hW, hD]

/-- An index of the array is in point t's output block iff each coordinate is in the block's range. -/
theorem mem_blk0 (t : Fin cfg0.N) (i : S4096x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v16).slice (win0_2.rect t)).set ↔ _
  rw [View.set_slice_whole, Rect.mem_set_unit]
  exact Iff.rfl

/-- The four output blocks cover the array: row i is in the block written back at the last point of its row block. -/
theorem cover0 (i : S4096x128.Idx) : ∃ t : Fin cfg0.N, (cfg0.win 2).flush t = true ∧ i ∈ ((cfg0.win 2).blk t).view.set := by
  have hi0 : (i 0).val < 4096 := (i 0).isLt
  have hi1 : (i 1).val < 128 := (i 1).isLt
  have hN : cfg0.N = 32 := N_0
  let t : Fin cfg0.N := ⟨8 * ((i 0).val / 1024) + 7, lt_of_lt_of_eq (by omega : 8 * ((i 0).val / 1024) + 7 < 32) hN.symm⟩
  have htv : t.val = 8 * ((i 0).val / 1024) + 7 := rfl
  obtain ⟨-, -, -, -, e4, e5⟩ := idx_facts0 t
  refine ⟨t, (flush0_2 t).mpr (by omega), ?_⟩
  rw [mem_blk0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 128 ≤ (i 1).val ∧ (i 1).val < win0_2.index t (1 : Fin 2) * 128 + 128; omega

/-- THE OUTPUT ARRAY after the region: the mean aggregate of the mask and the embedding matrix the region found. -/
theorem final0 : (dat0 V c).arrAt 2 cfg0.N = Gout0 V c :=
  (dat0 V c).arrAt_eq_of_cover 2 (Gout0 V c) (fun t hf => flushed0_eq V c t hf) (cover0)

end Cert.KernelIdeal.Reg0

end
-- ==== Proof.KIReg1Eqs.lean ====
/-
  Region 1: what each case of the body leaves, as the body's arithmetic of what it loaded. At a row block's first point the
  weighted-sum accumulator ends at `0-filled + mask · embeddings` and the degree accumulator at `0-filled + row sums`; at the
  other points each ends at what the point before left plus this point's contribution; at the last point the output block is
  the accumulated sum scaled by the reciprocal of the accumulated degree where that is positive. Stated at any float instance.
-/
import proofs.«102029_j50019189129705_1_alg».proof.Proof.KIReg1Data
import Idealize.ShloMosaic.Lib.Pipeline.Value

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

theorem hz1 : (![0, 0] : Fin 2 → Nat) = fun _ => 0 := funext fun a => by fin_cases a <;> rfl

/-! ## The pieces each case leaves, read back -/

theorem sA1_0 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : cond1_0 i) (hc1 : ¬cond1_1 i)
    (x0 : Vec F S1024x2048 .i32) (x1 : Vec F S2048x128 .bf16) :
    sout1_A_0 c i arg2 harg2 arg3 harg3 arg4 harg4 arg5 harg5 arg6 harg6 hc0 hc1 x0 x1 = k1_pay4 x0 (k1_pay1 (F := F)) x1 := by
  unfold sout1_A_0
  rw [View.read_writes_eq_canon _ _ _ (scover1_A_0 c i arg2 harg2 arg3 harg3 arg4 harg4 arg5 harg5 arg6 harg6 hc0 hc1 x0 x1)]
  unfold kernelRun1_A
  dsimp only
  sl_unfold_words
  rw [View.canon_cons_unit_zero hz1]
  simp only [View.readAt_eq_ld, Memref.IsWhole.read_unread, View.ld_unit_zero (S := S1024x2048) hz1, View.ld_unit_zero (S := S2048x128) hz1, View.ld_unit_zero (S := S1024x128) hz1, View.ld_unit_zero (S := S1024x1) hz1,
    View.readCov_unit_zero (S := S1024x128) _ hz1, View.readCov_unit_zero (S := S1024x1) _ hz1]

theorem sA1_1 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : cond1_0 i) (hc1 : ¬cond1_1 i)
    (x0 : Vec F S1024x2048 .i32) (x1 : Vec F S2048x128 .bf16) :
    sout1_A_1 c i arg2 harg2 arg3 harg3 arg4 harg4 arg5 harg5 arg6 harg6 hc0 hc1 x0 x1 = k1_pay5 x0 (k1_pay2 (F := F)) := by
  unfold sout1_A_1
  rw [View.read_writes_eq_canon _ _ _ (scover1_A_1 c i arg2 harg2 arg3 harg3 arg4 harg4 arg5 harg5 arg6 harg6 hc0 hc1 x0 x1)]
  unfold kernelRun1_A
  dsimp only
  sl_unfold_words
  rw [View.canon_cons_unit_zero hz1]
  simp only [View.readAt_eq_ld, Memref.IsWhole.read_unread, View.ld_unit_zero (S := S1024x2048) hz1, View.ld_unit_zero (S := S2048x128) hz1, View.ld_unit_zero (S := S1024x128) hz1, View.ld_unit_zero (S := S1024x1) hz1,
    View.readCov_unit_zero (S := S1024x128) _ hz1, View.readCov_unit_zero (S := S1024x1) _ hz1]

theorem sB1_0 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond1_0 i) (hc1 : ¬cond1_1 i)
    (x0 : Vec F S1024x2048 .i32) (x1 : Vec F S2048x128 .bf16) (xs0 : Vec F S1024x128 .f32) (xs1 : Vec F S1024x1 .f32) :
    sout1_B_0 c i arg2 harg2 arg3 harg3 arg4 harg4 arg5 harg5 arg6 harg6 hc0 hc1 x0 x1 xs0 xs1 = k1_pay4 x0 xs0 x1 := by
  unfold sout1_B_0
  rw [View.read_writes_eq_canon _ _ _ (scover1_B_0 c i arg2 harg2 arg3 harg3 arg4 harg4 arg5 harg5 arg6 harg6 hc0 hc1 x0 x1 xs0 xs1)]
  unfold kernelRun1_B
  dsimp only
  sl_unfold_words
  rw [View.canon_cons_unit_zero hz1]
  simp only [View.readAt_eq_ld, Memref.IsWhole.read_unread, View.ld_unit_zero (S := S1024x2048) hz1, View.ld_unit_zero (S := S2048x128) hz1, View.ld_unit_zero (S := S1024x128) hz1, View.ld_unit_zero (S := S1024x1) hz1,
    View.readCov_unit_zero (S := S1024x128) _ hz1, View.readCov_unit_zero (S := S1024x1) _ hz1]

theorem sB1_1 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond1_0 i) (hc1 : ¬cond1_1 i)
    (x0 : Vec F S1024x2048 .i32) (x1 : Vec F S2048x128 .bf16) (xs0 : Vec F S1024x128 .f32) (xs1 : Vec F S1024x1 .f32) :
    sout1_B_1 c i arg2 harg2 arg3 harg3 arg4 harg4 arg5 harg5 arg6 harg6 hc0 hc1 x0 x1 xs0 xs1 = k1_pay5 x0 xs1 := by
  unfold sout1_B_1
  rw [View.read_writes_eq_canon _ _ _ (scover1_B_1 c i arg2 harg2 arg3 harg3 arg4 harg4 arg5 harg5 arg6 harg6 hc0 hc1 x0 x1 xs0 xs1)]
  unfold kernelRun1_B
  dsimp only
  sl_unfold_words
  rw [View.canon_cons_unit_zero hz1]
  simp only [View.readAt_eq_ld, Memref.IsWhole.read_unread, View.ld_unit_zero (S := S1024x2048) hz1, View.ld_unit_zero (S := S2048x128) hz1, View.ld_unit_zero (S := S1024x128) hz1, View.ld_unit_zero (S := S1024x1) hz1,
    View.readCov_unit_zero (S := S1024x128) _ hz1, View.readCov_unit_zero (S := S1024x1) _ hz1]

theorem sC1_0 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond1_0 i) (hc1 : cond1_1 i)
    (x0 : Vec F S1024x2048 .i32) (x1 : Vec F S2048x128 .bf16) (xs0 : Vec F S1024x128 .f32) (xs1 : Vec F S1024x1 .f32) :
    sout1_C_0 c i arg2 harg2 arg3 harg3 arg4 harg4 arg5 harg5 arg6 harg6 hc0 hc1 x0 x1 xs0 xs1 = k1_pay4 x0 xs0 x1 := by
  unfold sout1_C_0
  rw [View.read_writes_eq_canon _ _ _ (scover1_C_0 c i arg2 harg2 arg3 harg3 arg4 harg4 arg5 harg5 arg6 harg6 hc0 hc1 x0 x1 xs0 xs1)]
  unfold kernelRun1_C
  dsimp only
  sl_unfold_words
  rw [View.canon_cons_unit_zero hz1]
  simp only [View.readAt_eq_ld, Memref.IsWhole.read_unread, View.ld_unit_zero (S := S1024x2048) hz1, View.ld_unit_zero (S := S2048x128) hz1, View.ld_unit_zero (S := S1024x128) hz1, View.ld_unit_zero (S := S1024x1) hz1,
    View.readCov_unit_zero (S := S1024x128) _ hz1, View.readCov_unit_zero (S := S1024x1) _ hz1]

theorem sC1_1 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond1_0 i) (hc1 : cond1_1 i)
    (x0 : Vec F S1024x2048 .i32) (x1 : Vec F S2048x128 .bf16) (xs0 : Vec F S1024x128 .f32) (xs1 : Vec F S1024x1 .f32) :
    sout1_C_1 c i arg2 harg2 arg3 harg3 arg4 harg4 arg5 harg5 arg6 harg6 hc0 hc1 x0 x1 xs0 xs1 = k1_pay5 x0 xs1 := by
  unfold sout1_C_1
  rw [View.read_writes_eq_canon _ _ _ (scover1_C_1 c i arg2 harg2 arg3 harg3 arg4 harg4 arg5 harg5 arg6 harg6 hc0 hc1 x0 x1 xs0 xs1)]
  unfold kernelRun1_C
  dsimp only
  sl_unfold_words
  rw [View.canon_cons_unit_zero hz1]
  simp only [View.readAt_eq_ld, Memref.IsWhole.read_unread, View.ld_unit_zero (S := S1024x2048) hz1, View.ld_unit_zero (S := S2048x128) hz1, View.ld_unit_zero (S := S1024x128) hz1, View.ld_unit_zero (S := S1024x1) hz1,
    View.readCov_unit_zero (S := S1024x128) _ hz1, View.readCov_unit_zero (S := S1024x1) _ hz1]

theorem oC1_2 (c : Dev nD) (i : grid1.Coords) (arg2 : Memref sig .tc .vmem S1024x2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1 .f32) (harg6 : arg6.IsWhole) (hc0 : ¬cond1_0 i) (hc1 : cond1_1 i)
    (x0 : Vec F S1024x2048 .i32) (x1 : Vec F S2048x128 .bf16) (xs0 : Vec F S1024x128 .f32) (xs1 : Vec F S1024x1 .f32) :
    out1_C_2 c i arg2 harg2 arg3 harg3 arg4 harg4 arg5 harg5 arg6 harg6 hc0 hc1 x0 x1 xs0 xs1 = k1_pay6 (k1_pay5 x0 xs1) (k1_pay4 x0 xs0 x1) := by
  unfold out1_C_2
  rw [View.read_writes_eq_canon _ _ _ (cover1_C_2 c i arg2 harg2 arg3 harg3 arg4 harg4 arg5 harg5 arg6 harg6 hc0 hc1 x0 x1 xs0 xs1)]
  unfold kernelRun1_C
  dsimp only
  sl_unfold_words
  rw [View.canon_cons_unit_zero hz1]
  simp only [View.readAt_eq_ld, Memref.IsWhole.read_unread, View.ld_unit_zero (S := S1024x2048) hz1, View.ld_unit_zero (S := S2048x128) hz1, View.ld_unit_zero (S := S1024x128) hz1, View.ld_unit_zero (S := S1024x1) hz1,
    View.readCov_unit_zero (S := S1024x128) _ hz1, View.readCov_unit_zero (S := S1024x1) _ hz1]

variable (V : (c : Dev nD) → (b : Ref sig .tc) → Buf (Elt F) ((c : Thread nD τ).loc b))

/-! ## The accumulation, as equations between consecutive points -/

/-- At a row block's first point the accumulators restart from the 0-filled arrays. -/
theorem outs_first1 (c : Dev nD) (t : Fin cfg1.N) (h0 : t.val % 8 = 0) :
    (outsAt1 V c t.val t.isLt).2.1 = k1_pay4 (iblk1 V c 0 t) (k1_pay1 (F := F)) (iblk1 V c 1 t)
    ∧ (outsAt1 V c t.val t.isLt).2.2 = k1_pay5 (iblk1 V c 0 t) (k1_pay2 (F := F)) := by
  have h1 : ¬t.val % 8 = 7 := by omega
  rw [outsAt1_A V c t h0 h1]
  dsimp only
  exact ⟨sA1_0 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t), sA1_1 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t)⟩

/-- At every other point each accumulator is what the point before left plus this point's contribution. -/
theorem outs_next1 (c : Dev nD) (t : Fin cfg1.N) (h0 : ¬t.val % 8 = 0) :
    (outsAt1 V c t.val t.isLt).2.1 = k1_pay4 (iblk1 V c 0 t) (outsAt1 V c (t.val - 1) (Nat.lt_of_le_of_lt (Nat.sub_le _ _) t.isLt)).2.1 (iblk1 V c 1 t)
    ∧ (outsAt1 V c t.val t.isLt).2.2 = k1_pay5 (iblk1 V c 0 t) (outsAt1 V c (t.val - 1) (Nat.lt_of_le_of_lt (Nat.sub_le _ _) t.isLt)).2.2 := by
  by_cases h1 : t.val % 8 = 7
  · rw [outsAt1_C V c t h0 h1]
    dsimp only
    exact ⟨sC1_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sC1_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2⟩
  · rw [outsAt1_B V c t h0 h1]
    dsimp only
    exact ⟨sB1_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sB1_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2⟩

/-- At a row block's last point the output block is the scaled accumulated sum. -/
theorem outs_last1 (c : Dev nD) (t : Fin cfg1.N) (h1 : t.val % 8 = 7) :
    (outsAt1 V c t.val t.isLt).1 = k1_pay6 (outsAt1 V c t.val t.isLt).2.2 (outsAt1 V c t.val t.isLt).2.1 := by
  have h0 : ¬t.val % 8 = 0 := by omega
  rw [outsAt1_C V c t h0 h1]
  dsimp only
  rw [oC1_2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sC1_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sC1_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2]

end Cert.KernelIdeal.Reg1

end
-- ==== Proof.KIReg1Value.lean ====
/-
  Region 1 at the exact instance: what its output array holds after the region. Block (a, j) of the mask is rows
  1024·a … 1024·a + 1023 and columns 2048·j … 2048·j + 2047; grid point t = 8·a + j adds that block's contribution to the row
  block's accumulators, which restart at j = 0; after j = 7 entry (r, q) of the weighted-sum accumulator is the whole row's
  weighted sum and the degree accumulator the whole row's degree, and the output block is their scaled product: the mean
  aggregate of the specification. The four output blocks tile the array.
-/
import proofs.«102029_j50019189129705_1_alg».proof.Proof.KIReg1Eqs
import proofs.«102029_j50019189129705_1_alg».proof.Proof.KIPay
import proofs.«102029_j50019189129705_1_alg».proof.Proof.KISums
import proofs.«102029_j50019189129705_1_alg».proof.Proof.LibTotals
import Idealize.ShloMosaic.Lib.Pipeline.Value

set_option maxRecDepth 16384

noncomputable section

open scoped BigOperators

namespace Cert.KernelIdeal.Reg1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b)) (c : Dev nD)

/-- The mask array and the embedding matrix as the region finds them. -/
abbrev Mk1 : Cert.Spec.SM.Idx → BitVec 32 := V c main_arg2
abbrev Ek1 : Cert.Spec.SE.Idx → EReal := V c main_v15

/-! ## The windows' index maps, decided over the grid -/

theorem idx_facts1 : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, _)

/-! ## The input blocks are the arrays read at the block's offset -/

theorem blk1_0_read (t : Fin cfg1.N) (r : Fin 1024) (k : Fin 2048) (hx : 1024 * (t.val / 8) + r.val < 4096) (hy : 2048 * (t.val % 8) + k.val < 16384) :
    iblk1 V c 0 t (ix2 r k) = Mk1 V c (ix2 ⟨1024 * (t.val / 8) + r.val, hx⟩ ⟨2048 * (t.val % 8) + k.val, hy⟩) := by
  obtain ⟨e0, e1, -⟩ := idx_facts1 t
  show V c main_arg2 (((cfg1.win 0).blk t).view.emb (ix2 r k)) = _
  refine congrArg (V c main_arg2) (funext fun a => Fin.ext ?_)
  match a with
  | ⟨0, _⟩ => show win1_0.index t (0 : Fin 2) * 1024 + 1 * r.val = 1024 * (t.val / 8) + r.val; omega
  | ⟨1, _⟩ => show win1_0.index t (1 : Fin 2) * 2048 + 1 * k.val = 2048 * (t.val % 8) + k.val; omega

theorem blk1_1_read (t : Fin cfg1.N) (k : Fin 2048) (q : Fin 128) (hx : 2048 * (t.val % 8) + k.val < 16384) :
    iblk1 V c 1 t (ix2 k q) = Ek1 V c (ix2 ⟨2048 * (t.val % 8) + k.val, hx⟩ q) := by
  obtain ⟨-, -, e2, e3, -⟩ := idx_facts1 t
  show V c main_v15 (((cfg1.win 1).blk t).view.emb (ix2 k q)) = _
  refine congrArg (V c main_v15) (funext fun a => Fin.ext ?_)
  match a with
  | ⟨0, _⟩ => show win1_1.index t (0 : Fin 2) * 2048 + 1 * k.val = 2048 * (t.val % 8) + k.val; omega
  | ⟨1, _⟩ => show win1_1.index t (1 : Fin 2) * 128 + 1 * q.val = q.val; omega

/-- Point t's contribution to entry (r, q) of its row block's weighted sum. -/
theorem contribW1 (t : Fin cfg1.N) (r : Fin 1024) (q : Fin 128) :
    ∑ k : Fin 2048, (((iblk1 V c 0 t (ix2 r k)).toInt : ℝ) : EReal) * iblk1 V c 1 t (ix2 k q)
      = Cert.Sums.pW (Mk1 V c) (Ek1 V c) r.val q.val t.val := by
  have hN : t.val < 32 := lt_of_lt_of_eq t.isLt (show cfg1.N = 32 from N_1)
  unfold Cert.Sums.pW
  refine Finset.sum_congr rfl fun k _ => ?_
  have hx : 1024 * (t.val / 8) + r.val < 4096 := by have := r.isLt; omega
  have hy : 2048 * (t.val % 8) + k.val < 16384 := by have := k.isLt; omega
  rw [blk1_0_read V c t r k hx hy, blk1_1_read V c t k q hy]
  unfold Cert.Sums.Mn Cert.Sums.En
  rw [dif_pos ⟨hx, hy⟩, dif_pos ⟨hy, q.isLt⟩]
  rfl

/-- Point t's contribution to row r's degree. -/
theorem contribD1 (t : Fin cfg1.N) (r : Fin 1024) :
    ∑ k : Fin 2048, (((iblk1 V c 0 t (ix2 r k)).toInt : ℝ) : EReal) = Cert.Sums.pD (Mk1 V c) r.val t.val := by
  have hN : t.val < 32 := lt_of_lt_of_eq t.isLt (show cfg1.N = 32 from N_1)
  unfold Cert.Sums.pD
  refine Finset.sum_congr rfl fun k _ => ?_
  have hx : 1024 * (t.val / 8) + r.val < 4096 := by have := r.isLt; omega
  have hy : 2048 * (t.val % 8) + k.val < 16384 := by have := k.isLt; omega
  rw [blk1_0_read V c t r k hx hy]
  unfold Cert.Sums.Mn
  rw [dif_pos ⟨hx, hy⟩]
  rfl

/-! ## The accumulators, entry by entry, point by point -/

/-- Entry (r, q) of the weighted-sum accumulator after point n (0 past the grid). -/
def accW1 (r : Fin 1024) (q : Fin 128) (n : ℕ) : EReal := if h : n < cfg1.N then (outsAt1 V c n h).2.1 (ix2 r q) else 0
/-- Row r of the degree accumulator after point n. -/
def accD1 (r : Fin 1024) (n : ℕ) : EReal := if h : n < cfg1.N then (outsAt1 V c n h).2.2 (ix2 r (0 : Fin 1)) else 0

theorem accW1_restart (r : Fin 1024) (q : Fin 128) (n : ℕ) (hn : n < 32) (h0 : n % 8 = 0) :
    accW1 V c r q n = 0 + Cert.Sums.pW (Mk1 V c) (Ek1 V c) r.val q.val n := by
  have hn' : n < cfg1.N := lt_of_lt_of_eq hn (show cfg1.N = 32 from N_1).symm
  unfold accW1; rw [dif_pos hn']
  have e : (outsAt1 V c n hn').2.1 = k1_pay4 (iblk1 V c 0 ⟨n, hn'⟩) (k1_pay1 (F := Ideal)) (iblk1 V c 1 ⟨n, hn'⟩) := (outs_first1 V c ⟨n, hn'⟩ h0).1
  rw [e, Cert.KernelIdeal.Pay.pay4', Cert.KernelIdeal.Pay.pay1']
  exact congrArg (0 + ·) (contribW1 V c ⟨n, hn'⟩ r q)

theorem accD1_restart (r : Fin 1024) (n : ℕ) (hn : n < 32) (h0 : n % 8 = 0) :
    accD1 V c r n = 0 + Cert.Sums.pD (Mk1 V c) r.val n := by
  have hn' : n < cfg1.N := lt_of_lt_of_eq hn (show cfg1.N = 32 from N_1).symm
  unfold accD1; rw [dif_pos hn']
  have e : (outsAt1 V c n hn').2.2 = k1_pay5 (iblk1 V c 0 ⟨n, hn'⟩) (k1_pay2 (F := Ideal)) := (outs_first1 V c ⟨n, hn'⟩ h0).2
  rw [e, Cert.KernelIdeal.Pay.pay5', Cert.KernelIdeal.Pay.pay2']
  exact congrArg (0 + ·) (contribD1 V c ⟨n, hn'⟩ r)

theorem accW1_step (r : Fin 1024) (q : Fin 128) (n : ℕ) (hn : n + 1 < 32) (h0 : (n + 1) % 8 ≠ 0) :
    accW1 V c r q (n + 1) = accW1 V c r q n + Cert.Sums.pW (Mk1 V c) (Ek1 V c) r.val q.val (n + 1) := by
  have hn' : n + 1 < cfg1.N := lt_of_lt_of_eq hn (show cfg1.N = 32 from N_1).symm
  have hn'' : n < cfg1.N := Nat.lt_of_succ_lt hn'
  unfold accW1; rw [dif_pos hn', dif_pos hn'']
  have e : (outsAt1 V c (n + 1) hn').2.1 = k1_pay4 (iblk1 V c 0 ⟨n + 1, hn'⟩) (outsAt1 V c n hn'').2.1 (iblk1 V c 1 ⟨n + 1, hn'⟩) := (outs_next1 V c ⟨n + 1, hn'⟩ h0).1
  rw [e, Cert.KernelIdeal.Pay.pay4']
  exact congrArg (_ + ·) (contribW1 V c ⟨n + 1, hn'⟩ r q)

theorem accD1_step (r : Fin 1024) (n : ℕ) (hn : n + 1 < 32) (h0 : (n + 1) % 8 ≠ 0) :
    accD1 V c r (n + 1) = accD1 V c r n + Cert.Sums.pD (Mk1 V c) r.val (n + 1) := by
  have hn' : n + 1 < cfg1.N := lt_of_lt_of_eq hn (show cfg1.N = 32 from N_1).symm
  have hn'' : n < cfg1.N := Nat.lt_of_succ_lt hn'
  unfold accD1; rw [dif_pos hn', dif_pos hn'']
  have e : (outsAt1 V c (n + 1) hn').2.2 = k1_pay5 (iblk1 V c 0 ⟨n + 1, hn'⟩) (outsAt1 V c n hn'').2.2 := (outs_next1 V c ⟨n + 1, hn'⟩ h0).2
  rw [e, Cert.KernelIdeal.Pay.pay5']
  exact congrArg (_ + ·) (contribD1 V c ⟨n + 1, hn'⟩ r)

/-- After the last point of row block a the accumulators hold the whole row's weighted sum and degree. -/
theorem accW1_last (a : ℕ) (ha : a < 4) (r : Fin 1024) (q : Fin 128) :
    accW1 V c r q (8 * a + 7) = Cert.Spec.wsum (Mk1 V c) (Ek1 V c) ⟨1024 * a + r.val, by have := r.isLt; omega⟩ q := by
  rw [Cert.LibTotals.restart_acc 8 32 (Cert.Sums.pW (Mk1 V c) (Ek1 V c) r.val q.val) (accW1 V c r q)
    (fun h => accW1_restart V c r q 0 h rfl)
    (fun n hn h0 => accW1_restart V c r q (n + 1) hn h0)
    (fun n hn h0 => accW1_step V c r q n hn h0) a 7 (by omega) (by omega)]
  exact Cert.Sums.wsum_of_blocks (Mk1 V c) (Ek1 V c) a r.val q.val ha r.isLt q.isLt

theorem accD1_last (a : ℕ) (ha : a < 4) (r : Fin 1024) :
    accD1 V c r (8 * a + 7) = Cert.Spec.deg (Mk1 V c) ⟨1024 * a + r.val, by have := r.isLt; omega⟩ := by
  rw [Cert.LibTotals.restart_acc 8 32 (Cert.Sums.pD (Mk1 V c) r.val) (accD1 V c r)
    (fun h => accD1_restart V c r 0 h rfl)
    (fun n hn h0 => accD1_restart V c r (n + 1) hn h0)
    (fun n hn h0 => accD1_step V c r n hn h0) a 7 (by omega) (by omega)]
  exact Cert.Sums.deg_of_blocks (Mk1 V c) a r.val ha r.isLt

/-! ## The output array -/

/-- The mean aggregate as one array (natural-number coordinates, guarded). -/
def Gout1 : S4096x128.Idx → EReal := fun i =>
  if h : (i 0).val < 4096 ∧ (i 1).val < 128 then Cert.Spec.agg (Mk1 V c) (Ek1 V c) ⟨(i 0).val, h.1⟩ ⟨(i 1).val, h.2⟩ else 0

theorem Gout1_apply (b : Fin 4096) (d : Fin 128) : Gout1 V c (ix2 b d) = Cert.Spec.agg (Mk1 V c) (Ek1 V c) b d := by
  unfold Gout1
  rw [dif_pos ⟨b.isLt, d.isLt⟩]

/-- What a row block's last point writes back is that block of the mean aggregate. -/
theorem flushed1_eq (t : Fin cfg1.N) (hf : (cfg1.win 2).flush t = true) :
    (dat1 V c).flushed 2 t = ((cfg1.win 2).blk t).view.read (Elt Ideal) (Gout1 V c) := by
  have h7 : t.val % 8 = 7 := (flush1_2 t).mp hf
  have hN : t.val < 32 := lt_of_lt_of_eq t.isLt (show cfg1.N = 32 from N_1)
  obtain ⟨-, -, -, -, e4, e5⟩ := idx_facts1 t
  show (cfg1.win 2).cut (grid1.coords t) ((dat1 V c).after 2 t) = _
  rw [after1_2]
  funext j
  obtain ⟨r, q, rfl⟩ : ∃ (r : Fin 1024) (q : Fin 128), j = ix2 r q := ⟨j 0, j 1, eq_ix2 j⟩
  show (outsAt1 V c t.val t.isLt).1 (ix2 r q) = Gout1 V c (((cfg1.win 2).blk t).view.emb (ix2 r q))
  have hemb : ((cfg1.win 2).blk t).view.emb (ix2 r q) = ix2 (⟨1024 * (t.val / 8) + r.val, by have := r.isLt; omega⟩ : Fin 4096) q := by
    funext a; apply Fin.ext
    match a with
    | ⟨0, _⟩ => show win1_2.index t (0 : Fin 2) * 1024 + 1 * r.val = 1024 * (t.val / 8) + r.val; omega
    | ⟨1, _⟩ => show win1_2.index t (1 : Fin 2) * 128 + 1 * q.val = q.val; omega
  rw [hemb, Gout1_apply, outs_last1 V c t h7, Cert.KernelIdeal.Pay.pay6']
  have ht : t.val = 8 * (t.val / 8) + 7 := by omega
  have hW := accW1_last V c (t.val / 8) (by omega) r q
  have hD := accD1_last V c (t.val / 8) (by omega) r
  unfold accW1 at hW; unfold accD1 at hD
  rw [← ht, dif_pos t.isLt] at hW hD
  unfold Cert.Spec.agg
  rw [hW, hD]

/-- An index of the array is in point t's output block iff each coordinate is in the block's range. -/
theorem mem_blk1 (t : Fin cfg1.N) (i : S4096x128.Idx) :
    i ∈ ((cfg1.win 2).blk t).view.set ↔ ∀ a : Fin 2, win1_2.index t a * S1024x128.size a ≤ (i a).val ∧ (i a).val < win1_2.index t a * S1024x128.size a + S1024x128.size a := by
  show i ∈ ((View.whole main_v17).slice (win1_2.rect t)).set ↔ _
  rw [View.set_slice_whole, Rect.mem_set_unit]
  exact Iff.rfl

/-- The four output blocks cover the array: row i is in the block written back at the last point of its row block. -/
theorem cover1 (i : S4096x128.Idx) : ∃ t : Fin cfg1.N, (cfg1.win 2).flush t = true ∧ i ∈ ((cfg1.win 2).blk t).view.set := by
  have hi0 : (i 0).val < 4096 := (i 0).isLt
  have hi1 : (i 1).val < 128 := (i 1).isLt
  have hN : cfg1.N = 32 := N_1
  let t : Fin cfg1.N := ⟨8 * ((i 0).val / 1024) + 7, lt_of_lt_of_eq (by omega : 8 * ((i 0).val / 1024) + 7 < 32) hN.symm⟩
  have htv : t.val = 8 * ((i 0).val / 1024) + 7 := rfl
  obtain ⟨-, -, -, -, e4, e5⟩ := idx_facts1 t
  refine ⟨t, (flush1_2 t).mpr (by omega), ?_⟩
  rw [mem_blk1]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 128 ≤ (i 1).val ∧ (i 1).val < win1_2.index t (1 : Fin 2) * 128 + 128; omega

/-- THE OUTPUT ARRAY after the region: the mean aggregate of the mask and the embedding matrix the region found. -/
theorem final1 : (dat1 V c).arrAt 2 cfg1.N = Gout1 V c :=
  (dat1 V c).arrAt_eq_of_cover 2 (Gout1 V c) (fun t hf => flushed1_eq V c t hf) (cover1)

end Cert.KernelIdeal.Reg1

end
-- ==== Proof.KITail.lean ====
/-
  The program's last host operations: two [4096, 128] arrays A0 and A1 are mixed with the one-element array γ,
    result(b, d) = A0(b, d) · γ + A1(b, d) · (1 - γ),
  where γ is broadcast to [1, 1] and then to [4096, 128], and the number 1 (spelt as its f32 word) is broadcast to [1]
  before γ is subtracted from it. Every broadcast here has a source whose axes all have extent one, so every entry of
  its result reads the source's one element.
-/
import proofs.«102029_j50019189129705_1_alg».proof.KernelIdeal
import Idealize.ShloMosaic.Lib.ValueIdx
import Idealize.ShloMosaic.Lib.ValueLayout
import Idealize.ShloMosaic.Lib.Pipeline.Value

noncomputable section

namespace Cert.KernelIdeal.Tail

open Cert.KernelIdeal Cert.KernelIdeal.Facts₀ Idealize.ShloMosaic Idealize.ShloMosaic.ValueIdx

variable [Cert.KernelIdeal.Facts]

/-- The mixing of the two arrays with γ, as the program's operations compose. -/
def tail (A0 A1 : FVec Ideal S4096x128 .f32) (g : FVec Ideal S1 .f32) : FVec Ideal S4096x128 .f32 :=
  addf (mulf A0 (broadcastInDim S4096x128 ![0, 1] bcast_S1x1_S4096x128_0_1 (broadcastInDim S1x1 ![1] bcast_S1_S1x1_1 g)))
    (mulf A1 (broadcastInDim S4096x128 ![0, 1] bcast_S1x1_S4096x128_0_1 (broadcastInDim S1x1 ![1] bcast_S1_S1x1_1
      (subf (broadcastInDim S1 ![] bcast_S_S1 (constant (F := Ideal) S_ .f32 0x3F800000#32)) g))))

/-- A [1, 1] array broadcast to [4096, 128]: every entry reads the one element. -/
theorem bc_outer {α : Type} (y : S1x1.Idx → α) (b : Fin 4096) (d : Fin 128) :
    broadcastInDim S4096x128 ![0, 1] bcast_S1x1_S4096x128_0_1 y (ix2 b d) = y (ix2 (0 : Fin 1) (0 : Fin 1)) :=
  broadcastInDim_apply _ bcast_S1x1_S4096x128_0_1 y (ix2 b d) (ix2 (0 : Fin 1) (0 : Fin 1)) (fun a => match a with
    | ⟨0, _⟩ => by show 0 = if (1 : Nat) = 1 then 0 else b.val; rw [if_pos rfl]
    | ⟨1, _⟩ => by show 0 = if (1 : Nat) = 1 then 0 else d.val; rw [if_pos rfl])

/-- A [1] array as a [1, 1] array: the one element. -/
theorem bc_inner {α : Type} (g : S1.Idx → α) :
    broadcastInDim S1x1 ![1] bcast_S1_S1x1_1 g (ix2 (0 : Fin 1) (0 : Fin 1)) = g (ix1 (0 : Fin 1)) :=
  broadcastInDim_apply _ bcast_S1_S1x1_1 g (ix2 (0 : Fin 1) (0 : Fin 1)) (ix1 (0 : Fin 1)) (fun a => match a with
    | ⟨0, _⟩ => by show 0 = if (1 : Nat) = 1 then 0 else 0; rw [if_pos rfl])

/-- A scalar broadcast to [1]: the scalar. -/
theorem bc_scalar {α : Type} (c : S_.Idx → α) (i : S1.Idx) :
    broadcastInDim S1 ![] bcast_S_S1 c i = c ix0 :=
  broadcastInDim_apply _ bcast_S_S1 c i ix0 (fun a => a.elim0)

/-- The mixing at an index. -/
theorem tail_apply (A0 A1 : FVec Ideal S4096x128 .f32) (g : FVec Ideal S1 .f32) (b : Fin 4096) (d : Fin 128) :
    tail A0 A1 g (ix2 b d) = A0 (ix2 b d) * g (ix1 0) + A1 (ix2 b d) * (Ideal.ofBits .f32 0x3F800000#32 - g (ix1 0)) := by
  unfold tail
  rw [addf_apply, mulf_apply, mulf_apply, bc_outer, bc_outer, bc_inner, bc_inner, subf_apply, bc_scalar]
  rfl

end Cert.KernelIdeal.Tail

end
-- ==== Proof.KIResult.lean ====
/-
  The idealized kernel's result. After the two regions the arrays they wrote hold the two mean aggregates (of the masks as
  launched and of the two gathered embedding matrices the first host stretch computed); the last host stretch mixes them with
  gamma and 1 - gamma. So the result array is the specification's function `G` of the argument arrays and the two gathered
  matrices, index by index, and the argument arrays end as launched.
-/
import proofs.«102029_j50019189129705_1_alg».proof.Proof.KIRun
import proofs.«102029_j50019189129705_1_alg».proof.Proof.KIReg0Value
import proofs.«102029_j50019189129705_1_alg».proof.Proof.KIReg1Value
import proofs.«102029_j50019189129705_1_alg».proof.Proof.KITail
import Idealize.ShloMosaic.Lib.StableHlo.Run

set_option maxRecDepth 16384

noncomputable section

namespace Cert.KernelIdeal.Result

open Cert.KernelIdeal Cert.KernelIdeal.Gen Cert.KernelIdeal.Reg0 Cert.KernelIdeal.Reg1 Cert.KernelIdeal.Run
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The two gathered embedding matrices, as the first host stretch leaves them. -/
abbrev E0 (c : Dev nD) : Cert.Spec.SE.Idx → EReal := W1 m c (Proc.devRef .tc main_v7)
abbrev E1 (c : Dev nD) : Cert.Spec.SE.Idx → EReal := W1 m c (Proc.devRef .tc main_v15)

/-! ## What the regions read and wrote -/

theorem W1_arg0 (c : Dev nD) : W1 m c (Proc.devRef .tc main_arg0) = m ((c : Thread nD τ).loc main_arg0) :=
  StableHlo.after_of_writes_sub hostOps0 _ hostOps0_writes (by decide : main_arg0 ∉ hostOps0_W)
theorem W2_arg2 (c : Dev nD) : W2 m c (Proc.devRef .tc main_arg2) = m ((c : Thread nD τ).loc main_arg2) :=
  (W2_of_ne m c main_arg2 (by decide)).trans (StableHlo.after_of_writes_sub hostOps0 _ hostOps0_writes (by decide : main_arg2 ∉ hostOps0_W))
theorem W2_v15 (c : Dev nD) : W2 m c (Proc.devRef .tc main_v15) = W1 m c (Proc.devRef .tc main_v15) :=
  W2_of_ne m c main_v15 (by decide)
theorem W3_arg6 (c : Dev nD) : W3 m c (Proc.devRef .tc main_arg6) = m ((c : Thread nD τ).loc main_arg6) :=
  (W3_of_ne m c main_arg6 (by decide)).trans ((W2_of_ne m c main_arg6 (by decide)).trans
    (StableHlo.after_of_writes_sub hostOps0 _ hostOps0_writes (by decide : main_arg6 ∉ hostOps0_W)))
theorem W3_v16 (c : Dev nD) : W3 m c (Proc.devRef .tc main_v16) = Gout0 (Run.V1 m) c :=
  (W3_of_ne m c main_v16 (by decide)).trans ((W2_arr m c 2).trans (final0 (Run.V1 m) c))
theorem W3_v17 (c : Dev nD) : W3 m c (Proc.devRef .tc main_v17) = Gout1 (Run.V2 m) c :=
  (W3_arr m c 2).trans (final1 (Run.V2 m) c)

/-- The last host stretch applied to what the regions left. -/
theorem W4_v26 (c : Dev nD) : W4 m c (Proc.devRef .tc main_v26)
    = Cert.KernelIdeal.Tail.tail (W3 m c (Proc.devRef .tc main_v16)) (W3 m c (Proc.devRef .tc main_v17)) (W3 m c (Proc.devRef .tc main_arg6)) := by
  show StableHlo.after hostOps2 (W3 m c) (Proc.devRef .tc main_v26) = _
  after_results
  rfl

/-- THE RESULT ARRAY is the specification's function of the arguments and the gathered matrices. -/
theorem result_eq (c : Dev nD) : W4 m c (Proc.devRef .tc main_v26)
    = Cert.Spec.G (m ((c : Thread nD τ).loc main_arg0)) (E0 m c) (m ((c : Thread nD τ).loc main_arg2)) (E1 m c) (m ((c : Thread nD τ).loc main_arg6)) := by
  rw [W4_v26, W3_v16, W3_v17, W3_arg6]
  funext i
  obtain ⟨b, d, rfl⟩ : ∃ (b : Fin 4096) (d : Fin 128), i = ix2 b d := ⟨i 0, i 1, eq_ix2 i⟩
  rw [Cert.KernelIdeal.Tail.tail_apply, Gout0_apply, Gout1_apply, Cert.Spec.G_apply]
  show Cert.Spec.agg (Run.V1 m c main_arg0) (Run.V1 m c main_v7) b d * _ + Cert.Spec.agg (Run.V2 m c main_arg2) (Run.V2 m c main_v15) b d * _ = _
  rw [show Run.V1 m c main_arg0 = m ((c : Thread nD τ).loc main_arg0) from W1_arg0 m c,
    show Run.V2 m c main_arg2 = m ((c : Thread nD τ).loc main_arg2) from W2_arg2 m c,
    show Run.V2 m c main_v15 = W1 m c (Proc.devRef .tc main_v15) from W2_v15 m c]

/-- The run of the idealized kernel with its result named. -/
theorem run : θ_run defs (onTc (τ := τ) (main (F := Ideal))) ⟨m, fun _ => 0, ρ⟩ (fun r => ∀ c : Dev nD,
      r.2.mem ((c.tc : Thread nD τ).loc main_v26) = Cert.Spec.G (m ((c : Thread nD τ).loc main_arg0)) (E0 m c) (m ((c : Thread nD τ).loc main_arg2)) (E1 m c) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v26 (by decide))).trans (result_eq m c),
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c)⟩) (run_main m ρ)

end Cert.KernelIdeal.Result

end
-- ==== Proof.RefG.lean ====
/-
  The reference program, read index by index, is the specification's function.

  Per relation the reference turns the integer mask into numbers m(b,u), sums each row to its degree
  deg b = 0 + ∑ u, m(b,u), replaces the row by m(b,u) / deg b where the degree is positive and by 0
  elsewhere, and multiplies the result with the gathered embedding matrix E. On the extended reals a
  positive degree is not zero, so the quotient is m(b,u) · (deg b)⁻¹; in both cases the selected weight is
  m(b,u) · scale (deg b), and the product with E is the specification's aggregate in its summed form.
  The two aggregates are then mixed with the weights γ and 1 - γ.
-/
import proofs.«102029_j50019189129705_1_alg».proof.Proof.RefReadP
import proofs.«102029_j50019189129705_1_alg».proof.Proof.Spec

noncomputable section

open scoped BigOperators

namespace Cert.RefG

open Cert.ReferenceIdeal Cert.ReferenceIdeal.Read Idealize.ShloMosaic Idealize.ShloMosaic.ValueIdx

/-! ## Index equations: the composed index functions of the layout operations, on coordinates -/

/-- Row b of the mask, entry u: the row sum's operand index under the column broadcast. -/
theorem idx_row (b : Fin 4096) (z : Fin 1) (u : Fin 16384) :
    idx_main_v1 (idx_main_v2 (ix2 b z)) u = ix2 b u :=
  funext fun a => Fin.ext (by match a with | ⟨0, _⟩ => rfl | ⟨1, _⟩ => rfl)

/-- The comparison's broadcast along a row reads column 0 of row b. -/
theorem idx_cmp (b : Fin 4096) (u : Fin 16384) :
    idx_main_call0_v0 (ix2 b u) = ix2 b (0 : Fin 1) :=
  funext fun a => Fin.ext (by match a with | ⟨0, _⟩ => rfl | ⟨1, _⟩ => rfl)

/-- The degree's broadcast along a row reads column 0 of row b. -/
theorem idx_deg (b : Fin 4096) (u : Fin 16384) :
    idx_main_v5 (ix2 b u) = ix2 b (0 : Fin 1) :=
  funext fun a => Fin.ext (by match a with | ⟨0, _⟩ => rfl | ⟨1, _⟩ => rfl)

/-- The product's left operand at (b, d), contraction index u, is the weight at (b, u). -/
theorem idx_lhs (b : Fin 4096) (d : Fin 128) (u : Fin 16384) :
    lidx_main_v16 (ix2 b d) u = ix2 b u :=
  funext fun a => Fin.ext (by match a with | ⟨0, _⟩ => rfl | ⟨1, _⟩ => rfl)

/-- The product's right operand at (b, d), contraction index u, is the embedding at (u, d). -/
theorem idx_rhs (b : Fin 4096) (d : Fin 128) (u : Fin 16384) :
    ridx_main_v16 (ix2 b d) u = ix2 u d :=
  funext fun a => Fin.ext (by match a with | ⟨0, _⟩ => rfl | ⟨1, _⟩ => rfl)

/-- Both broadcasts of γ read its one element. -/
theorem idx_gamma (b : Fin 4096) (d : Fin 128) :
    idx_main_v34 (idx_main_v35 (ix2 b d)) = ix1 (0 : Fin 1) :=
  funext fun a => Fin.ext (by match a with | ⟨0, _⟩ => rfl)

theorem idx_gamma' (b : Fin 4096) (d : Fin 128) :
    idx_main_v39 (idx_main_v40 (ix2 b d)) = ix1 (0 : Fin 1) :=
  funext fun a => Fin.ext (by match a with | ⟨0, _⟩ => rfl)

/-! ## One relation -/

/-- The degree of row b as the reference computes it: the zero word plus the sum of the row's entries. -/
theorem deg_read (x0 : (⟨S4096x16384, .i32⟩ : BufTy).Contents (Elt Ideal)) (b : Fin 4096) (z : Fin 1) :
    val_main_v2 (F := Ideal) x0 (ix2 b z) = ∑ u : Fin 16384, ((BitVec.toInt (x0 (ix2 b u)) : ℝ) : EReal) := by
  rw [val_main_v2_apply, val_main_v1_apply, val_main_cst_apply]
  simp only [Ideal.ofBits_def, Ideal.ofBits_zero_f32, zero_add]
  refine Finset.sum_congr rfl fun u _ => ?_
  rw [val_main_v0_apply, idx_row]
  rfl

/-- The select on "the degree is positive" between the quotient and 0 is the product with the scale: a positive
    degree is not zero, so the quotient is the product with the inverse; otherwise both sides are 0. -/
theorem sel_scalar (m D : EReal) :
    Scalar.select (Ideal.cmp .ogt D 0) (Ideal.div m D) 0 = m * (if 0 < D then D⁻¹ else 0) := by
  by_cases h : 0 < D
  · have hne : D ≠ 0 := ne_of_gt h
    simp [Ideal.cmp, Ideal.div, Scalar.select, h, hne]
  · simp [Ideal.cmp, Scalar.select, h]

/-- The selected weight at (b, u). -/
theorem sel_read (x0 : (⟨S4096x16384, .i32⟩ : BufTy).Contents (Elt Ideal)) (b : Fin 4096) (u : Fin 16384) :
    val_main_v8 (F := Ideal) x0 (ix2 b u) =
      ((BitVec.toInt (x0 (ix2 b u)) : ℝ) : EReal) *
        (if 0 < ∑ u' : Fin 16384, ((BitVec.toInt (x0 (ix2 b u')) : ℝ) : EReal)
          then (∑ u' : Fin 16384, ((BitVec.toInt (x0 (ix2 b u')) : ℝ) : EReal))⁻¹ else 0) := by
  rw [val_main_v8_apply, val_main_call0_v0_apply, val_main_v4_apply, val_main_v6_apply, val_main_v5_apply,
    val_main_v3_apply, val_main_v7_apply, val_main_cst_0_apply, val_main_cst_1_apply, val_main_v0_apply,
    idx_cmp, idx_deg, deg_read]
  simp only [Ideal.ofBits_def, Ideal.ofBits_zero_f32, Ideal.cmpf_def, Ideal.hostDivf_def]
  exact sel_scalar _ _

/-- The first relation's product at (b, d) is the specification's aggregate of the mask and the gathered embeddings:
    the product is the sum over u of the selected weight times the embedding, the aggregate's summed form. -/
theorem agg_read (x0 : (⟨S4096x16384, .i32⟩ : BufTy).Contents (Elt Ideal)) (x1 : (⟨S16384, .i32⟩ : BufTy).Contents (Elt Ideal))
    (x4 : (⟨S50000x128, .f32⟩ : BufTy).Contents (Elt Ideal)) (b : Fin 4096) (d : Fin 128) :
    val_main_v16 (F := Ideal) x0 x1 x4 (ix2 b d) = Cert.Spec.agg x0 (val_main_v15 (F := Ideal) x1 x4) b d := by
  rw [val_main_v16_apply, Cert.Spec.agg_eq_sum]
  refine Finset.sum_congr rfl fun u _ => ?_
  rw [idx_lhs, idx_rhs, sel_read]
  rfl

/-- The second relation's stages are the first's, operation for operation, on the other mask, index vector and table. -/
theorem agg_read' (x2 : (⟨S4096x16384, .i32⟩ : BufTy).Contents (Elt Ideal)) (x3 : (⟨S16384, .i32⟩ : BufTy).Contents (Elt Ideal))
    (x5 : (⟨S50000x128, .f32⟩ : BufTy).Contents (Elt Ideal)) (b : Fin 4096) (d : Fin 128) :
    val_main_v33 (F := Ideal) x2 x3 x5 (ix2 b d) = Cert.Spec.agg x2 (val_main_v32 (F := Ideal) x3 x5) b d :=
  agg_read x2 x3 x5 b d

/-! ## The whole reference -/

open Cert.ReferenceIdeal Cert.ReferenceIdeal.Read in
theorem ref_is_G (x0 : (⟨S4096x16384, .i32⟩ : BufTy).Contents (Elt Ideal)) (x1 : (⟨S16384, .i32⟩ : BufTy).Contents (Elt Ideal)) (x2 : (⟨S4096x16384, .i32⟩ : BufTy).Contents (Elt Ideal)) (x3 : (⟨S16384, .i32⟩ : BufTy).Contents (Elt Ideal)) (x4 x5 : (⟨S50000x128, .f32⟩ : BufTy).Contents (Elt Ideal)) (x6 : (⟨S1, .f32⟩ : BufTy).Contents (Elt Ideal)) :
    val_main_v42 (F := Ideal) x0 x1 x2 x3 x4 x5 x6 = Cert.Spec.G x0 (val_main_v15 (F := Ideal) x1 x4) x2 (val_main_v32 (F := Ideal) x3 x5) x6 := by
  funext i
  obtain ⟨b, d, rfl⟩ : ∃ (b : Fin 4096) (d : Fin 128), i = ix2 b d := ⟨i 0, i 1, eq_ix2 i⟩
  rw [Cert.Spec.G_apply, val_main_v42_apply, val_main_v36_apply, val_main_v41_apply, val_main_v35_apply, val_main_v34_apply,
    val_main_v40_apply, val_main_v39_apply, val_main_v38_apply, val_main_v37_apply, val_main_cst_8_apply,
    idx_gamma, idx_gamma', agg_read, agg_read']
  simp only [Ideal.ofBits_def, Ideal.addf_def, Ideal.mulf_def, Ideal.subf_def]

end Cert.RefG

end
-- ==== Proof.lean ====
/-
  The claim: the kernel (mask-mean aggregation of two relations by a blocked matrix product with the degree accumulated beside
  it, mixed by gamma) and its idealization run to the end and keep their arguments; the idealization rewrote nothing; and at the
  exact instance the idealized kernel and the idealized reference compute the same array.

  Both programs gather the same embedding rows by the same host operations, so the two gathered matrices are carried as they
  are. For each relation the kernel adds, over the eight column blocks of a row block, the block's product mask · embeddings into
  one accumulator and the block's row sums into another, and at the last block multiplies the accumulated product by 1/degree
  where the degree is positive and by 0 elsewhere. The reference divides every mask entry by its row's degree first (0 where the
  degree is not positive) and multiplies afterwards. The two agree on extended reals with no finiteness: a sum may be regrouped
  into blocks, and a product with a non-negative finite number (the scale) distributes over a sum.
-/
import proofs.«102029_j50019189129705_1_alg».proof.Defs
import proofs.«102029_j50019189129705_1_alg».proof.Proof.Gen.Kernel
import proofs.«102029_j50019189129705_1_alg».proof.Proof.Gen.KernelIdeal
import proofs.«102029_j50019189129705_1_alg».proof.Proof.Gen.ReferenceIdeal
import proofs.«102029_j50019189129705_1_alg».proof.Proof.Gen.Pre_finite_inputs
import proofs.«102029_j50019189129705_1_alg».proof.Proof.KRun
import proofs.«102029_j50019189129705_1_alg».proof.Proof.KIResult
import proofs.«102029_j50019189129705_1_alg».proof.Proof.RefG
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Run.frame m ρ
theorem frame_ki : Cert.frame_KernelIdeal := fun m ρ _ => Cert.KernelIdeal.Run.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The first gathered matrix is the same term in both programs: the rows of the table picked by the index vector, a negative
    index counted from the end. (The kernel also narrows it to bf16, which is no change at the exact instance.) -/
theorem emb0_eq (m : (ℓ : Loc Cert.KernelIdeal.nD Cert.KernelIdeal.τ Cert.KernelIdeal.sig) → Buf (Elt Ideal) ℓ) (c : Dev Cert.KernelIdeal.nD) :
    Cert.KernelIdeal.Result.E0 m c
      = Cert.ReferenceIdeal.Read.val_main_v15 (F := Ideal) (m ((c.tc : Thread Cert.KernelIdeal.nD Cert.KernelIdeal.τ).loc Cert.KernelIdeal.main_arg1))
          (m ((c.tc : Thread Cert.KernelIdeal.nD Cert.KernelIdeal.τ).loc Cert.KernelIdeal.main_arg4)) := by
  show StableHlo.after Cert.KernelIdeal.Gen.hostOps0 (Cert.KernelIdeal.Run.W0 m c) (Proc.devRef .tc Cert.KernelIdeal.main_v7) = _
  after_results
  rfl

/-- The second gathered matrix likewise. -/
theorem emb1_eq (m : (ℓ : Loc Cert.KernelIdeal.nD Cert.KernelIdeal.τ Cert.KernelIdeal.sig) → Buf (Elt Ideal) ℓ) (c : Dev Cert.KernelIdeal.nD) :
    Cert.KernelIdeal.Result.E1 m c
      = Cert.ReferenceIdeal.Read.val_main_v32 (F := Ideal) (m ((c.tc : Thread Cert.KernelIdeal.nD Cert.KernelIdeal.τ).loc Cert.KernelIdeal.main_arg3))
          (m ((c.tc : Thread Cert.KernelIdeal.nD Cert.KernelIdeal.τ).loc Cert.KernelIdeal.main_arg5)) := by
  show StableHlo.after Cert.KernelIdeal.Gen.hostOps0 (Cert.KernelIdeal.Run.W0 m c) (Proc.devRef .tc Cert.KernelIdeal.main_v15) = _
  after_results
  rfl

/-- At the exact instance both programs end with the specification's array of the arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (Cert.KernelIdeal.Result.E0 m c)
      (m ((c.tc : Thread Cert.KernelIdeal.nD Cert.KernelIdeal.τ).loc Cert.KernelIdeal.main_arg2)) (Cert.KernelIdeal.Result.E1 m c)
      (m ((c.tc : Thread Cert.KernelIdeal.nD Cert.KernelIdeal.τ).loc Cert.KernelIdeal.main_arg6)), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v42_eq, Cert.RefG.ref_is_G, a0, a1, a2, a3, a4, a5, a6]
  show _ = Cert.Spec.G _ (Cert.KernelIdeal.Result.E0 m c) _ (Cert.KernelIdeal.Result.E1 m c) _
  rw [emb0_eq m c, emb1_eq m c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
